-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩

abbrev nBuf : Space → Nat
  | .hbm => 104
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S100000, .i32⟩
  | .hbm, ⟨13, _⟩ => ⟨S700000, .i32⟩
  | .hbm, ⟨14, _⟩ => ⟨S700000, .i32⟩
  | .hbm, ⟨15, _⟩ => ⟨S_, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S700000, .i32⟩
  | .hbm, ⟨24, _⟩ => ⟨S700000, .i1⟩
  | .hbm, ⟨25, _⟩ => ⟨S_, .i32⟩
  | .hbm, ⟨26, _⟩ => ⟨S700000, .i32⟩
  | .hbm, ⟨27, _⟩ => ⟨S700000, .i32⟩
  | .hbm, ⟨28, _⟩ => ⟨S700000, .i32⟩
  | .hbm, ⟨29, _⟩ => ⟨S700000x1, .i32⟩
  | .hbm, ⟨30, _⟩ => ⟨S700000, .f32⟩
  | .hbm, ⟨31, _⟩ => ⟨S_, .i32⟩
  | .hbm, ⟨32, _⟩ => ⟨S700000, .i32⟩
  | .hbm, ⟨33, _⟩ => ⟨S700000, .i1⟩
  | .hbm, ⟨34, _⟩ => ⟨S_, .i32⟩
  | .hbm, ⟨35, _⟩ => ⟨S700000, .i32⟩
  | .hbm, ⟨36, _⟩ => ⟨S700000, .i32⟩
  | .hbm, ⟨37, _⟩ => ⟨S700000, .i32⟩
  | .hbm, ⟨38, _⟩ => ⟨S700000x1, .i32⟩
  | .hbm, ⟨39, _⟩ => ⟨S700000, .f32⟩
  | .hbm, ⟨40, _⟩ => ⟨S700000, .f32⟩
  | .hbm, ⟨41, _⟩ => ⟨S100000x128, .f32⟩
  | .hbm, ⟨42, _⟩ => ⟨S_, .i32⟩
  | .hbm, ⟨43, _⟩ => ⟨S700000, .i32⟩
  | .hbm, ⟨44, _⟩ => ⟨S700000, .i1⟩
  | .hbm, ⟨45, _⟩ => ⟨S_, .i32⟩
  | .hbm, ⟨46, _⟩ => ⟨S700000, .i32⟩
  | .hbm, ⟨47, _⟩ => ⟨S700000, .i32⟩
  | .hbm, ⟨48, _⟩ => ⟨S700000, .i32⟩
  | .hbm, ⟨49, _⟩ => ⟨S700000x1, .i32⟩
  | .hbm, ⟨50, _⟩ => ⟨S700000x128, .f32⟩
  | .hbm, ⟨51, _⟩ => ⟨S700000x1, .f32⟩
  | .hbm, ⟨52, _⟩ => ⟨S700000x128, .f32⟩
  | .hbm, ⟨53, _⟩ => ⟨S700000x128, .f32⟩
  | .hbm, ⟨54, _⟩ => ⟨S_, .f32⟩
  | .hbm, ⟨55, _⟩ => ⟨S100000x128, .f32⟩
  | .hbm, ⟨56, _⟩ => ⟨S700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S1x128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S700000, .i32⟩
  | .hbm, ⟨87, _⟩ => ⟨S700000, .i1⟩
  | .hbm, ⟨88, _⟩ => ⟨S_, .i32⟩
  | .hbm, ⟨89, _⟩ => ⟨S700000, .i32⟩
  | .hbm, ⟨90, _⟩ => ⟨S700000, .i32⟩
  | .hbm, ⟨91, _⟩ => ⟨S700000, .i32⟩
  | .hbm, ⟨92, _⟩ => ⟨S700000x1, .i32⟩
  | .hbm, ⟨93, _⟩ => ⟨S700000x128, .f32⟩
  | .hbm, ⟨94, _⟩ => ⟨S700000x1, .f32⟩
  | .hbm, ⟨95, _⟩ => ⟨S700000x128, .f32⟩
  | .hbm, ⟨96, _⟩ => ⟨S700000x128, .f32⟩
  | .hbm, ⟨97, _⟩ => ⟨S_, .f32⟩
  | .hbm, ⟨98, _⟩ => ⟨S100000x128, .f32⟩
  | .hbm, ⟨99, _⟩ => ⟨S700000x1, .i32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44_0 : Ref sig .tc := ⟨.hbm, 61, rfl⟩
abbrev main_v44_1 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_10 : Ref sig .tc := ⟨.hbm, 85, rfl⟩
abbrev main_v64 : Ref sig .tc := ⟨.hbm, 86, rfl⟩
abbrev main_v65 : Ref sig .tc := ⟨.hbm, 87, rfl⟩
abbrev main_c_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S5000x128 : S1x128.Broadcasts S5000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S1x600000, .i32⟩
  | 9 => ⟨S600000, .i32⟩
  | 10 => ⟨S1x600000, .i32⟩
  | 11 => ⟨S600000, .i32⟩
  | 12 => ⟨S100000x128, .f32⟩
  | 13 => ⟨S100000, .i32⟩
  | 14 => ⟨S700000, .i32⟩
  | 15 => ⟨S700000, .i32⟩
  | 16 => ⟨S_, .f32⟩
  | 17 => ⟨S700000, .f32⟩
  | 18 => ⟨S_, .f32⟩
  | 19 => ⟨S100000, .f32⟩
  | 20 => ⟨S700000x1, .i32⟩
  | 21 => ⟨S100000, .f32⟩
  | 22 => ⟨S100000, .f32⟩
  | 23 => ⟨S_, .i32⟩
  | 24 => ⟨S700000, .i32⟩
  | 25 => ⟨S700000, .i1⟩
  | 26 => ⟨S_, .i32⟩
  | 27 => ⟨S700000, .i32⟩
  | 28 => ⟨S700000, .i32⟩
  | 29 => ⟨S700000, .i32⟩
  | 30 => ⟨S700000x1, .i32⟩
  | 31 => ⟨S700000, .f32⟩
  | 32 => ⟨S_, .i32⟩
  | 33 => ⟨S700000, .i32⟩
  | 34 => ⟨S700000, .i1⟩
  | 35 => ⟨S_, .i32⟩
  | 36 => ⟨S700000, .i32⟩
  | 37 => ⟨S700000, .i32⟩
  | 38 => ⟨S700000, .i32⟩
  | 39 => ⟨S700000x1, .i32⟩
  | 40 => ⟨S700000, .f32⟩
  | 41 => ⟨S700000, .f32⟩
  | 42 => ⟨S_, .i32⟩
  | 43 => ⟨S700000, .i32⟩
  | 44 => ⟨S700000, .i1⟩
  | 45 => ⟨S_, .i32⟩
  | 46 => ⟨S700000, .i32⟩
  | 47 => ⟨S700000, .i32⟩
  | 48 => ⟨S700000, .i32⟩
  | 49 => ⟨S700000x1, .i32⟩
  | 50 => ⟨S700000x128, .f32⟩
  | 51 => ⟨S700000x1, .f32⟩
  | 52 => ⟨S700000x128, .f32⟩
  | 53 => ⟨S700000x128, .f32⟩
  | 54 => ⟨S_, .f32⟩
  | 55 => ⟨S100000x128, .f32⟩
  | 56 => ⟨S700000x1, .i32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S_, .f32⟩
  | 64 => ⟨S128, .f32⟩
  | 65 => ⟨S128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S100000x128, .f32⟩
  | 74 => ⟨S100000x128, .f32⟩
  | 75 => ⟨S100000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S100000, .i32⟩
  | 110 => ⟨S700000, .i32⟩
  | 111 => ⟨S700000, .i32⟩
  | 112 => ⟨S_, .f32⟩
  | 113 => ⟨S700000, .f32⟩
  | 114 => ⟨S_, .f32⟩
  | 115 => ⟨S100000, .f32⟩
  | 116 => ⟨S700000x1, .i32⟩
  | 117 => ⟨S100000, .f32⟩
  | 118 => ⟨S100000, .f32⟩
  | 119 => ⟨S_, .i32⟩
  | 120 => ⟨S700000, .i32⟩
  | 121 => ⟨S700000, .i1⟩
  | 122 => ⟨S_, .i32⟩
  | 123 => ⟨S700000, .i32⟩
  | 124 => ⟨S700000, .i32⟩
  | 125 => ⟨S700000, .i32⟩
  | 126 => ⟨S700000x1, .i32⟩
  | 127 => ⟨S700000, .f32⟩
  | _ => ⟨S100000x128, .f32⟩

abbrev hbmTy0_1 (i : Nat) : BufTy := match i % 128 with
  | 0 => ⟨S_, .i32⟩
  | 1 => ⟨S700000, .i32⟩
  | 2 => ⟨S700000, .i1⟩
  | 3 => ⟨S_, .i32⟩
  | 4 => ⟨S700000, .i32⟩
  | 5 => ⟨S700000, .i32⟩
  | 6 => ⟨S700000, .i32⟩
  | 7 => ⟨S700000x1, .i32⟩
  | 8 => ⟨S700000, .f32⟩
  | 9 => ⟨S700000, .f32⟩
  | 10 => ⟨S_, .i32⟩
  | 11 => ⟨S700000, .i32⟩
  | 12 => ⟨S700000, .i1⟩
  | 13 => ⟨S_, .i32⟩
  | 14 => ⟨S700000, .i32⟩
  | 15 => ⟨S700000, .i32⟩
  | 16 => ⟨S700000, .i32⟩
  | 17 => ⟨S700000x1, .i32⟩
  | 18 => ⟨S700000x128, .f32⟩
  | 19 => ⟨S700000x1, .f32⟩
  | 20 => ⟨S700000x128, .f32⟩
  | 21 => ⟨S700000x128, .f32⟩
  | 22 => ⟨S_, .f32⟩
  | 23 => ⟨S100000x128, .f32⟩
  | 24 => ⟨S700000x1, .i32⟩
  | 25 => ⟨S100000x128, .f32⟩
  | 26 => ⟨S1x128, .f32⟩
  | 27 => ⟨S100000x128, .f32⟩
  | 28 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_call1_cst : Ref sig .tc := ⟨.hbm, 105, rfl⟩
abbrev main_call1_v0 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_11 : Ref sig .tc := ⟨.hbm, 112, rfl⟩
abbrev main_v68 : Ref sig .tc := ⟨.hbm, 113, rfl⟩
abbrev main_cst_12 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_13 : Ref sig .tc := ⟨.hbm, 119, rfl⟩
abbrev main_v73 : Ref sig .tc := ⟨.hbm, 120, rfl⟩
abbrev main_v74 : Ref sig .tc := ⟨.hbm, 121, rfl⟩
abbrev main_c_14 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_15 : Ref sig .tc := ⟨.hbm, 128, rfl⟩
abbrev main_v80 : Ref sig .tc := ⟨.hbm, 129, rfl⟩
abbrev main_v81 : Ref sig .tc := ⟨.hbm, 130, rfl⟩
abbrev main_c_16 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_c_17 : Ref sig .tc := ⟨.hbm, 138, rfl⟩
abbrev main_v88 : Ref sig .tc := ⟨.hbm, 139, rfl⟩
abbrev main_v89 : Ref sig .tc := ⟨.hbm, 140, rfl⟩
abbrev main_c_18 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_19 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KRun.lean ====
/-
  The kernel program's run with its result named: the run is the generated frame's launch over the program's eight
  segments (four stretches of host operations, four kernel regions), and its last thread state holds every unscoped
  buffer at the contents `Gen.W8` — the fold of the stretches' operations and the regions' write-backs from the launch
  memory. Read against the final state this names the result buffer's contents, beside the unchanged arguments.
-/
import proofs.«175277_j21938692947970_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the last
    boundary's contents and the eight argument arrays as launched. -/
theorem run_value : θ_run defs (onTc (τ := τ) (main (F := F))) ⟨m, fun _ => 0, ρ⟩ (fun r => ∀ c : Dev nD,
      r.2.mem ((c.tc : Thread nD τ).loc main_v79) = W8 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v79 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.GcnSpec.lean ====
/-
  The two-layer graph convolution both programs compute, as compositions of the host operations the reference
  applies, read at the exact extended reals.

  `sIds` / `dIds` are the source and destination ids of the 600000 given edges followed by the 100000 self loops;
  `normOf` is the symmetric normalisation `deg^(-1/2)[s] * deg^(-1/2)[d]` with `deg` the number of edges arriving at a
  node; `aggOf ei hp b` adds, into every node `r`, the rows `hp[s k] * norm k` of the edges `k` arriving at `r`, then the
  bias row `b`; `bnRef h g be` is the batch normalisation of the columns of `h` (mean and biased variance over the
  100000 rows) followed by the affine map `g, be` and the positive part. The reference's result is `refOut`.
-/
import proofs.«175277_j21938692947970_1_alg».proof.ReferenceIdeal
import Idealize.ShloMosaic.PureOps.Ideal

noncomputable section

namespace Cert.Gcn

open Idealize.ShloMosaic Cert.ReferenceIdeal Cert.ReferenceIdeal.Facts₀

-- the shape side conditions the reference's operations cite (propositions: any two witnesses agree)
variable [Cert.ReferenceIdeal.Facts₀]

abbrev EIdx := IVec S2x600000 32
abbrev Ids := IVec S700000 32
abbrev EVec := FVec Ideal S700000 .f32
abbrev Mat := FVec Ideal S100000x128 .f32
abbrev Row := FVec Ideal S128 .f32
abbrev Wt := FVec Ideal S128x128 .f32

/-- Row `a` of the edge-index array as a flat array of 600000 ids. -/
def edgeRow0 (ei : EIdx) : IVec S600000 32 :=
  fun i => shapeCast S600000 (extractStridedSlice S1x600000 ![0, 0] ei slices_S2x600000_S1x600000_0_0) shapeCasts_S1x600000_S600000 i
def edgeRow1 (ei : EIdx) : IVec S600000 32 :=
  fun i => shapeCast S600000 (extractStridedSlice S1x600000 ![1, 0] ei slices_S2x600000_S1x600000_1_0) shapeCasts_S1x600000_S600000 i

/-- The source ids: the given sources, then every node once (the self loops). -/
def sIds (ei : EIdx) : Ids :=
  concatenate S700000 0 [⟨S600000, edgeRow0 ei⟩, ⟨S100000, iotaInDim S100000 32 0⟩] concatenates_S600000_S100000_S700000_d0
/-- The destination ids: the given destinations, then every node once. -/
def dIds (ei : EIdx) : Ids :=
  concatenate S700000 0 [⟨S600000, edgeRow1 ei⟩, ⟨S100000, iotaInDim S100000 32 0⟩] concatenates_S600000_S100000_S700000_d0

/-- A negative id counts from the end: `v + 100000` where `v < 0` as a signed word. -/
def wrapIds (v : Ids) : Ids :=
  select (cmpi .slt v (broadcastInDim S700000 ![] bcast_S_S700000 (constantI S_ 32 0#32)))
    (addi v (broadcastInDim S700000 ![] bcast_S_S700000 (constantI S_ 32 100000#32))) v

/-- An id array as the one-column index matrix the gathers and scatters take. -/
def colIds (v : Ids) : IVec S700000x1 32 :=
  broadcastInDim S700000x1 ![0] bcast_S700000_S700000x1_0 v

/-- The number of edges arriving at each node. -/
def degOf (ei : EIdx) : FVec Ideal S100000 .f32 :=
  Host.scatterAdd (F := Ideal) scatter_S100000_S700000x1_S700000_n_0_0_1
    (broadcastInDim S100000 ![] bcast_S_S100000 (constant (F := Ideal) S_ .f32 0x00000000#32))
    (colIds (dIds ei))
    (broadcastInDim S700000 ![] bcast_S_S700000 (constant (F := Ideal) S_ .f32 0x3F800000#32))

/-- `deg^(-1/2)`. -/
def dinvOf (ei : EIdx) : FVec Ideal S100000 .f32 := Host.rsqrt (F := Ideal) (degOf ei)

/-- The weight of every edge. -/
def normOf (ei : EIdx) : EVec :=
  mulf (Host.gather gather_S100000_S700000x1_S700000_n_0_n_n_0_1_1 (dinvOf ei) (colIds (wrapIds (sIds ei))))
       (Host.gather gather_S100000_S700000x1_S700000_n_0_n_n_0_1_1 (dinvOf ei) (colIds (wrapIds (dIds ei))))

/-- A row of 128 numbers laid under every one of the 100000 rows. -/
def rowBcast (b : Row) : Mat :=
  broadcastInDim S100000x128 ![0, 1] bcast_S1x128_S100000x128_0_1 (broadcastInDim S1x128 ![1] bcast_S128_S1x128_1 b)

/-- One graph convolution's aggregation: the weighted rows of the arriving edges summed into each node, plus the bias. -/
def aggOf (ei : EIdx) (hp : Mat) (b : Row) : Mat :=
  addf
    (Host.scatterAdd (F := Ideal) scatter_S100000x128_S700000x1_S700000x128_1_0_0_1
      (broadcastInDim S100000x128 ![] bcast_S_S100000x128 (constant (F := Ideal) S_ .f32 0x00000000#32))
      (colIds (dIds ei))
      (mulf (Host.gather gather_S100000x128_S700000x1_S700000x128_1_0_n_n_0_1_1128 hp (colIds (wrapIds (sIds ei))))
        (broadcastInDim S700000x128 ![0, 1] bcast_S700000x1_S700000x128_0_1
          (broadcastInDim S700000x1 ![0] bcast_S700000_S700000x1_0 (normOf ei)))))
    (rowBcast b)

/-- A dense layer without bias. -/
def mmOf (x : Mat) (w : Wt) : Mat :=
  Host.dotGeneral (F := Ideal) dot_S100000x128_S128x128_S100000x128_1_0_0_1_n_n none x w

/-- The column means. -/
def meanOf (h : Mat) : Row :=
  Host.divf (F := Ideal)
    (Host.reduceAdd (F := Ideal) h (constant (F := Ideal) S_ .f32 0x00000000#32) reducesTo_S100000x128_S128_d0 h_S_)
    (broadcastInDim S128 ![] bcast_S_S128 (constant (F := Ideal) S_ .f32 0x47C35000#32))

/-- The number of rows less the degrees of freedom given as an integer word, as a float. -/
def varCount (ddof : IVec S_ 32) : FVec Ideal S_ .f32 :=
  subf (constant (F := Ideal) S_ .f32 0x47C35000#32) (sitofp (F := Ideal) .f32 ddof)

/-- The biased column variances, as jnp computes them: the mean of the squared deviations from the column mean,
    guarded by the count being positive. -/
def varOf (h : Mat) : Row :=
  select (broadcastInDim S128 ![] bcast_S_S128
      (cmpf .ogt (varCount (constantI S_ 32 0#32)) (constant (F := Ideal) S_ .f32 0x00000000#32)))
    (Host.divf (F := Ideal)
      (Host.reduceAdd (F := Ideal)
        (mulf
          (subf h (broadcastInDim S100000x128 ![0, 1] bcast_S1x128_S100000x128_0_1
            (Host.divf (F := Ideal)
              (broadcastInDim S1x128 ![1] bcast_S128_S1x128_1
                (Host.reduceAdd (F := Ideal) h (constant (F := Ideal) S_ .f32 0x00000000#32) reducesTo_S100000x128_S128_d0 h_S_))
              (broadcastInDim S1x128 ![] bcast_S_S1x128 (constant (F := Ideal) S_ .f32 0x47C35000#32)))))
          (subf h (broadcastInDim S100000x128 ![0, 1] bcast_S1x128_S100000x128_0_1
            (Host.divf (F := Ideal)
              (broadcastInDim S1x128 ![1] bcast_S128_S1x128_1
                (Host.reduceAdd (F := Ideal) h (constant (F := Ideal) S_ .f32 0x00000000#32) reducesTo_S100000x128_S128_d0 h_S_))
              (broadcastInDim S1x128 ![] bcast_S_S1x128 (constant (F := Ideal) S_ .f32 0x47C35000#32))))))
        (constant (F := Ideal) S_ .f32 0x00000000#32) reducesTo_S100000x128_S128_d0 h_S_)
      (broadcastInDim S128 ![] bcast_S_S128 (varCount (constantI S_ 32 0#32))))
    (broadcastInDim S128 ![] bcast_S_S128 (id (constant (F := Ideal) S_ .f32 0x7FC00000#32)))

/-- Batch normalisation of the columns, the affine map, the positive part. -/
def bnRef (h : Mat) (g be : Row) : Mat :=
  maximumf
    (addf
      (mulf
        (mulf (subf h (rowBcast (meanOf h)))
          (rowBcast (Host.rsqrt (F := Ideal)
            (addf (varOf h) (broadcastInDim S128 ![] bcast_S_S128 (constant (F := Ideal) S_ .f32 0x3727C5AC#32))))))
        (rowBcast g))
      (rowBcast be))
    (broadcastInDim S100000x128 ![] bcast_S_S100000x128 (constant (F := Ideal) S_ .f32 0x00000000#32))

/-- The reference's result as a function of its eight arguments. -/
def refOut (x : Mat) (ei : EIdx) (w1 : Wt) (b1 g be : Row) (w2 : Wt) (b2 : Row) : Mat :=
  aggOf ei (mmOf (bnRef (aggOf ei (mmOf x w1) b1) g be) w2) b2

end Cert.Gcn

end
-- ==== Proof.KChain.lean ====
/-
  The kernel program's buffer contents at its segment boundaries, read back to the argument arrays.

  The first stretch of host operations computes the edge ids and the edge weights from the edge-index argument; no
  later stretch or region writes them. The second stretch aggregates region 0's product into the first layer's
  activations; the third turns region 1's column sums into the scale and shift rows; the last stretch aggregates
  region 3's product into the result. Each fact below names one buffer's contents at one boundary, with the four
  regions' output arrays left as the generated proof data names them.
-/
import proofs.«175277_j21938692947970_1_alg».proof.Proof.Gen.KernelIdeal.Frame
import proofs.«175277_j21938692947970_1_alg».proof.Proof.Gen.ReferenceIdeal
import proofs.«175277_j21938692947970_1_alg».proof.Proof.GcnSpec
import Idealize.ShloMosaic.Lib.StableHlo.Run

set_option maxRecDepth 16384

noncomputable section

namespace Cert.KernelIdeal.Chain

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg) (c : Dev nD)

/-- A buffer no operation of a stretch writes is left alone by the stretch. -/
macro "not_written" : tactic => `(tactic| (
  refine StableHlo.after_of_forall_not_mem _ _ (List.forall_iff_forall_mem.mp ?_)
  simp only [hostOps0, hostOps1, hostOps2, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The kernel's own host arithmetic between the statistics region and the normalising region -/

/-- A one-row matrix as a flat row. -/
def flat (s : FVec Ideal S1x128 .f32) : FVec Ideal S128 .f32 := fun i => shapeCast S128 s shapeCasts_S1x128_S128 i

/-- The column means from the column sums. -/
def kMean (s1 : FVec Ideal S1x128 .f32) : FVec Ideal S128 .f32 :=
  Host.divf (F := Ideal) (flat s1) (broadcastInDim S128 ![] bcast_S_S128 (constant (F := Ideal) S_ .f32 0x47C35000#32))

/-- The scale row `g * (E[h²] - mean² + ε)^(-1/2)` from the column sums and sums of squares. -/
def kScale (s1 s2 : FVec Ideal S1x128 .f32) (g : FVec Ideal S128 .f32) : FVec Ideal S1x128 .f32 :=
  broadcastInDim S1x128 ![1] bcast_S128_S1x128_1
    (mulf g (Host.rsqrt (F := Ideal)
      (addf (subf (Host.divf (F := Ideal) (flat s2) (broadcastInDim S128 ![] bcast_S_S128 (constant (F := Ideal) S_ .f32 0x47C35000#32)))
              (mulf (kMean s1) (kMean s1)))
        (broadcastInDim S128 ![] bcast_S_S128 (constant (F := Ideal) S_ .f32 0x3727C5AC#32)))))

/-- The shift row `be - mean * scale`. -/
def kShift (s1 s2 : FVec Ideal S1x128 .f32) (g be : FVec Ideal S128 .f32) : FVec Ideal S1x128 .f32 :=
  broadcastInDim S1x128 ![1] bcast_S128_S1x128_1 (subf be (mulf (kMean s1) (flat (kScale s1 s2 g))))

/-! ## After the first stretch: the ids and the edge weights -/

theorem W1_v5 : (W1 m ρ c (Proc.devRef .tc main_v5) : IVec S700000 32) = Cert.Gcn.sIds (m ((c.tc : Thread nD τ).loc main_arg1)) := by
  show StableHlo.after hostOps0 (W0 m ρ c) (Proc.devRef .tc main_v5) = _
  after_results; rfl

theorem W1_v6 : (W1 m ρ c (Proc.devRef .tc main_v6) : IVec S700000 32) = Cert.Gcn.dIds (m ((c.tc : Thread nD τ).loc main_arg1)) := by
  show StableHlo.after hostOps0 (W0 m ρ c) (Proc.devRef .tc main_v6) = _
  after_results; rfl

set_option maxHeartbeats 4000000 in
theorem W1_v26 : (W1 m ρ c (Proc.devRef .tc main_v26) : FVec Ideal S700000 .f32) = Cert.Gcn.normOf (m ((c.tc : Thread nD τ).loc main_arg1)) := by
  show StableHlo.after hostOps0 (W0 m ρ c) (Proc.devRef .tc main_v26) = _
  after_results; rfl

theorem W1_arg0 : W1 m ρ c (Proc.devRef .tc main_arg0) = (m ((c.tc : Thread nD τ).loc main_arg0)) := by
  refine Eq.trans ?_ (rfl : W0 m ρ c (Proc.devRef .tc main_arg0) = _)
  not_written
theorem W1_arg2 : W1 m ρ c (Proc.devRef .tc main_arg2) = (m ((c.tc : Thread nD τ).loc main_arg2)) := by
  refine Eq.trans ?_ (rfl : W0 m ρ c (Proc.devRef .tc main_arg2) = _)
  not_written
theorem W1_arg3 : W1 m ρ c (Proc.devRef .tc main_arg3) = (m ((c.tc : Thread nD τ).loc main_arg3)) := by
  refine Eq.trans ?_ (rfl : W0 m ρ c (Proc.devRef .tc main_arg3) = _)
  not_written
theorem W1_arg4 : W1 m ρ c (Proc.devRef .tc main_arg4) = (m ((c.tc : Thread nD τ).loc main_arg4)) := by
  refine Eq.trans ?_ (rfl : W0 m ρ c (Proc.devRef .tc main_arg4) = _)
  not_written
theorem W1_arg5 : W1 m ρ c (Proc.devRef .tc main_arg5) = (m ((c.tc : Thread nD τ).loc main_arg5)) := by
  refine Eq.trans ?_ (rfl : W0 m ρ c (Proc.devRef .tc main_arg5) = _)
  not_written
theorem W1_arg6 : W1 m ρ c (Proc.devRef .tc main_arg6) = (m ((c.tc : Thread nD τ).loc main_arg6)) := by
  refine Eq.trans ?_ (rfl : W0 m ρ c (Proc.devRef .tc main_arg6) = _)
  not_written
theorem W1_arg7 : W1 m ρ c (Proc.devRef .tc main_arg7) = (m ((c.tc : Thread nD τ).loc main_arg7)) := by
  refine Eq.trans ?_ (rfl : W0 m ρ c (Proc.devRef .tc main_arg7) = _)
  not_written

/-! ## Region 0's exit -/

theorem W2_v5 : (W2 m ρ c (Proc.devRef .tc main_v5) : IVec S700000 32) = Cert.Gcn.sIds (m ((c.tc : Thread nD τ).loc main_arg1)) :=
  (W2_of_ne m ρ c main_v5 (by decide)).trans (W1_v5 m ρ c)
theorem W2_v6 : (W2 m ρ c (Proc.devRef .tc main_v6) : IVec S700000 32) = Cert.Gcn.dIds (m ((c.tc : Thread nD τ).loc main_arg1)) :=
  (W2_of_ne m ρ c main_v6 (by decide)).trans (W1_v6 m ρ c)
theorem W2_v26 : (W2 m ρ c (Proc.devRef .tc main_v26) : FVec Ideal S700000 .f32) = Cert.Gcn.normOf (m ((c.tc : Thread nD τ).loc main_arg1)) :=
  (W2_of_ne m ρ c main_v26 (by decide)).trans (W1_v26 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)
theorem W2_arg6 : W2 m ρ c (Proc.devRef .tc main_arg6) = (m ((c.tc : Thread nD τ).loc main_arg6)) :=
  (W2_of_ne m ρ c main_arg6 (by decide)).trans (W1_arg6 m ρ c)
theorem W2_arg7 : W2 m ρ c (Proc.devRef .tc main_arg7) = (m ((c.tc : Thread nD τ).loc main_arg7)) :=
  (W2_of_ne m ρ c main_arg7 (by decide)).trans (W1_arg7 m ρ c)
theorem W2_v27 : W2 m ρ c (Proc.devRef .tc main_v27) = (dat0 (V1 m ρ) c).arrAt 2 cfg0.N := W2_arr m ρ c 2

/-! ## The second stretch: the first aggregation -/

set_option maxHeartbeats 4000000 in
theorem W3_v43 : (W3 m ρ c (Proc.devRef .tc main_v43) : FVec Ideal S100000x128 .f32)
    = Cert.Gcn.aggOf (m ((c.tc : Thread nD τ).loc main_arg1)) (W2 m ρ c (Proc.devRef .tc main_v27)) (m ((c.tc : Thread nD τ).loc main_arg3)) := by
  show StableHlo.after hostOps1 (W2 m ρ c) (Proc.devRef .tc main_v43) = _
  after_results
  rw [W2_v5 m ρ c, W2_v6 m ρ c, W2_v26 m ρ c, W2_arg3 m ρ c]
  rfl

/-! ## Buffers the later segments leave alone -/

theorem W7_v5' : W7 m ρ c (Proc.devRef .tc main_v5) = W2 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := by not_written
    _ = W3 m ρ c (Proc.devRef .tc main_v5) := W4_of_ne m ρ c main_v5 (by decide)
    _ = W2 m ρ c (Proc.devRef .tc main_v5) := by not_written
theorem W7_v6' : W7 m ρ c (Proc.devRef .tc main_v6) = W2 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by not_written
    _ = W3 m ρ c (Proc.devRef .tc main_v6) := W4_of_ne m ρ c main_v6 (by decide)
    _ = W2 m ρ c (Proc.devRef .tc main_v6) := by not_written
theorem W7_v26' : W7 m ρ c (Proc.devRef .tc main_v26) = W2 m ρ c (Proc.devRef .tc main_v26) :=
  calc W7 m ρ c (Proc.devRef .tc main_v26)
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := by not_written
    _ = W3 m ρ c (Proc.devRef .tc main_v26) := W4_of_ne m ρ c main_v26 (by decide)
    _ = W2 m ρ c (Proc.devRef .tc main_v26) := by not_written
theorem W7_arg4' : W7 m ρ c (Proc.devRef .tc main_arg4) = W2 m ρ c (Proc.devRef .tc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := by not_written
    _ = W3 m ρ c (Proc.devRef .tc main_arg4) := W4_of_ne m ρ c main_arg4 (by decide)
    _ = W2 m ρ c (Proc.devRef .tc main_arg4) := by not_written
theorem W7_arg5' : W7 m ρ c (Proc.devRef .tc main_arg5) = W2 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by not_written
    _ = W3 m ρ c (Proc.devRef .tc main_arg5) := W4_of_ne m ρ c main_arg5 (by decide)
    _ = W2 m ρ c (Proc.devRef .tc main_arg5) := by not_written
theorem W7_arg7' : W7 m ρ c (Proc.devRef .tc main_arg7) = W2 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by not_written
    _ = W3 m ρ c (Proc.devRef .tc main_arg7) := W4_of_ne m ρ c main_arg7 (by decide)
    _ = W2 m ρ c (Proc.devRef .tc main_arg7) := by not_written

theorem W4_arg4 : W4 m ρ c (Proc.devRef .tc main_arg4) = (m ((c.tc : Thread nD τ).loc main_arg4)) :=
  calc W4 m ρ c (Proc.devRef .tc main_arg4)
    _ = W3 m ρ c (Proc.devRef .tc main_arg4) := W4_of_ne m ρ c main_arg4 (by decide)
    _ = W2 m ρ c (Proc.devRef .tc main_arg4) := by not_written
    _ = _ := W2_arg4 m ρ c
theorem W4_arg5 : W4 m ρ c (Proc.devRef .tc main_arg5) = (m ((c.tc : Thread nD τ).loc main_arg5)) :=
  calc W4 m ρ c (Proc.devRef .tc main_arg5)
    _ = W3 m ρ c (Proc.devRef .tc main_arg5) := W4_of_ne m ρ c main_arg5 (by decide)
    _ = W2 m ρ c (Proc.devRef .tc main_arg5) := by not_written
    _ = _ := W2_arg5 m ρ c

/-! ## Region 1's exit, the third stretch, region 2's entry -/

theorem W4_v44_0 : W4 m ρ c (Proc.devRef .tc main_v44_0) = (dat1 (V3 m ρ) c).arrAt 1 cfg1.N := W4_arr m ρ c 1
theorem W4_v44_1 : W4 m ρ c (Proc.devRef .tc main_v44_1) = (dat1 (V3 m ρ) c).arrAt 2 cfg1.N := W4_arr m ρ c 2
theorem W4_v43 : W4 m ρ c (Proc.devRef .tc main_v43) = W3 m ρ c (Proc.devRef .tc main_v43) :=
  (W4_arr m ρ c 0).trans (((dat1 (V3 m ρ) c).arrAt_in 0 rfl _).trans (A_eq1 (V3 m ρ) c 0))
theorem W5_v43 : W5 m ρ c (Proc.devRef .tc main_v43) = W3 m ρ c (Proc.devRef .tc main_v43) :=
  Eq.trans (by not_written) (W4_v43 m ρ c)

set_option maxHeartbeats 4000000 in
theorem W5_v57 : (W5 m ρ c (Proc.devRef .tc main_v57) : FVec Ideal S1x128 .f32)
    = kScale (W4 m ρ c (Proc.devRef .tc main_v44_0)) (W4 m ρ c (Proc.devRef .tc main_v44_1)) (m ((c.tc : Thread nD τ).loc main_arg4)) := by
  show StableHlo.after hostOps2 (W4 m ρ c) (Proc.devRef .tc main_v57) = _
  after_results
  rw [W4_arg4 m ρ c]
  rfl

set_option maxHeartbeats 4000000 in
theorem W5_v61 : (W5 m ρ c (Proc.devRef .tc main_v61) : FVec Ideal S1x128 .f32)
    = kShift (W4 m ρ c (Proc.devRef .tc main_v44_0)) (W4 m ρ c (Proc.devRef .tc main_v44_1)) (m ((c.tc : Thread nD τ).loc main_arg4)) (m ((c.tc : Thread nD τ).loc main_arg5)) := by
  show StableHlo.after hostOps2 (W4 m ρ c) (Proc.devRef .tc main_v61) = _
  after_results
  rw [W4_arg4 m ρ c, W4_arg5 m ρ c]
  rfl

/-! ## Regions 2 and 3, the last stretch -/

theorem W6_v62 : W6 m ρ c (Proc.devRef .tc main_v62) = (dat2 (V5 m ρ) c).arrAt 3 cfg2.N := W6_arr m ρ c 3
theorem W6_arg6 : W6 m ρ c (Proc.devRef .tc main_arg6) = (m ((c.tc : Thread nD τ).loc main_arg6)) :=
  calc W6 m ρ c (Proc.devRef .tc main_arg6)
    _ = W5 m ρ c (Proc.devRef .tc main_arg6) := W6_of_ne m ρ c main_arg6 (by decide)
    _ = W4 m ρ c (Proc.devRef .tc main_arg6) := by not_written
    _ = W3 m ρ c (Proc.devRef .tc main_arg6) := W4_of_ne m ρ c main_arg6 (by decide)
    _ = W2 m ρ c (Proc.devRef .tc main_arg6) := by not_written
    _ = _ := W2_arg6 m ρ c
theorem W7_v63 : W7 m ρ c (Proc.devRef .tc main_v63) = (dat3 (V6 m ρ) c).arrAt 2 cfg3.N := W7_arr m ρ c 2

set_option maxHeartbeats 4000000 in
theorem W8_v79 : (W8 m ρ c (Proc.devRef .tc main_v79) : FVec Ideal S100000x128 .f32)
    = Cert.Gcn.aggOf (m ((c.tc : Thread nD τ).loc main_arg1)) (W7 m ρ c (Proc.devRef .tc main_v63)) (m ((c.tc : Thread nD τ).loc main_arg7)) := by
  show StableHlo.after hostOps4 (W7 m ρ c) (Proc.devRef .tc main_v79) = _
  after_results
  rw [W7_v5' m ρ c, W7_v6' m ρ c, W7_v26' m ρ c, W7_arg7' m ρ c, W2_v5 m ρ c, W2_v6 m ρ c, W2_v26 m ρ c, W2_arg7 m ρ c]
  rfl

end Cert.KernelIdeal.Chain
end
-- ==== Proof.RegionFns.lean ====
import proofs.«175277_j21938692947970_1_alg».proof.KernelIdeal
import Idealize.ShloMosaic.Lib.ValueIdx

noncomputable section

open scoped BigOperators

namespace Cert.KernelIdeal.RegionValue

open Idealize.ShloMosaic Idealize.ShloMosaic.ValueIdx
open Cert.KernelIdeal

/-! ## What the four kernel regions compute, entry by entry, as functions of whole arrays over the extended reals -/

/-- The product of all rows with a weight matrix: entry (r, n) is the sum over k of x(r, k) * w(k, n). -/
def matmulRows (x : S100000x128.Idx → EReal) (w : S128x128.Idx → EReal) : S100000x128.Idx → EReal :=
  fun i => ∑ k : Fin 128, x (ix2 (i 0 : Fin 100000) k) * w (ix2 k (i 1 : Fin 128))

theorem matmulRows_apply (x : S100000x128.Idx → EReal) (w : S128x128.Idx → EReal) (i : S100000x128.Idx) :
    matmulRows x w i = ∑ k : Fin 128, x (ix2 (i 0 : Fin 100000) k) * w (ix2 k (i 1 : Fin 128)) := rfl

/-- Each column scaled and shifted by its own pair of numbers, then the positive part:
    entry (r, n) is max (h(r, n) * a(0, n) + b(0, n), 0). -/
def affineRelu (h : S100000x128.Idx → EReal) (a b : S1x128.Idx → EReal) : S100000x128.Idx → EReal :=
  fun i => max (h i * a (ix2 (0 : Fin 1) (i 1 : Fin 128)) + b (ix2 (0 : Fin 1) (i 1 : Fin 128))) 0

theorem affineRelu_apply (h : S100000x128.Idx → EReal) (a b : S1x128.Idx → EReal) (i : S100000x128.Idx) :
    affineRelu h a b i = max (h i * a (ix2 (0 : Fin 1) (i 1 : Fin 128)) + b (ix2 (0 : Fin 1) (i 1 : Fin 128))) 0 := rfl

/-- The column sums as one row: entry (0, n) is the sum over all rows r of h(r, n). -/
def colSums (h : S100000x128.Idx → EReal) : S1x128.Idx → EReal :=
  fun i => ∑ r : Fin 100000, h (ix2 r (i 1 : Fin 128))

theorem colSums_apply (h : S100000x128.Idx → EReal) (i : S1x128.Idx) :
    colSums h i = ∑ r : Fin 100000, h (ix2 r (i 1 : Fin 128)) := rfl

/-- The column sums of squares as one row: entry (0, n) is the sum over all rows r of h(r, n) * h(r, n). -/
def colSumsSq (h : S100000x128.Idx → EReal) : S1x128.Idx → EReal :=
  fun i => ∑ r : Fin 100000, h (ix2 r (i 1 : Fin 128)) * h (ix2 r (i 1 : Fin 128))

theorem colSumsSq_apply (h : S100000x128.Idx → EReal) (i : S1x128.Idx) :
    colSumsSq h i = ∑ r : Fin 100000, h (ix2 r (i 1 : Fin 128)) * h (ix2 r (i 1 : Fin 128)) := rfl

end Cert.KernelIdeal.RegionValue

end
-- ==== Proof.RegionMatmul.lean ====
import proofs.«175277_j21938692947970_1_alg».proof.Proof.Gen.KernelIdeal.Frame
import proofs.«175277_j21938692947970_1_alg».proof.Proof.RegionFns
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx
open Idealize.SL.Sem
open Idealize.ShloMosaic.Pipeline (Dat)
open Cert.KernelIdeal Cert.KernelIdeal.Gen

/-- The zero offsets of a whole-buffer access, as a constant function. -/
theorem hzM : (![0, 0] : Fin 2 → Nat) = fun _ => 0 := funext fun a => by fin_cases a <;> rfl

/-! ## The matrix product of one block of rows -/

/-- Entry (p, q) of the product of a [5000,128] block (narrowed to bf16, which changes nothing at the ideal
    values) with the [128,128] weights, accumulated into zero: the sum over the shared axis. -/
theorem matmul_at (x : FVec Ideal S5000x128 .f32) (w : FVec Ideal S128x128 .f32) (p : Fin 5000) (q : Fin 128) :
    matmul dot_S5000x128_S128x128_S5000x128_1_0_0_1_n_n none (truncf .bf16 x bitsLt_bf16_f32) (truncf .bf16 w bitsLt_bf16_f32)
      (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none
    (truncf .bf16 x bitsLt_bf16_f32) (truncf .bf16 w bitsLt_bf16_f32) (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := by
    funext a
    match a with
    | ⟨0, _⟩ => rfl
    | ⟨1, _⟩ => exact Fin.ext hk
  have er : dot_S5000x128_S128x128_S5000x128_1_0_0_1_n_n.rhsIdx (ix2 p q)
      ((contrEquiv1 dot_S5000x128_S128x128_S5000x128_1_0_0_1_n_n 128 rfl rfl).symm k) = ix2 k q := by
    funext a
    match a with
    | ⟨0, _⟩ => exact Fin.ext hk
    | ⟨1, _⟩ => rfl
  exact congrArg₂ (· * ·) (congrArg x el) (congrArg w er)

/-- The first projection's payload at an entry. -/
theorem pay0_at (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  exact matmul_at x w p q

/-- The second projection's payload at an entry (its block passes through an identity reshape first). -/
theorem pay3_at (x : Vec Ideal S5000x128 .f32) (w : Vec Ideal S128x128 .f32) (p : Fin 5000) (q : Fin 128) :
    k3_pay1 x w (ix2 p q) = ∑ k : Fin 128, x (ix2 p k) * w (ix2 k q) := by
  unfold k3_pay1
  rw [shapeCast_self]
  exact matmul_at x w p q

/-! ## Region 0: the projection of all rows -/

section Region0
variable (V : (c : Dev nD) → (b : Ref sig .tc) → Buf (Elt Ideal) ((c : Thread nD τ).loc b))

/-- The windows' index maps over the grid: the row window and the result window sit at block row `t`, column block 0;
    the weights' window never moves. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the row window's block at point `t` is entry (5000 t + p, k) of its array. -/
theorem rows0_at (c : Dev nD) (t : Fin cfg0.N) (p : Fin 5000) (k : Fin 128) (i : S100000x128.Idx)
    (h0 : (i 0).val = t.val * 5000 + p.val) (h1 : (i 1).val = k.val) :
    (iblk0 V c 0 t : S5000x128.Idx → EReal) (ix2 p k) = (V c (Pipeline.arrRef spec0 0) : S100000x128.Idx → EReal) i := by
  obtain ⟨e0, e1, -⟩ := idx0 t
  unfold iblk0
  rw [View.read_apply]
  show (V c (Pipeline.arrRef spec0 0) : S100000x128.Idx → EReal) _ = _
  refine congrArg _ ?_
  funext a
  apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The weights' block at every point is the whole weight matrix. -/
theorem weights0_at (c : Dev nD) (t : Fin cfg0.N) (k q : Fin 128) :
    (iblk0 V c 1 t : S128x128.Idx → EReal) (ix2 k q) = (V c (Pipeline.arrRef spec0 1) : S128x128.Idx → EReal) (ix2 k q) := by
  obtain ⟨-, -, e2, e3, -⟩ := idx0 t
  unfold iblk0
  rw [View.read_apply]
  show (V c (Pipeline.arrRef spec0 1) : S128x128.Idx → EReal) _ = _
  refine congrArg _ ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point `t` writes back is block `t` of the product of all rows with the weights. -/
theorem flushed0 (c : Dev nD) (t : Fin cfg0.N) :
    (dat0 V c).flushed 2 t = ((cfg0.win 2).blk t).view.read (Elt Ideal)
      (matmulRows (V c (Pipeline.arrRef spec0 0)) (V c (Pipeline.arrRef spec0 1))) := by
  show (cfg0.win 2).cut (grid0.coords t) ((dat0 V c).after 2 t) = _
  rw [after0_2]
  unfold out0_2
  rw [View.canon_unit_zero hzM]
  simp only [View.ld_unit_zero (S := S5000x128) hzM, View.ld_unit_zero (S := S128x128) hzM]
  obtain ⟨-, -, -, -, e4, e5⟩ := idx0 t
  funext j
  obtain ⟨p, q, rfl⟩ : ∃ (p : Fin 5000) (q : Fin 128), j = ix2 p q := ⟨j 0, j 1, eq_ix2 j⟩
  refine (pay0_at (iblk0 V c 0 t) (iblk0 V c 1 t) p q).trans ?_
  rw [View.read_apply]
  unfold matmulRows
  refine Finset.sum_congr rfl fun k _ => ?_
  refine congrArg₂ (· * ·) ?_ ?_
  · refine rows0_at V c t p k _ ?_ rfl
    show win0_2.index t (0 : Fin 2) * 5000 + 1 * p.val = t.val * 5000 + p.val
    rw [e4]; omega
  · refine (weights0_at V c t k q).trans (congrArg _ ?_)
    funext a
    apply Fin.ext
    match a with
    | ⟨0, _⟩ => rfl
    | ⟨1, _⟩ => show q.val = win0_2.index t (1 : Fin 2) * 128 + 1 * q.val; rw [e5]; omega

/-- An index of the result array is in point `t`'s block iff each coordinate is in the block's range. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- REGION 0'S RESULT: after the region its result array is the product of all rows with the weights, entry by
    entry the sum over the shared axis (row r lies in the block of point r / 5000, and the twenty blocks tile the array). -/
theorem region0_value (c : Dev nD) :
    (dat0 V c).arrAt 2 cfg0.N = matmulRows (V c (Pipeline.arrRef spec0 0)) (V c (Pipeline.arrRef spec0 1)) :=
  (dat0 V c).arrAt_eq_of_cover 2 _ (fun t _ => flushed0 V c t) fun i => by
    have hi0 : ((i : S100000x128.Idx) 0).val < 100000 := (i 0).isLt
    have hi1 : ((i : S100000x128.Idx) 1).val < 128 := (i 1).isLt
    have hN : cfg0.N = 20 := N_0
    refine ⟨⟨((i : S100000x128.Idx) 0).val / 5000, by rw [hN]; omega⟩, flush0_2 _, ?_⟩
    rw [mem_blk0]
    obtain ⟨-, -, -, -, e4, e5⟩ := idx0 ⟨((i : S100000x128.Idx) 0).val / 5000, by rw [hN]; omega⟩
    intro a
    match a with
    | ⟨0, _⟩ =>
      show win0_2.index _ (0 : Fin 2) * 5000 ≤ (i 0).val ∧ (i 0).val < win0_2.index _ (0 : Fin 2) * 5000 + 5000
      rw [e4]; dsimp only; omega
    | ⟨1, _⟩ =>
      show win0_2.index _ (1 : Fin 2) * 128 ≤ (i 1).val ∧ (i 1).val < win0_2.index _ (1 : Fin 2) * 128 + 128
      rw [e5]; omega

end Region0

/-! ## Region 3: the projection of all rows -/

section Region3
variable (V : (c : Dev nD) → (b : Ref sig .tc) → Buf (Elt Ideal) ((c : Thread nD τ).loc b))

/-- The windows' index maps over the grid: the row window and the result window sit at block row `t`, column block 0;
    the weights' window never moves. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, k) of the row window's block at point `t` is entry (5000 t + p, k) of its array. -/
theorem rows3_at (c : Dev nD) (t : Fin cfg3.N) (p : Fin 5000) (k : Fin 128) (i : S100000x128.Idx)
    (h0 : (i 0).val = t.val * 5000 + p.val) (h1 : (i 1).val = k.val) :
    (iblk3 V c 0 t : S5000x128.Idx → EReal) (ix2 p k) = (V c (Pipeline.arrRef spec3 0) : S100000x128.Idx → EReal) i := by
  obtain ⟨e0, e1, -⟩ := idx3 t
  unfold iblk3
  rw [View.read_apply]
  show (V c (Pipeline.arrRef spec3 0) : S100000x128.Idx → EReal) _ = _
  refine congrArg _ ?_
  funext a
  apply Fin.ext
  match a with
  | ⟨0, _⟩ => show win3_0.index t (0 : Fin 2) * 5000 + 1 * p.val = (i 0).val; rw [e0, h0]; omega
  | ⟨1, _⟩ => show win3_0.index t (1 : Fin 2) * 128 + 1 * k.val = (i 1).val; rw [e1, h1]; omega

/-- The weights' block at every point is the whole weight matrix. -/
theorem weights3_at (c : Dev nD) (t : Fin cfg3.N) (k q : Fin 128) :
    (iblk3 V c 1 t : S128x128.Idx → EReal) (ix2 k q) = (V c (Pipeline.arrRef spec3 1) : S128x128.Idx → EReal) (ix2 k q) := by
  obtain ⟨-, -, e2, e3, -⟩ := idx3 t
  unfold iblk3
  rw [View.read_apply]
  show (V c (Pipeline.arrRef spec3 1) : S128x128.Idx → EReal) _ = _
  refine congrArg _ ?_
  funext a
  apply Fin.ext
  match a with
  | ⟨0, _⟩ => show win3_1.index t (0 : Fin 2) * 128 + 1 * k.val = k.val; rw [e2]; omega
  | ⟨1, _⟩ => show win3_1.index t (1 : Fin 2) * 128 + 1 * q.val = q.val; rw [e3]; omega

/-- What point `t` writes back is block `t` of the product of all rows with the weights. -/
theorem flushed3 (c : Dev nD) (t : Fin cfg3.N) :
    (dat3 V c).flushed 2 t = ((cfg3.win 2).blk t).view.read (Elt Ideal)
      (matmulRows (V c (Pipeline.arrRef spec3 0)) (V c (Pipeline.arrRef spec3 1))) := by
  show (cfg3.win 2).cut (grid3.coords t) ((dat3 V c).after 2 t) = _
  rw [after3_2]
  unfold out3_2
  rw [View.canon_unit_zero hzM]
  simp only [View.ld_unit_zero (S := S5000x128) hzM, View.ld_unit_zero (S := S128x128) hzM]
  obtain ⟨-, -, -, -, e4, e5⟩ := idx3 t
  funext j
  obtain ⟨p, q, rfl⟩ : ∃ (p : Fin 5000) (q : Fin 128), j = ix2 p q := ⟨j 0, j 1, eq_ix2 j⟩
  refine (pay3_at (iblk3 V c 0 t) (iblk3 V c 1 t) p q).trans ?_
  rw [View.read_apply]
  unfold matmulRows
  refine Finset.sum_congr rfl fun k _ => ?_
  refine congrArg₂ (· * ·) ?_ ?_
  · refine rows3_at V c t p k _ ?_ rfl
    show win3_2.index t (0 : Fin 2) * 5000 + 1 * p.val = t.val * 5000 + p.val
    rw [e4]; omega
  · refine (weights3_at V c t k q).trans (congrArg _ ?_)
    funext a
    apply Fin.ext
    match a with
    | ⟨0, _⟩ => rfl
    | ⟨1, _⟩ => show q.val = win3_2.index t (1 : Fin 2) * 128 + 1 * q.val; rw [e5]; omega

/-- An index of the result array is in point `t`'s block iff each coordinate is in the block's range. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- REGION 3'S RESULT: after the region its result array is the product of all rows with the weights, entry by
    entry the sum over the shared axis (row r lies in the block of point r / 5000, and the twenty blocks tile the array). -/
theorem region3_value (c : Dev nD) :
    (dat3 V c).arrAt 2 cfg3.N = matmulRows (V c (Pipeline.arrRef spec3 0)) (V c (Pipeline.arrRef spec3 1)) :=
  (dat3 V c).arrAt_eq_of_cover 2 _ (fun t _ => flushed3 V c t) fun i => by
    have hi0 : ((i : S100000x128.Idx) 0).val < 100000 := (i 0).isLt
    have hi1 : ((i : S100000x128.Idx) 1).val < 128 := (i 1).isLt
    have hN : cfg3.N = 20 := N_3
    refine ⟨⟨((i : S100000x128.Idx) 0).val / 5000, by rw [hN]; omega⟩, flush3_2 _, ?_⟩
    rw [mem_blk3]
    obtain ⟨-, -, -, -, e4, e5⟩ := idx3 ⟨((i : S100000x128.Idx) 0).val / 5000, by rw [hN]; omega⟩
    intro a
    match a with
    | ⟨0, _⟩ =>
      show win3_2.index _ (0 : Fin 2) * 5000 ≤ (i 0).val ∧ (i 0).val < win3_2.index _ (0 : Fin 2) * 5000 + 5000
      rw [e4]; dsimp only; omega
    | ⟨1, _⟩ =>
      show win3_2.index _ (1 : Fin 2) * 128 ≤ (i 1).val ∧ (i 1).val < win3_2.index _ (1 : Fin 2) * 128 + 128
      rw [e5]; omega

end Region3

end Cert.KernelIdeal.RegionValue

end
-- ==== Proof.RegionAffine.lean ====
import proofs.«175277_j21938692947970_1_alg».proof.Proof.Gen.KernelIdeal.Frame
import proofs.«175277_j21938692947970_1_alg».proof.Proof.RegionFns
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx
open Idealize.SL.Sem
open Idealize.ShloMosaic.Pipeline (Dat)
open Cert.KernelIdeal Cert.KernelIdeal.Gen

/-- The zero offsets of a whole-buffer access, as a constant function. -/
theorem hzA : (![0, 0] : Fin 2 → Nat) = fun _ => 0 := funext fun a => by fin_cases a <;> rfl

/-- One row laid along all 5000 rows of a block reads the row at the column. -/
theorem row_bcast (a : S1x128.Idx → EReal) (p : Fin 5000) (q : Fin 128) :
    broadcastTo S5000x128 a broadcasts_S1x128_S5000x128 (ix2 p q) = a (ix2 (0 : Fin 1) q) :=
  broadcastTo_apply a broadcasts_S1x128_S5000x128 (ix2 p q) (ix2 (0 : Fin 1) q) (fun d => by
    match d with
    | ⟨0, _⟩ => rfl
    | ⟨1, _⟩ => rfl)

/-- The body's payload at an entry of its block. -/
theorem pay2_at (x : Vec Ideal S5000x128 .f32) (a b : Vec Ideal S1x128 .f32) (p : Fin 5000) (q : Fin 128) :
    k2_pay1 x a b (ix2 p q) = max (x (ix2 p q) * a (ix2 (0 : Fin 1) q) + b (ix2 (0 : Fin 1) q)) 0 := by
  unfold k2_pay1
  simp only [shapeCast_self]
  show max (x (ix2 p q) * broadcastTo S5000x128 a broadcasts_S1x128_S5000x128 (ix2 p q)
    + broadcastTo S5000x128 b broadcasts_S1x128_S5000x128 (ix2 p q)) (Ideal.ofBits .f32 0x00000000#32) = _
  rw [row_bcast a p q, row_bcast b p q, Ideal.ofBits_zero_f32]

/-! ## Region 2 -/

section Region2
variable (V : (c : Dev nD) → (b : Ref sig .tc) → Buf (Elt Ideal) ((c : Thread nD τ).loc b))

/-- The windows' index maps over the grid: the input and the result windows sit at block row `t`, column block 0;
    the two row windows never move. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of the input window's block at point `t` is entry (5000 t + p, k) of its array. -/
theorem rows2_at (c : Dev nD) (t : Fin cfg2.N) (p : Fin 5000) (k : Fin 128) (i : S100000x128.Idx)
    (h0 : (i 0).val = t.val * 5000 + p.val) (h1 : (i 1).val = k.val) :
    (iblk2 V c 0 t : S5000x128.Idx → EReal) (ix2 p k) = (V c (Pipeline.arrRef spec2 0) : S100000x128.Idx → EReal) i := by
  obtain ⟨e0, e1, -⟩ := idx2 t
  unfold iblk2
  rw [View.read_apply]
  show (V c (Pipeline.arrRef spec2 0) : S100000x128.Idx → EReal) _ = _
  refine congrArg _ ?_
  funext a
  apply Fin.ext
  match a with
  | ⟨0, _⟩ => show win2_0.index t (0 : Fin 2) * 5000 + 1 * p.val = (i 0).val; rw [e0, h0]; omega
  | ⟨1, _⟩ => show win2_0.index t (1 : Fin 2) * 128 + 1 * k.val = (i 1).val; rw [e1, h1]; omega

/-- The scale window's block at every point is the whole scale row. -/
theorem scale2_at (c : Dev nD) (t : Fin cfg2.N) (q : Fin 128) (i : S1x128.Idx) (h1 : (i 1).val = q.val) :
    (iblk2 V c 1 t : S1x128.Idx → EReal) (ix2 (0 : Fin 1) q) = (V c (Pipeline.arrRef spec2 1) : S1x128.Idx → EReal) i := by
  obtain ⟨-, -, e2, e3, -⟩ := idx2 t
  have hi0 : (i 0).val < 1 := idx2_lt0 i
  unfold iblk2
  rw [View.read_apply]
  show (V c (Pipeline.arrRef spec2 1) : S1x128.Idx → EReal) _ = _
  refine congrArg _ ?_
  funext a
  apply Fin.ext
  match a with
  | ⟨0, _⟩ => show win2_1.index t (0 : Fin 2) * 1 + 1 * 0 = (i 0).val; rw [e2]; omega
  | ⟨1, _⟩ => show win2_1.index t (1 : Fin 2) * 128 + 1 * q.val = (i 1).val; rw [e3, h1]; omega

/-- The shift window's block at every point is the whole shift row. -/
theorem shift2_at (c : Dev nD) (t : Fin cfg2.N) (q : Fin 128) (i : S1x128.Idx) (h1 : (i 1).val = q.val) :
    (iblk2 V c 2 t : S1x128.Idx → EReal) (ix2 (0 : Fin 1) q) = (V c (Pipeline.arrRef spec2 2) : S1x128.Idx → EReal) i := by
  obtain ⟨-, -, -, -, e4, e5, -⟩ := idx2 t
  have hi0 : (i 0).val < 1 := idx2_lt0 i
  unfold iblk2
  rw [View.read_apply]
  show (V c (Pipeline.arrRef spec2 2) : S1x128.Idx → EReal) _ = _
  refine congrArg _ ?_
  funext a
  apply Fin.ext
  match a with
  | ⟨0, _⟩ => show win2_2.index t (0 : Fin 2) * 1 + 1 * 0 = (i 0).val; rw [e4]; omega
  | ⟨1, _⟩ => show win2_2.index t (1 : Fin 2) * 128 + 1 * q.val = (i 1).val; rw [e5, h1]; omega

/-- What point `t` writes back is block `t` of the affine map and positive part of the whole input. -/
theorem flushed2 (c : Dev nD) (t : Fin cfg2.N) :
    (dat2 V c).flushed 3 t = ((cfg2.win 3).blk t).view.read (Elt Ideal)
      (affineRelu (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hzA]
  simp only [View.ld_unit_zero (S := S5000x128) hzA, View.ld_unit_zero (S := S1x128) hzA]
  obtain ⟨-, -, -, -, -, -, e6, e7⟩ := idx2 t
  funext j
  obtain ⟨p, q, rfl⟩ : ∃ (p : Fin 5000) (q : Fin 128), j = ix2 p q := ⟨j 0, j 1, eq_ix2 j⟩
  refine (pay2_at (iblk2 V c 0 t) (iblk2 V c 1 t) (iblk2 V c 2 t) p q).trans ?_
  rw [View.read_apply]
  unfold affineRelu
  have hE0 : ((((cfg2.win 3).blk t).view.emb (ix2 p q) : S100000x128.Idx) 0).val = t.val * 5000 + p.val := by
    show win2_3.index t (0 : Fin 2) * 5000 + 1 * p.val = t.val * 5000 + p.val
    rw [e6]; omega
  have hE1 : ((((cfg2.win 3).blk t).view.emb (ix2 p q) : S100000x128.Idx) 1).val = q.val := by
    show win2_3.index t (1 : Fin 2) * 128 + 1 * q.val = q.val
    rw [e7]; omega
  refine congrArg₂ max (congrArg₂ (· + ·) (congrArg₂ (· * ·) ?_ ?_) ?_) rfl
  · exact rows2_at V c t p q _ hE0 hE1
  · exact scale2_at V c t q _ hE1
  · exact shift2_at V c t q _ hE1

/-- An index of the result array is in point `t`'s block iff each coordinate is in the block's range. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v62).slice (win2_3.rect t)).set ↔ _
  rw [View.set_slice_whole, Rect.mem_set_unit]
  exact Iff.rfl

/-- REGION 2'S RESULT: after the region its result array is, entry by entry, the positive part of the input entry
    scaled and shifted by its column's pair (row r lies in the block of point r / 5000; the twenty blocks tile the array). -/
theorem region2_value (c : Dev nD) :
    (dat2 V c).arrAt 3 cfg2.N
      = affineRelu (V c (Pipeline.arrRef spec2 0)) (V c (Pipeline.arrRef spec2 1)) (V c (Pipeline.arrRef spec2 2)) :=
  (dat2 V c).arrAt_eq_of_cover 3 _ (fun t _ => flushed2 V c t) fun i => by
    have hi0 : ((i : S100000x128.Idx) 0).val < 100000 := (i 0).isLt
    have hi1 : ((i : S100000x128.Idx) 1).val < 128 := (i 1).isLt
    have hN : cfg2.N = 20 := N_2
    refine ⟨⟨((i : S100000x128.Idx) 0).val / 5000, by rw [hN]; omega⟩, flush2_3 _, ?_⟩
    rw [mem_blk2]
    obtain ⟨-, -, -, -, -, -, e6, e7⟩ := idx2 ⟨((i : S100000x128.Idx) 0).val / 5000, by rw [hN]; omega⟩
    intro a
    match a with
    | ⟨0, _⟩ =>
      show win2_3.index _ (0 : Fin 2) * 5000 ≤ (i 0).val ∧ (i 0).val < win2_3.index _ (0 : Fin 2) * 5000 + 5000
      rw [e6]; dsimp only; omega
    | ⟨1, _⟩ =>
      show win2_3.index _ (1 : Fin 2) * 128 ≤ (i 1).val ∧ (i 1).val < win2_3.index _ (1 : Fin 2) * 128 + 128
      rw [e7]; omega

end Region2

end Cert.KernelIdeal.RegionValue

end
-- ==== Proof.RegionStats.lean ====
import proofs.«175277_j21938692947970_1_alg».proof.Proof.Gen.KernelIdeal.Frame
import proofs.«175277_j21938692947970_1_alg».proof.Proof.RegionFns
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx
open Idealize.SL.Sem
open Idealize.ShloMosaic.Pipeline (Dat)
open Cert.KernelIdeal Cert.KernelIdeal.Gen

/-- The zero offsets of a whole-buffer access, as a constant function. -/
theorem hzS : (![0, 0] : Fin 2 → Nat) = fun _ => 0 := funext fun a => by fin_cases a <;> rfl

/-! ## What each case of the body leaves in the two accumulators -/

/-- The first point stores the zero row, reads it back and leaves it plus the block's column sums. -/
theorem outA_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond1_0 i)
    (x0 : Vec Ideal S5000x128 .f32) :
    out1_A_1 (F := Ideal) c i arg1 harg1 arg2 harg2 arg3 harg3 hc0 x0 = k1_pay4 x0 (k1_pay1 (F := Ideal)) := by
  unfold out1_A_1
  rw [View.read_writes_eq_canon _ _ _ (cover1_A_1 c i arg1 harg1 arg2 harg2 arg3 harg3 hc0 x0)]
  unfold kernelRun1_A
  dsimp only
  sl_unfold_words
  rw [View.canon_cons_unit_zero (S := S1x128) hzS, View.readCov_unit_zero (S := S1x128) _ hzS]
  simp only [View.readAt_eq_ld, harg1.read_unread, View.ld_unit_zero (S := S5000x128) hzS]

/-- The same for the accumulator of squares. -/
theorem outA_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond1_0 i)
    (x0 : Vec Ideal S5000x128 .f32) :
    out1_A_2 (F := Ideal) c i arg1 harg1 arg2 harg2 arg3 harg3 hc0 x0 = k1_pay5 x0 (k1_pay2 (F := Ideal)) := by
  unfold out1_A_2
  rw [View.read_writes_eq_canon _ _ _ (cover1_A_2 c i arg1 harg1 arg2 harg2 arg3 harg3 hc0 x0)]
  unfold kernelRun1_A
  dsimp only
  sl_unfold_words
  rw [View.canon_cons_unit_zero (S := S1x128) hzS, View.readCov_unit_zero (S := S1x128) _ hzS]
  simp only [View.readAt_eq_ld, harg1.read_unread, View.ld_unit_zero (S := S5000x128) hzS]

/-- A later point leaves what the accumulator held plus the block's column sums. -/
theorem outB_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i)
    (x0 : Vec Ideal S5000x128 .f32) (xo1 xo2 : Vec Ideal S1x128 .f32) :
    out1_B_1 (F := Ideal) c i arg1 harg1 arg2 harg2 arg3 harg3 hc0 x0 xo1 xo2 = k1_pay4 x0 xo1 := by
  unfold out1_B_1
  rw [View.read_writes_eq_canon _ _ _ (cover1_B_1 c i arg1 harg1 arg2 harg2 arg3 harg3 hc0 x0 xo1 xo2)]
  unfold kernelRun1_B
  dsimp only
  try sl_unfold_words
  rw [View.canon_unit_zero hzS]
  simp only [View.readAt_eq_ld, harg1.read_unread, harg2.read_unread, View.ld_unit_zero (S := S5000x128) hzS, View.ld_unit_zero (S := S1x128) hzS]

/-- The same for the accumulator of squares. -/
theorem outB_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i)
    (x0 : Vec Ideal S5000x128 .f32) (xo1 xo2 : Vec Ideal S1x128 .f32) :
    out1_B_2 (F := Ideal) c i arg1 harg1 arg2 harg2 arg3 harg3 hc0 x0 xo1 xo2 = k1_pay5 x0 xo2 := by
  unfold out1_B_2
  rw [View.read_writes_eq_canon _ _ _ (cover1_B_2 c i arg1 harg1 arg2 harg2 arg3 harg3 hc0 x0 xo1 xo2)]
  unfold kernelRun1_B
  dsimp only
  try sl_unfold_words
  rw [View.canon_unit_zero hzS]
  simp only [View.readAt_eq_ld, harg1.read_unread, harg3.read_unread, View.ld_unit_zero (S := S5000x128) hzS, View.ld_unit_zero (S := S1x128) hzS]

/-! ## The two payloads at a column -/

/-- The index of a [5000,128] block that the sum over rows meets at column q and row y. -/
theorem lift_rows (q : Fin 128) (y : Fin 5000) :
    reduces_S5000x128_S128.lift (ix1 q) y = (ix2 y q : S5000x128.Idx) :=
  funext fun d => Fin.ext (by
    match d with
    | ⟨0, _⟩ => rfl
    | ⟨1, _⟩ => rfl)

/-- The sum accumulator's new value at column q: the old value plus the sum of the block's column q. -/
theorem pay4_at (x : Vec Ideal S5000x128 .f32) (acc : Vec Ideal S1x128 .f32) (q : Fin 128) :
    k1_pay4 x acc (ix2 (0 : Fin 1) q) = acc (ix2 (0 : Fin 1) q) + ∑ y : Fin 5000, x (ix2 y q) := by
  unfold k1_pay4 k1_pay3
  simp only [shapeCast_self]
  show acc (ix2 (0 : Fin 1) q) + shapeCast S1x128
    (multiReduction (F := Ideal) .add [0] S128 x 0x00000000#32 reduces_S5000x128_S128 (.inl rfl) rfl) shapeCasts_S128_S1x128 (ix2 (0 : Fin 1) q) = _
  refine congrArg (acc (ix2 (0 : Fin 1) q) + ·) ?_
  refine (shapeCast_a_1a_apply _ shapeCasts_S128_S1x128 (0 : Fin 1) q).trans ?_
  refine (Ideal.multiReduction_add_single x 0x00000000#32 reduces_S5000x128_S128 (.inl rfl) rfl (ix1 q)).trans ?_
  show ∑ y : Fin 5000, _ = _
  exact Finset.sum_congr rfl fun y _ => congrArg x (lift_rows q y)

/-- The accumulator of squares likewise: the old value plus the sum of the squares of the block's column q. -/
theorem pay5_at (x : Vec Ideal S5000x128 .f32) (acc : Vec Ideal S1x128 .f32) (q : Fin 128) :
    k1_pay5 x acc (ix2 (0 : Fin 1) q) = acc (ix2 (0 : Fin 1) q) + ∑ y : Fin 5000, x (ix2 y q) * x (ix2 y q) := by
  unfold k1_pay5 k1_pay3
  simp only [shapeCast_self]
  show acc (ix2 (0 : Fin 1) q) + shapeCast S1x128
    (multiReduction (F := Ideal) .add [0] S128 (mulf x x) 0x00000000#32 reduces_S5000x128_S128 (.inl rfl) rfl) shapeCasts_S128_S1x128 (ix2 (0 : Fin 1) q) = _
  refine congrArg (acc (ix2 (0 : Fin 1) q) + ·) ?_
  refine (shapeCast_a_1a_apply _ shapeCasts_S128_S1x128 (0 : Fin 1) q).trans ?_
  refine (Ideal.multiReduction_add_single (mulf x x) 0x00000000#32 reduces_S5000x128_S128 (.inl rfl) rfl (ix1 q)).trans ?_
  show ∑ y : Fin 5000, x (reduces_S5000x128_S128.lift (ix1 q) y) * x (reduces_S5000x128_S128.lift (ix1 q) y) = _
  exact Finset.sum_congr rfl fun y _ => by rw [lift_rows q y]

/-- The zero row the first point stores. -/
theorem pay1_at (j : S1x128.Idx) : (k1_pay1 (F := Ideal)) j = 0 := Ideal.ofBits_zero_f32
theorem pay2_at' (j : S1x128.Idx) : (k1_pay2 (F := Ideal)) j = 0 := Ideal.ofBits_zero_f32

/-! ## Region 1: the column sums and the column sums of squares of all rows -/

/-- Column q of a [100000,128] array as a function of the row number, zero past the last row. -/
def colAt (h : S100000x128.Idx → EReal) (q : Fin 128) (r : ℕ) : EReal :=
  if hr : r < 100000 then h (ix2 (⟨r, hr⟩ : Fin 100000) q) else 0

/-- The sum over the first 100000 rows is the sum over all rows. -/
theorem colAt_sum_all (h : S100000x128.Idx → EReal) (q : Fin 128) :
    ∑ r ∈ Finset.range 100000, colAt h q r = ∑ r : Fin 100000, h (ix2 r q) := by
  rw [Finset.sum_range]
  refine Finset.sum_congr rfl fun r _ => ?_
  unfold colAt
  rw [dif_pos r.isLt]

section Region1
variable (V : (c : Dev nD) → (b : Ref sig .tc) → Buf (Elt Ideal) ((c : Thread nD τ).loc b))

/-- The region's input array, and its block at a point, as functions into the extended reals. -/
abbrev arr1 (c : Dev nD) : S100000x128.Idx → EReal := V c (Pipeline.arrRef spec1 0)
abbrev blk1 (c : Dev nD) (t : Fin cfg1.N) : S5000x128.Idx → EReal := iblk1 V c 0 t

/-- The windows' index maps over the grid: the input window sits at block row `t`, column block 0; the two
    accumulator windows never move. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Entry (p, k) of the input window's block at point `t` is entry (5000 t + p, k) of its array. -/
theorem rows1_at (c : Dev nD) (t : Fin cfg1.N) (p : Fin 5000) (k : Fin 128) (i : S100000x128.Idx)
    (h0 : (i 0).val = t.val * 5000 + p.val) (h1 : (i 1).val = k.val) :
    blk1 V c t (ix2 p k) = arr1 V c i := by
  obtain ⟨e0, e1, -⟩ := idx1 t
  unfold blk1 arr1 iblk1
  rw [View.read_apply]
  show (V c (Pipeline.arrRef spec1 0) : S100000x128.Idx → EReal) _ = _
  refine congrArg _ ?_
  funext a
  apply Fin.ext
  match a with
  | ⟨0, _⟩ => show win1_0.index t (0 : Fin 2) * 5000 + 1 * p.val = (i 0).val; rw [e0, h0]; omega
  | ⟨1, _⟩ => show win1_0.index t (1 : Fin 2) * 128 + 1 * k.val = (i 1).val; rw [e1, h1]; omega

/-- Column q of the block of point `t`, each entry passed through `g`, summed: rows 5000 t … 5000 t + 4999 of the array. -/
theorem block_sum (c : Dev nD) (t : Fin cfg1.N) (q : Fin 128) (g : EReal → EReal) :
    ∑ y : Fin 5000, g (blk1 V c t (ix2 y q))
      = ∑ y ∈ Finset.range 5000, colAt (fun i => g (arr1 V c i)) q (5000 * t.val + y) := by
  have hN : t.val < 20 := lt_of_lt_of_eq t.isLt (show cfg1.N = 20 from N_1)
  rw [Finset.sum_range]
  refine Finset.sum_congr rfl fun y _ => ?_
  have hy : y.val < 5000 := y.isLt
  have hr : 5000 * t.val + y.val < 100000 := by omega
  unfold colAt
  rw [dif_pos hr]
  exact congrArg g (rows1_at V c t y q _ (by show 5000 * t.val + y.val = t.val * 5000 + y.val; omega) rfl)

theorem block_sum1 (c : Dev nD) (t : Fin cfg1.N) (q : Fin 128) :
    ∑ y : Fin 5000, blk1 V c t (ix2 y q) = ∑ y ∈ Finset.range 5000, colAt (arr1 V c) q (5000 * t.val + y) :=
  block_sum V c t q (fun v => v)

theorem block_sum2 (c : Dev nD) (t : Fin cfg1.N) (q : Fin 128) :
    ∑ y : Fin 5000, blk1 V c t (ix2 y q) * blk1 V c t (ix2 y q)
      = ∑ y ∈ Finset.range 5000, colAt (fun i => arr1 V c i * arr1 V c i) q (5000 * t.val + y) :=
  block_sum V c t q (fun v => v * v)

/-- THE ACCUMULATION: after point n the two accumulators hold, at column q, the sum (and the sum of squares) of
    the first 5000 (n + 1) rows of column q — by induction on the point. -/
theorem acc_eq (c : Dev nD) : ∀ (n : ℕ) (hn : n < cfg1.N) (q : Fin 128),
    (outsAt1 V c n hn).1 (ix2 (0 : Fin 1) q) = ∑ r ∈ Finset.range (5000 * (n + 1)), colAt (arr1 V c) q r
      ∧ (outsAt1 V c n hn).2 (ix2 (0 : Fin 1) q)
        = ∑ r ∈ Finset.range (5000 * (n + 1)), colAt (fun i => arr1 V c i * arr1 V c i) q r
  | 0, hn, q => by
    rw [outsAt1_A V c ⟨0, hn⟩ rfl]
    dsimp only
    rw [outA_1, outA_2]
    constructor
    · refine (pay4_at (blk1 V c ⟨0, hn⟩) (k1_pay1 (F := Ideal)) q).trans ?_
      rw [pay1_at, zero_add, block_sum1 V c ⟨0, hn⟩ q]
      refine Finset.sum_congr rfl fun y _ => ?_
      show colAt _ q (5000 * 0 + y) = colAt _ q y
      rw [Nat.mul_zero, Nat.zero_add]
    · refine (pay5_at (blk1 V c ⟨0, hn⟩) (k1_pay2 (F := Ideal)) q).trans ?_
      rw [pay2_at', zero_add, block_sum2 V c ⟨0, hn⟩ q]
      refine Finset.sum_congr rfl fun y _ => ?_
      show colAt _ q (5000 * 0 + y) = colAt _ q y
      rw [Nat.mul_zero, Nat.zero_add]
  | n + 1, hn, q => by
    have hN : cfg1.N = 20 := N_1
    have hB : ¬(⟨n + 1, hn⟩ : Fin cfg1.N).val % 20 = 0 := by dsimp only; omega
    obtain ⟨ih1, ih2⟩ := acc_eq c n (Nat.lt_of_succ_lt hn) q
    rw [outsAt1_B V c ⟨n + 1, hn⟩ hB]
    dsimp only
    rw [outB_1, outB_2]
    constructor
    · refine (pay4_at (blk1 V c ⟨n + 1, hn⟩) _ q).trans ?_
      show (outsAt1 V c n _).1 (ix2 (0 : Fin 1) q) + _ = _
      rw [ih1, block_sum1 V c ⟨n + 1, hn⟩ q, show 5000 * (n + 1 + 1) = 5000 * (n + 1) + 5000 from by omega,
        Finset.sum_range_add]
    · refine (pay5_at (blk1 V c ⟨n + 1, hn⟩) _ q).trans ?_
      show (outsAt1 V c n _).2 (ix2 (0 : Fin 1) q) + _ = _
      rw [ih2, block_sum2 V c ⟨n + 1, hn⟩ q, show 5000 * (n + 1 + 1) = 5000 * (n + 1) + 5000 from by omega,
        Finset.sum_range_add]

/-- After the last point the accumulators hold the column sums and the column sums of squares of the whole array. -/
theorem acc_final (c : Dev nD) (t : Fin cfg1.N) (h19 : t.val = 19) :
    (outsAt1 V c t.val t.isLt).1 = colSums (V c (Pipeline.arrRef spec1 0))
      ∧ (outsAt1 V c t.val t.isLt).2 = colSumsSq (V c (Pipeline.arrRef spec1 0)) := by
  obtain ⟨n, hn⟩ := t
  obtain rfl : n = 19 := h19
  refine ⟨funext fun j => ?_, funext fun j => ?_⟩
  · obtain ⟨u, q, rfl⟩ : ∃ (u : Fin 1) (q : Fin 128), j = ix2 u q := ⟨j 0, j 1, eq_ix2 j⟩
    obtain rfl : u = 0 := Subsingleton.elim _ _
    refine ((acc_eq V c 19 hn q).1).trans ?_
    exact colAt_sum_all (arr1 V c) q
  · obtain ⟨u, q, rfl⟩ : ∃ (u : Fin 1) (q : Fin 128), j = ix2 u q := ⟨j 0, j 1, eq_ix2 j⟩
    obtain rfl : u = 0 := Subsingleton.elim _ _
    refine ((acc_eq V c 19 hn q).2).trans ?_
    exact colAt_sum_all (fun i => arr1 V c i * arr1 V c i) q

/-- An index of accumulator window 1's array is in point `t`'s block iff each coordinate is in the block's range. -/
theorem mem_blk1_1 (t : Fin cfg1.N) (i : S1x128.Idx) :
    i ∈ ((cfg1.win 1).blk t).view.set ↔ ∀ a : Fin 2, win1_1.index t a * S1x128.size a ≤ (i a).val
      ∧ (i a).val < win1_1.index t a * S1x128.size a + S1x128.size a := by
  show i ∈ ((View.whole main_v44_0).slice (win1_1.rect t)).set ↔ _
  rw [View.set_slice_whole, Rect.mem_set_unit]
  exact Iff.rfl

/-- The one write-back of accumulator window 1, after the last point, writes the column sums: block (0, 0) of the
    [1,128] array read through zero offsets is the array. -/
theorem flushed1_1 (c : Dev nD) (t : Fin cfg1.N) (hf : (cfg1.win 1).flush t = true) :
    (dat1 V c).flushed 1 t = ((cfg1.win 1).blk t).view.read (Elt Ideal) (colSums (V c (Pipeline.arrRef spec1 0))) := by
  have hN : cfg1.N = 20 := N_1
  have h19 : t.val = 19 := by have := (flush1_1 t).mp hf; have := t.isLt; omega
  show (cfg1.win 1).cut (grid1.coords t) ((dat1 V c).after 1 t) = _
  rw [after1_1, (acc_final V c t h19).1]
  obtain ⟨-, -, e2, e3, e4, e5⟩ := idx1 t
  have hz' : (fun a => win1_1.index t a * main_v44_0.ty.shape.size a) = fun _ => 0 := funext fun a => by
    match a with
    | ⟨0, _⟩ => show win1_1.index t (0 : Fin 2) * 1 = 0; rw [e2]
    | ⟨1, _⟩ => show win1_1.index t (1 : Fin 2) * 128 = 0; rw [e3]
  exact (Memref.read_access_unit_zero (Elt Ideal) main_v44_0 hz' (fun a => by rw [congrFun hz' a]; simp) (colSums (V c (Pipeline.arrRef spec1 0)))).symm

/-- REGION 1'S FIRST RESULT: after the region the array holds, at column n, the sum over all rows r of h(r, n)
    (the last point's block is the whole [1,128] array). -/
theorem region1_sum (c : Dev nD) : (dat1 V c).arrAt 1 cfg1.N = colSums (V c (Pipeline.arrRef spec1 0)) :=
  (dat1 V c).arrAt_eq_of_cover 1 _ (flushed1_1 V c) fun i => by
    have hN : cfg1.N = 20 := N_1
    refine ⟨⟨19, by rw [hN]; omega⟩, (flush1_1 _).mpr rfl, ?_⟩
    obtain ⟨-, -, e2, e3, e4, e5⟩ := idx1 ⟨19, by rw [hN]; omega⟩
    rw [mem_blk1_1]
    intro a
    have h0 : ((i : S1x128.Idx) 0).val < 1 := (i 0).isLt
    have h1 : ((i : S1x128.Idx) 1).val < 128 := (i 1).isLt
    match a with
    | ⟨0, _⟩ =>
      show win1_1.index _ (0 : Fin 2) * 1 ≤ (i 0).val ∧ (i 0).val < win1_1.index _ (0 : Fin 2) * 1 + 1
      rw [e2]; omega
    | ⟨1, _⟩ =>
      show win1_1.index _ (1 : Fin 2) * 128 ≤ (i 1).val ∧ (i 1).val < win1_1.index _ (1 : Fin 2) * 128 + 128
      rw [e3]; omega

/-- An index of accumulator window 2's array is in point `t`'s block iff each coordinate is in the block's range. -/
theorem mem_blk1_2 (t : Fin cfg1.N) (i : S1x128.Idx) :
    i ∈ ((cfg1.win 2).blk t).view.set ↔ ∀ a : Fin 2, win1_2.index t a * S1x128.size a ≤ (i a).val
      ∧ (i a).val < win1_2.index t a * S1x128.size a + S1x128.size a := by
  show i ∈ ((View.whole main_v44_1).slice (win1_2.rect t)).set ↔ _
  rw [View.set_slice_whole, Rect.mem_set_unit]
  exact Iff.rfl

/-- The one write-back of accumulator window 2, after the last point, writes the column sums of squares: block (0, 0) of the
    [1,128] array read through zero offsets is the array. -/
theorem flushed1_2 (c : Dev nD) (t : Fin cfg1.N) (hf : (cfg1.win 2).flush t = true) :
    (dat1 V c).flushed 2 t = ((cfg1.win 2).blk t).view.read (Elt Ideal) (colSumsSq (V c (Pipeline.arrRef spec1 0))) := by
  have hN : cfg1.N = 20 := N_1
  have h19 : t.val = 19 := by have := (flush1_2 t).mp hf; have := t.isLt; omega
  show (cfg1.win 2).cut (grid1.coords t) ((dat1 V c).after 2 t) = _
  rw [after1_2, (acc_final V c t h19).2]
  obtain ⟨-, -, e2, e3, e4, e5⟩ := idx1 t
  have hz' : (fun a => win1_2.index t a * main_v44_1.ty.shape.size a) = fun _ => 0 := funext fun a => by
    match a with
    | ⟨0, _⟩ => show win1_2.index t (0 : Fin 2) * 1 = 0; rw [e4]
    | ⟨1, _⟩ => show win1_2.index t (1 : Fin 2) * 128 = 0; rw [e5]
  exact (Memref.read_access_unit_zero (Elt Ideal) main_v44_1 hz' (fun a => by rw [congrFun hz' a]; simp) (colSumsSq (V c (Pipeline.arrRef spec1 0)))).symm

/-- REGION 1'S SECOND RESULT: after the region the array holds, at column n, the sum over all rows r of h(r, n) * h(r, n)
    (the last point's block is the whole [1,128] array). -/
theorem region1_sumsq (c : Dev nD) : (dat1 V c).arrAt 2 cfg1.N = colSumsSq (V c (Pipeline.arrRef spec1 0)) :=
  (dat1 V c).arrAt_eq_of_cover 2 _ (flushed1_2 V c) fun i => by
    have hN : cfg1.N = 20 := N_1
    refine ⟨⟨19, by rw [hN]; omega⟩, (flush1_2 _).mpr rfl, ?_⟩
    obtain ⟨-, -, e2, e3, e4, e5⟩ := idx1 ⟨19, by rw [hN]; omega⟩
    rw [mem_blk1_2]
    intro a
    have h0 : ((i : S1x128.Idx) 0).val < 1 := (i 0).isLt
    have h1 : ((i : S1x128.Idx) 1).val < 128 := (i 1).isLt
    match a with
    | ⟨0, _⟩ =>
      show win1_2.index _ (0 : Fin 2) * 1 ≤ (i 0).val ∧ (i 0).val < win1_2.index _ (0 : Fin 2) * 1 + 1
      rw [e4]; omega
    | ⟨1, _⟩ =>
      show win1_2.index _ (1 : Fin 2) * 128 ≤ (i 1).val ∧ (i 1).val < win1_2.index _ (1 : Fin 2) * 128 + 128
      rw [e5]; omega

end Region1

end Cert.KernelIdeal.RegionValue

end
-- ==== Proof.KValue.lean ====
/-
  The kernel program's result as one function of its argument arrays.

  Region 0 and region 3 multiply all rows by a weight matrix; region 1 leaves the column sums and the column sums of
  squares of the first layer's activations; region 2 scales and shifts every column and takes the positive part. Joined
  with the boundary contents this gives the result: the second aggregation of the product of the normalised first
  layer with the second weight matrix.
-/
import proofs.«175277_j21938692947970_1_alg».proof.Proof.KChain
import proofs.«175277_j21938692947970_1_alg».proof.Proof.RegionMatmul
import proofs.«175277_j21938692947970_1_alg».proof.Proof.RegionAffine
import proofs.«175277_j21938692947970_1_alg».proof.Proof.RegionStats

set_option maxRecDepth 16384

noncomputable section

namespace Cert.KernelIdeal.Chain

open Idealize.ShloMosaic Idealize.ShloMosaic.TcCoe
open Idealize.SL.Sem
open Cert.KernelIdeal Cert.KernelIdeal.Gen Cert.KernelIdeal.RegionValue

variable (m : (ℓ : Loc nD τ sig) → Buf (Elt Ideal) ℓ) (ρ : Dev nD → PrngReg) (c : Dev nD)

/-- The first layer's activations before normalisation. -/
def act1 (x : FVec Ideal S100000x128 .f32) (ei : IVec S2x600000 32) (w1 : FVec Ideal S128x128 .f32) (b1 : FVec Ideal S128 .f32) :
    FVec Ideal S100000x128 .f32 :=
  Cert.Gcn.aggOf ei (matmulRows x w1) b1

/-- The kernel's normalised first layer: the columns scaled and shifted by the rows computed from the column sums. -/
def norm1 (h : FVec Ideal S100000x128 .f32) (g be : FVec Ideal S128 .f32) : FVec Ideal S100000x128 .f32 :=
  affineRelu h (kScale (colSums h) (colSumsSq h) g) (kShift (colSums h) (colSumsSq h) g be)

/-- The kernel's result as a function of its eight arguments. -/
def kernelOut (x : FVec Ideal S100000x128 .f32) (ei : IVec S2x600000 32) (w1 : FVec Ideal S128x128 .f32) (b1 g be : FVec Ideal S128 .f32)
    (w2 : FVec Ideal S128x128 .f32) (b2 : FVec Ideal S128 .f32) : FVec Ideal S100000x128 .f32 :=
  Cert.Gcn.aggOf ei (matmulRows (norm1 (act1 x ei w1 b1) g be) w2) b2

theorem v27_eq : (W2 m ρ c (Proc.devRef .tc main_v27) : FVec Ideal S100000x128 .f32) = matmulRows (m ((c.tc : Thread nD τ).loc main_arg0)) (m ((c.tc : Thread nD τ).loc main_arg2)) := by
  rw [W2_v27 m ρ c, region0_value (V1 m ρ) c]
  show matmulRows (W1 m ρ c (Proc.devRef .tc main_arg0)) (W1 m ρ c (Proc.devRef .tc main_arg2)) = _
  rw [W1_arg0 m ρ c, W1_arg2 m ρ c]

theorem v43_eq : (W3 m ρ c (Proc.devRef .tc main_v43) : FVec Ideal S100000x128 .f32)
    = act1 (m ((c.tc : Thread nD τ).loc main_arg0)) (m ((c.tc : Thread nD τ).loc main_arg1)) (m ((c.tc : Thread nD τ).loc main_arg2)) (m ((c.tc : Thread nD τ).loc main_arg3)) := by
  rw [W3_v43 m ρ c, v27_eq m ρ c]; rfl

theorem v44_0_eq : (W4 m ρ c (Proc.devRef .tc main_v44_0) : FVec Ideal S1x128 .f32) = colSums (W3 m ρ c (Proc.devRef .tc main_v43)) := by
  rw [W4_v44_0 m ρ c, region1_sum (V3 m ρ) c]

theorem v44_1_eq : (W4 m ρ c (Proc.devRef .tc main_v44_1) : FVec Ideal S1x128 .f32) = colSumsSq (W3 m ρ c (Proc.devRef .tc main_v43)) := by
  rw [W4_v44_1 m ρ c, region1_sumsq (V3 m ρ) c]

theorem v62_eq : (W6 m ρ c (Proc.devRef .tc main_v62) : FVec Ideal S100000x128 .f32)
    = norm1 (W3 m ρ c (Proc.devRef .tc main_v43)) (m ((c.tc : Thread nD τ).loc main_arg4)) (m ((c.tc : Thread nD τ).loc main_arg5)) := by
  rw [W6_v62 m ρ c, region2_value (V5 m ρ) c]
  show affineRelu (W5 m ρ c (Proc.devRef .tc main_v43)) (W5 m ρ c (Proc.devRef .tc main_v57)) (W5 m ρ c (Proc.devRef .tc main_v61)) = _
  rw [W5_v43 m ρ c, W5_v57 m ρ c, W5_v61 m ρ c, v44_0_eq m ρ c, v44_1_eq m ρ c]; rfl

theorem v63_eq : (W7 m ρ c (Proc.devRef .tc main_v63) : FVec Ideal S100000x128 .f32)
    = matmulRows (W6 m ρ c (Proc.devRef .tc main_v62)) (m ((c.tc : Thread nD τ).loc main_arg6)) := by
  rw [W7_v63 m ρ c, region3_value (V6 m ρ) c]
  show matmulRows (W6 m ρ c (Proc.devRef .tc main_v62)) (W6 m ρ c (Proc.devRef .tc main_arg6)) = _
  rw [W6_arg6 m ρ c]

/-- The result buffer's last contents are the kernel's function of the launch contents of the arguments. -/
theorem result_eq : (W8 m ρ c (Proc.devRef .tc main_v79) : FVec Ideal S100000x128 .f32)
    = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W8_v79 m ρ c, v63_eq m ρ c, v62_eq m ρ c, v43_eq m ρ c]; rfl

end Cert.KernelIdeal.Chain

end
-- ==== Proof.RefOps.lean ====
import proofs.«175277_j21938692947970_1_alg».proof.Proof.Gen.ReferenceIdeal
import Idealize.ShloMosaic.Lib.StableHlo.Run

/-! The reference program's @main as three lists of host operations (the outlined functions `_var`, `_where`
    and `relu` listed inline at their call sites over the calls' buffer records), and its run read back as the
    fold of those operations over the launch contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60: the first layer's aggregation, the column mean, and `_var` (its `_where` inside). -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v5 (iotaInDim S100000 32 0),
    StableHlo.binary main_v1 main_v5 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.binary main_v3 main_v5 main_v7 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.nullary main_cst (constant S_ .f32 0x3F800000#32),
    StableHlo.unary main_cst main_v8 (broadcastInDim S700000 ![] bcast_S_S700000 : (⟨S_, .f32⟩ : BufTy).Contents (Elt F) → (⟨S700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S700000x1 ![0] bcast_S700000_S700000x1_0 : (⟨S700000, .i32⟩ : BufTy).Contents (Elt F) → (⟨S700000x1, .i32⟩ : BufTy).Contents (Elt F)),
    StableHlo.ternary main_v9 main_v10 main_v8 main_v11 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S700000 ![] bcast_S_S700000 : (⟨S_, .i32⟩ : BufTy).Contents (Elt F) → (⟨S700000, .i32⟩ : BufTy).Contents (Elt F)),
    StableHlo.binary main_v6 main_v13 main_v14 (cmpi .slt : (⟨S700000, .i32⟩ : BufTy).Contents (Elt F) → (⟨S700000, .i32⟩ : BufTy).Contents (Elt F) → (⟨S700000, .i1⟩ : BufTy).Contents (Elt F)),
    StableHlo.nullary main_c_1 (constantI S_ 32 100000#32),
    StableHlo.unary main_c_1 main_v15 (broadcastInDim S700000 ![] bcast_S_S700000 : (⟨S_, .i32⟩ : BufTy).Contents (Elt F) → (⟨S700000, .i32⟩ : BufTy).Contents (Elt F)),
    StableHlo.binary main_v6 main_v15 main_v16 (addi : (⟨S700000, .i32⟩ : BufTy).Contents (Elt F) → (⟨S700000, .i32⟩ : BufTy).Contents (Elt F) → (⟨S700000, .i32⟩ : BufTy).Contents (Elt F)),
    StableHlo.ternary main_v14 main_v16 main_v6 main_v17 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v17 main_v18 (broadcastInDim S700000x1 ![0] bcast_S700000_S700000x1_0 : (⟨S700000, .i32⟩ : BufTy).Contents (Elt F) → (⟨S700000x1, .i32⟩ : BufTy).Contents (Elt F)),
    StableHlo.binary main_v12 main_v18 main_v19 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.nullary main_c_2 (constantI S_ 32 0#32),
    StableHlo.unary main_c_2 main_v20 (broadcastInDim S700000 ![] bcast_S_S700000 : (⟨S_, .i32⟩ : BufTy).Contents (Elt F) → (⟨S700000, .i32⟩ : BufTy).Contents (Elt F)),
    StableHlo.binary main_v7 main_v20 main_v21 (cmpi .slt : (⟨S700000, .i32⟩ : BufTy).Contents (Elt F) → (⟨S700000, .i32⟩ : BufTy).Contents (Elt F) → (⟨S700000, .i1⟩ : BufTy).Contents (Elt F)),
    StableHlo.nullary main_c_3 (constantI S_ 32 100000#32),
    StableHlo.unary main_c_3 main_v22 (broadcastInDim S700000 ![] bcast_S_S700000 : (⟨S_, .i32⟩ : BufTy).Contents (Elt F) → (⟨S700000, .i32⟩ : BufTy).Contents (Elt F)),
    StableHlo.binary main_v7 main_v22 main_v23 (addi : (⟨S700000, .i32⟩ : BufTy).Contents (Elt F) → (⟨S700000, .i32⟩ : BufTy).Contents (Elt F) → (⟨S700000, .i32⟩ : BufTy).Contents (Elt F)),
    StableHlo.ternary main_v21 main_v23 main_v7 main_v24 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v24 main_v25 (broadcastInDim S700000x1 ![0] bcast_S700000_S700000x1_0 : (⟨S700000, .i32⟩ : BufTy).Contents (Elt F) → (⟨S700000x1, .i32⟩ : BufTy).Contents (Elt F)),
    StableHlo.binary main_v12 main_v25 main_v26 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.binary main_v19 main_v26 main_v27 (mulf : (⟨S700000, .f32⟩ : BufTy).Contents (Elt F) → (⟨S700000, .f32⟩ : BufTy).Contents (Elt F) → (⟨S700000, .f32⟩ : BufTy).Contents (Elt F)),
    StableHlo.nullary main_c_4 (constantI S_ 32 0#32),
    StableHlo.unary main_c_4 main_v28 (broadcastInDim S700000 ![] bcast_S_S700000 : (⟨S_, .i32⟩ : BufTy).Contents (Elt F) → (⟨S700000, .i32⟩ : BufTy).Contents (Elt F)),
    StableHlo.binary main_v6 main_v28 main_v29 (cmpi .slt : (⟨S700000, .i32⟩ : BufTy).Contents (Elt F) → (⟨S700000, .i32⟩ : BufTy).Contents (Elt F) → (⟨S700000, .i1⟩ : BufTy).Contents (Elt F)),
    StableHlo.nullary main_c_5 (constantI S_ 32 100000#32),
    StableHlo.unary main_c_5 main_v30 (broadcastInDim S700000 ![] bcast_S_S700000 : (⟨S_, .i32⟩ : BufTy).Contents (Elt F) → (⟨S700000, .i32⟩ : BufTy).Contents (Elt F)),
    StableHlo.binary main_v6 main_v30 main_v31 (addi : (⟨S700000, .i32⟩ : BufTy).Contents (Elt F) → (⟨S700000, .i32⟩ : BufTy).Contents (Elt F) → (⟨S700000, .i32⟩ : BufTy).Contents (Elt F)),
    StableHlo.ternary main_v29 main_v31 main_v6 main_v32 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v32 main_v33 (broadcastInDim S700000x1 ![0] bcast_S700000_S700000x1_0 : (⟨S700000, .i32⟩ : BufTy).Contents (Elt F) → (⟨S700000x1, .i32⟩ : BufTy).Contents (Elt F)),
    StableHlo.binary main_v4 main_v33 main_v34 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    StableHlo.unary main_v27 main_v35 (broadcastInDim S700000x1 ![0] bcast_S700000_S700000x1_0 : (⟨S700000, .f32⟩ : BufTy).Contents (Elt F) → (⟨S700000x1, .f32⟩ : BufTy).Contents (Elt F)),
    StableHlo.unary main_v35 main_v36 (broadcastInDim S700000x128 ![0, 1] bcast_S700000x1_S700000x128_0_1 : (⟨S700000x1, .f32⟩ : BufTy).Contents (Elt F) → (⟨S700000x128, .f32⟩ : BufTy).Contents (Elt F)),
    StableHlo.binary main_v34 main_v36 main_v37 (mulf : (⟨S700000x128, .f32⟩ : BufTy).Contents (Elt F) → (⟨S700000x128, .f32⟩ : BufTy).Contents (Elt F) → (⟨S700000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v7 main_v39 (broadcastInDim S700000x1 ![0] bcast_S700000_S700000x1_0 : (⟨S700000, .i32⟩ : BufTy).Contents (Elt F) → (⟨S700000x1, .i32⟩ : BufTy).Contents (Elt F)),
    StableHlo.ternary main_v38 main_v39 main_v37 main_v40 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x00000000#32),
    StableHlo.binary main_v43 main_cst_7 main_v44 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call0.cst (constant S_ .f32 0x00000000#32),
    StableHlo.TRef.binary (.of main_v43) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v43) main_call0.v4 main_call0.v5 subf,
    StableHlo.TRef.binary main_call0.v5 main_call0.v5 main_call0.v6 mulf,
    StableHlo.TRef.unary (.of main_c_9) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Statements 61 … 120: the normalization, `relu`, and the second layer up to its zero constant. -/
abbrev ops1 : List (HloOp τ sig (Elt F)) :=
  [ StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v49 main_v50 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v51 (broadcastInDim S128 ![] bcast_S_S128 : (⟨S_, .f32⟩ : BufTy).Contents (Elt F) → (⟨S128, .f32⟩ : BufTy).Contents (Elt F)),
    StableHlo.binary main_v47 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.rsqrt : (⟨S128, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v55 main_v56 (mulf : (⟨S100000x128, .f32⟩ : BufTy).Contents (Elt F) → (⟨S100000x128, .f32⟩ : BufTy).Contents (Elt F) → (⟨S100000x128, .f32⟩ : BufTy).Contents (Elt F)),
    StableHlo.unary main_arg4 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v58 main_v59 (mulf : (⟨S100000x128, .f32⟩ : BufTy).Contents (Elt F) → (⟨S100000x128, .f32⟩ : BufTy).Contents (Elt F) → (⟨S100000x128, .f32⟩ : BufTy).Contents (Elt F)),
    StableHlo.unary main_arg5 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v62) main_call1.v0 main_call1.v1 maximumf,
    StableHlo.binary main_v63 main_arg6 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v65 (iotaInDim S100000 32 0),
    StableHlo.binary main_v1 main_v65 main_v66 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.binary main_v3 main_v65 main_v67 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.nullary main_cst_11 (constant S_ .f32 0x3F800000#32),
    StableHlo.unary main_cst_11 main_v68 (broadcastInDim S700000 ![] bcast_S_S700000 : (⟨S_, .f32⟩ : BufTy).Contents (Elt F) → (⟨S700000, .f32⟩ : BufTy).Contents (Elt F)),
    StableHlo.nullary main_cst_12 (constant S_ .f32 0x00000000#32),
    StableHlo.unary main_cst_12 main_v69 (broadcastInDim S100000 ![] bcast_S_S100000 : (⟨S_, .f32⟩ : BufTy).Contents (Elt F) → (⟨S100000, .f32⟩ : BufTy).Contents (Elt F)),
    StableHlo.unary main_v67 main_v70 (broadcastInDim S700000x1 ![0] bcast_S700000_S700000x1_0 : (⟨S700000, .i32⟩ : BufTy).Contents (Elt F) → (⟨S700000x1, .i32⟩ : BufTy).Contents (Elt F)),
    StableHlo.ternary main_v69 main_v70 main_v68 main_v71 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    StableHlo.unary main_v71 main_v72 (Host.rsqrt : (⟨S100000, .f32⟩ : BufTy).Contents (Elt F) → (⟨S100000, .f32⟩ : BufTy).Contents (Elt F)),
    StableHlo.nullary main_c_13 (constantI S_ 32 0#32),
    StableHlo.unary main_c_13 main_v73 (broadcastInDim S700000 ![] bcast_S_S700000 : (⟨S_, .i32⟩ : BufTy).Contents (Elt F) → (⟨S700000, .i32⟩ : BufTy).Contents (Elt F)),
    StableHlo.binary main_v66 main_v73 main_v74 (cmpi .slt : (⟨S700000, .i32⟩ : BufTy).Contents (Elt F) → (⟨S700000, .i32⟩ : BufTy).Contents (Elt F) → (⟨S700000, .i1⟩ : BufTy).Contents (Elt F)),
    StableHlo.nullary main_c_14 (constantI S_ 32 100000#32),
    StableHlo.unary main_c_14 main_v75 (broadcastInDim S700000 ![] bcast_S_S700000 : (⟨S_, .i32⟩ : BufTy).Contents (Elt F) → (⟨S700000, .i32⟩ : BufTy).Contents (Elt F)),
    StableHlo.binary main_v66 main_v75 main_v76 (addi : (⟨S700000, .i32⟩ : BufTy).Contents (Elt F) → (⟨S700000, .i32⟩ : BufTy).Contents (Elt F) → (⟨S700000, .i32⟩ : BufTy).Contents (Elt F)),
    StableHlo.ternary main_v74 main_v76 main_v66 main_v77 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v77 main_v78 (broadcastInDim S700000x1 ![0] bcast_S700000_S700000x1_0 : (⟨S700000, .i32⟩ : BufTy).Contents (Elt F) → (⟨S700000x1, .i32⟩ : BufTy).Contents (Elt F)),
    StableHlo.binary main_v72 main_v78 main_v79 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.nullary main_c_15 (constantI S_ 32 0#32),
    StableHlo.unary main_c_15 main_v80 (broadcastInDim S700000 ![] bcast_S_S700000 : (⟨S_, .i32⟩ : BufTy).Contents (Elt F) → (⟨S700000, .i32⟩ : BufTy).Contents (Elt F)),
    StableHlo.binary main_v67 main_v80 main_v81 (cmpi .slt : (⟨S700000, .i32⟩ : BufTy).Contents (Elt F) → (⟨S700000, .i32⟩ : BufTy).Contents (Elt F) → (⟨S700000, .i1⟩ : BufTy).Contents (Elt F)),
    StableHlo.nullary main_c_16 (constantI S_ 32 100000#32),
    StableHlo.unary main_c_16 main_v82 (broadcastInDim S700000 ![] bcast_S_S700000 : (⟨S_, .i32⟩ : BufTy).Contents (Elt F) → (⟨S700000, .i32⟩ : BufTy).Contents (Elt F)),
    StableHlo.binary main_v67 main_v82 main_v83 (addi : (⟨S700000, .i32⟩ : BufTy).Contents (Elt F) → (⟨S700000, .i32⟩ : BufTy).Contents (Elt F) → (⟨S700000, .i32⟩ : BufTy).Contents (Elt F)),
    StableHlo.ternary main_v81 main_v83 main_v67 main_v84 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v84 main_v85 (broadcastInDim S700000x1 ![0] bcast_S700000_S700000x1_0 : (⟨S700000, .i32⟩ : BufTy).Contents (Elt F) → (⟨S700000x1, .i32⟩ : BufTy).Contents (Elt F)),
    StableHlo.binary main_v72 main_v85 main_v86 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.binary main_v79 main_v86 main_v87 (mulf : (⟨S700000, .f32⟩ : BufTy).Contents (Elt F) → (⟨S700000, .f32⟩ : BufTy).Contents (Elt F) → (⟨S700000, .f32⟩ : BufTy).Contents (Elt F)),
    StableHlo.nullary main_c_17 (constantI S_ 32 0#32),
    StableHlo.unary main_c_17 main_v88 (broadcastInDim S700000 ![] bcast_S_S700000 : (⟨S_, .i32⟩ : BufTy).Contents (Elt F) → (⟨S700000, .i32⟩ : BufTy).Contents (Elt F)),
    StableHlo.binary main_v66 main_v88 main_v89 (cmpi .slt : (⟨S700000, .i32⟩ : BufTy).Contents (Elt F) → (⟨S700000, .i32⟩ : BufTy).Contents (Elt F) → (⟨S700000, .i1⟩ : BufTy).Contents (Elt F)),
    StableHlo.nullary main_c_18 (constantI S_ 32 100000#32),
    StableHlo.unary main_c_18 main_v90 (broadcastInDim S700000 ![] bcast_S_S700000 : (⟨S_, .i32⟩ : BufTy).Contents (Elt F) → (⟨S700000, .i32⟩ : BufTy).Contents (Elt F)),
    StableHlo.binary main_v66 main_v90 main_v91 (addi : (⟨S700000, .i32⟩ : BufTy).Contents (Elt F) → (⟨S700000, .i32⟩ : BufTy).Contents (Elt F) → (⟨S700000, .i32⟩ : BufTy).Contents (Elt F)),
    StableHlo.ternary main_v89 main_v91 main_v66 main_v92 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v92 main_v93 (broadcastInDim S700000x1 ![0] bcast_S700000_S700000x1_0 : (⟨S700000, .i32⟩ : BufTy).Contents (Elt F) → (⟨S700000x1, .i32⟩ : BufTy).Contents (Elt F)),
    StableHlo.binary main_v64 main_v93 main_v94 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    StableHlo.unary main_v87 main_v95 (broadcastInDim S700000x1 ![0] bcast_S700000_S700000x1_0 : (⟨S700000, .f32⟩ : BufTy).Contents (Elt F) → (⟨S700000x1, .f32⟩ : BufTy).Contents (Elt F)),
    StableHlo.unary main_v95 main_v96 (broadcastInDim S700000x128 ![0, 1] bcast_S700000x1_S700000x128_0_1 : (⟨S700000x1, .f32⟩ : BufTy).Contents (Elt F) → (⟨S700000x128, .f32⟩ : BufTy).Contents (Elt F)),
    StableHlo.binary main_v94 main_v96 main_v97 (mulf : (⟨S700000x128, .f32⟩ : BufTy).Contents (Elt F) → (⟨S700000x128, .f32⟩ : BufTy).Contents (Elt F) → (⟨S700000x128, .f32⟩ : BufTy).Contents (Elt F)),
    StableHlo.nullary main_cst_19 (constant S_ .f32 0x00000000#32) ]

/-- Statements 121 … 127: the second layer's scatter and bias. -/
abbrev ops2 : List (HloOp τ sig (Elt F)) :=
  [ StableHlo.unary main_cst_19 main_v98 (broadcastInDim S100000x128 ![] bcast_S_S100000x128 : (⟨S_, .f32⟩ : BufTy).Contents (Elt F) → (⟨S100000x128, .f32⟩ : BufTy).Contents (Elt F)),
    StableHlo.unary main_v67 main_v99 (broadcastInDim S700000x1 ![0] bcast_S700000_S700000x1_0 : (⟨S700000, .i32⟩ : BufTy).Contents (Elt F) → (⟨S700000x1, .i32⟩ : BufTy).Contents (Elt F)),
    StableHlo.ternary main_v98 main_v99 main_v97 main_v100 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    StableHlo.unary main_arg7 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v102 main_v103 (addf : (⟨S100000x128, .f32⟩ : BufTy).Contents (Elt F) → (⟨S100000x128, .f32⟩ : BufTy).Contents (Elt F) → (⟨S100000x128, .f32⟩ : BufTy).Contents (Elt F)) ]

/-- The first window up to the first layer's output (statement 54). -/
abbrev ops0a : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v5 (iotaInDim S100000 32 0),
    StableHlo.binary main_v1 main_v5 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.binary main_v3 main_v5 main_v7 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.nullary main_cst (constant S_ .f32 0x3F800000#32),
    StableHlo.unary main_cst main_v8 (broadcastInDim S700000 ![] bcast_S_S700000 : (⟨S_, .f32⟩ : BufTy).Contents (Elt F) → (⟨S700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S700000x1 ![0] bcast_S700000_S700000x1_0 : (⟨S700000, .i32⟩ : BufTy).Contents (Elt F) → (⟨S700000x1, .i32⟩ : BufTy).Contents (Elt F)),
    StableHlo.ternary main_v9 main_v10 main_v8 main_v11 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S700000 ![] bcast_S_S700000 : (⟨S_, .i32⟩ : BufTy).Contents (Elt F) → (⟨S700000, .i32⟩ : BufTy).Contents (Elt F)),
    StableHlo.binary main_v6 main_v13 main_v14 (cmpi .slt : (⟨S700000, .i32⟩ : BufTy).Contents (Elt F) → (⟨S700000, .i32⟩ : BufTy).Contents (Elt F) → (⟨S700000, .i1⟩ : BufTy).Contents (Elt F)),
    StableHlo.nullary main_c_1 (constantI S_ 32 100000#32),
    StableHlo.unary main_c_1 main_v15 (broadcastInDim S700000 ![] bcast_S_S700000 : (⟨S_, .i32⟩ : BufTy).Contents (Elt F) → (⟨S700000, .i32⟩ : BufTy).Contents (Elt F)),
    StableHlo.binary main_v6 main_v15 main_v16 (addi : (⟨S700000, .i32⟩ : BufTy).Contents (Elt F) → (⟨S700000, .i32⟩ : BufTy).Contents (Elt F) → (⟨S700000, .i32⟩ : BufTy).Contents (Elt F)),
    StableHlo.ternary main_v14 main_v16 main_v6 main_v17 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v17 main_v18 (broadcastInDim S700000x1 ![0] bcast_S700000_S700000x1_0 : (⟨S700000, .i32⟩ : BufTy).Contents (Elt F) → (⟨S700000x1, .i32⟩ : BufTy).Contents (Elt F)),
    StableHlo.binary main_v12 main_v18 main_v19 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.nullary main_c_2 (constantI S_ 32 0#32),
    StableHlo.unary main_c_2 main_v20 (broadcastInDim S700000 ![] bcast_S_S700000 : (⟨S_, .i32⟩ : BufTy).Contents (Elt F) → (⟨S700000, .i32⟩ : BufTy).Contents (Elt F)),
    StableHlo.binary main_v7 main_v20 main_v21 (cmpi .slt : (⟨S700000, .i32⟩ : BufTy).Contents (Elt F) → (⟨S700000, .i32⟩ : BufTy).Contents (Elt F) → (⟨S700000, .i1⟩ : BufTy).Contents (Elt F)),
    StableHlo.nullary main_c_3 (constantI S_ 32 100000#32),
    StableHlo.unary main_c_3 main_v22 (broadcastInDim S700000 ![] bcast_S_S700000 : (⟨S_, .i32⟩ : BufTy).Contents (Elt F) → (⟨S700000, .i32⟩ : BufTy).Contents (Elt F)),
    StableHlo.binary main_v7 main_v22 main_v23 (addi : (⟨S700000, .i32⟩ : BufTy).Contents (Elt F) → (⟨S700000, .i32⟩ : BufTy).Contents (Elt F) → (⟨S700000, .i32⟩ : BufTy).Contents (Elt F)),
    StableHlo.ternary main_v21 main_v23 main_v7 main_v24 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v24 main_v25 (broadcastInDim S700000x1 ![0] bcast_S700000_S700000x1_0 : (⟨S700000, .i32⟩ : BufTy).Contents (Elt F) → (⟨S700000x1, .i32⟩ : BufTy).Contents (Elt F)),
    StableHlo.binary main_v12 main_v25 main_v26 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.binary main_v19 main_v26 main_v27 (mulf : (⟨S700000, .f32⟩ : BufTy).Contents (Elt F) → (⟨S700000, .f32⟩ : BufTy).Contents (Elt F) → (⟨S700000, .f32⟩ : BufTy).Contents (Elt F)),
    StableHlo.nullary main_c_4 (constantI S_ 32 0#32),
    StableHlo.unary main_c_4 main_v28 (broadcastInDim S700000 ![] bcast_S_S700000 : (⟨S_, .i32⟩ : BufTy).Contents (Elt F) → (⟨S700000, .i32⟩ : BufTy).Contents (Elt F)),
    StableHlo.binary main_v6 main_v28 main_v29 (cmpi .slt : (⟨S700000, .i32⟩ : BufTy).Contents (Elt F) → (⟨S700000, .i32⟩ : BufTy).Contents (Elt F) → (⟨S700000, .i1⟩ : BufTy).Contents (Elt F)),
    StableHlo.nullary main_c_5 (constantI S_ 32 100000#32),
    StableHlo.unary main_c_5 main_v30 (broadcastInDim S700000 ![] bcast_S_S700000 : (⟨S_, .i32⟩ : BufTy).Contents (Elt F) → (⟨S700000, .i32⟩ : BufTy).Contents (Elt F)),
    StableHlo.binary main_v6 main_v30 main_v31 (addi : (⟨S700000, .i32⟩ : BufTy).Contents (Elt F) → (⟨S700000, .i32⟩ : BufTy).Contents (Elt F) → (⟨S700000, .i32⟩ : BufTy).Contents (Elt F)),
    StableHlo.ternary main_v29 main_v31 main_v6 main_v32 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v32 main_v33 (broadcastInDim S700000x1 ![0] bcast_S700000_S700000x1_0 : (⟨S700000, .i32⟩ : BufTy).Contents (Elt F) → (⟨S700000x1, .i32⟩ : BufTy).Contents (Elt F)),
    StableHlo.binary main_v4 main_v33 main_v34 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    StableHlo.unary main_v27 main_v35 (broadcastInDim S700000x1 ![0] bcast_S700000_S700000x1_0 : (⟨S700000, .f32⟩ : BufTy).Contents (Elt F) → (⟨S700000x1, .f32⟩ : BufTy).Contents (Elt F)),
    StableHlo.unary main_v35 main_v36 (broadcastInDim S700000x128 ![0, 1] bcast_S700000x1_S700000x128_0_1 : (⟨S700000x1, .f32⟩ : BufTy).Contents (Elt F) → (⟨S700000x128, .f32⟩ : BufTy).Contents (Elt F)),
    StableHlo.binary main_v34 main_v36 main_v37 (mulf : (⟨S700000x128, .f32⟩ : BufTy).Contents (Elt F) → (⟨S700000x128, .f32⟩ : BufTy).Contents (Elt F) → (⟨S700000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v7 main_v39 (broadcastInDim S700000x1 ![0] bcast_S700000_S700000x1_0 : (⟨S700000, .i32⟩ : BufTy).Contents (Elt F) → (⟨S700000x1, .i32⟩ : BufTy).Contents (Elt F)),
    StableHlo.ternary main_v38 main_v39 main_v37 main_v40 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)) ]

/-- The rest of the first window: the column mean, and `_var` with its `_where`. -/
abbrev ops0b : List (HloOp τ sig (Elt F)) :=
  [ StableHlo.nullary main_cst_7 (constant S_ .f32 0x00000000#32),
    StableHlo.binary main_v43 main_cst_7 main_v44 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call0.cst (constant S_ .f32 0x00000000#32),
    StableHlo.TRef.binary (.of main_v43) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v43) main_call0.v4 main_call0.v5 subf,
    StableHlo.TRef.binary main_call0.v5 main_call0.v5 main_call0.v6 mulf,
    StableHlo.TRef.unary (.of main_c_9) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

theorem ops0_split : (ops0 : List (HloOp τ sig (Elt F))) = ops0a ++ ops0b := rfl

/-- The second window up to the second layer's id arrays: the normalization, `relu`, the dense layer, the two concatenations. -/
abbrev ops1a : List (HloOp τ sig (Elt F)) :=
  [ StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v49 main_v50 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v51 (broadcastInDim S128 ![] bcast_S_S128 : (⟨S_, .f32⟩ : BufTy).Contents (Elt F) → (⟨S128, .f32⟩ : BufTy).Contents (Elt F)),
    StableHlo.binary main_v47 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.rsqrt : (⟨S128, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v55 main_v56 (mulf : (⟨S100000x128, .f32⟩ : BufTy).Contents (Elt F) → (⟨S100000x128, .f32⟩ : BufTy).Contents (Elt F) → (⟨S100000x128, .f32⟩ : BufTy).Contents (Elt F)),
    StableHlo.unary main_arg4 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v58 main_v59 (mulf : (⟨S100000x128, .f32⟩ : BufTy).Contents (Elt F) → (⟨S100000x128, .f32⟩ : BufTy).Contents (Elt F) → (⟨S100000x128, .f32⟩ : BufTy).Contents (Elt F)),
    StableHlo.unary main_arg5 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v62) main_call1.v0 main_call1.v1 maximumf,
    StableHlo.binary main_v63 main_arg6 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v65 (iotaInDim S100000 32 0),
    StableHlo.binary main_v1 main_v65 main_v66 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.binary main_v3 main_v65 main_v67 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ]

/-- The rest of the second window: the second layer's normalisation weights and gathered rows. -/
abbrev ops1b : List (HloOp τ sig (Elt F)) :=
  [ StableHlo.nullary main_cst_11 (constant S_ .f32 0x3F800000#32),
    StableHlo.unary main_cst_11 main_v68 (broadcastInDim S700000 ![] bcast_S_S700000 : (⟨S_, .f32⟩ : BufTy).Contents (Elt F) → (⟨S700000, .f32⟩ : BufTy).Contents (Elt F)),
    StableHlo.nullary main_cst_12 (constant S_ .f32 0x00000000#32),
    StableHlo.unary main_cst_12 main_v69 (broadcastInDim S100000 ![] bcast_S_S100000 : (⟨S_, .f32⟩ : BufTy).Contents (Elt F) → (⟨S100000, .f32⟩ : BufTy).Contents (Elt F)),
    StableHlo.unary main_v67 main_v70 (broadcastInDim S700000x1 ![0] bcast_S700000_S700000x1_0 : (⟨S700000, .i32⟩ : BufTy).Contents (Elt F) → (⟨S700000x1, .i32⟩ : BufTy).Contents (Elt F)),
    StableHlo.ternary main_v69 main_v70 main_v68 main_v71 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    StableHlo.unary main_v71 main_v72 (Host.rsqrt : (⟨S100000, .f32⟩ : BufTy).Contents (Elt F) → (⟨S100000, .f32⟩ : BufTy).Contents (Elt F)),
    StableHlo.nullary main_c_13 (constantI S_ 32 0#32),
    StableHlo.unary main_c_13 main_v73 (broadcastInDim S700000 ![] bcast_S_S700000 : (⟨S_, .i32⟩ : BufTy).Contents (Elt F) → (⟨S700000, .i32⟩ : BufTy).Contents (Elt F)),
    StableHlo.binary main_v66 main_v73 main_v74 (cmpi .slt : (⟨S700000, .i32⟩ : BufTy).Contents (Elt F) → (⟨S700000, .i32⟩ : BufTy).Contents (Elt F) → (⟨S700000, .i1⟩ : BufTy).Contents (Elt F)),
    StableHlo.nullary main_c_14 (constantI S_ 32 100000#32),
    StableHlo.unary main_c_14 main_v75 (broadcastInDim S700000 ![] bcast_S_S700000 : (⟨S_, .i32⟩ : BufTy).Contents (Elt F) → (⟨S700000, .i32⟩ : BufTy).Contents (Elt F)),
    StableHlo.binary main_v66 main_v75 main_v76 (addi : (⟨S700000, .i32⟩ : BufTy).Contents (Elt F) → (⟨S700000, .i32⟩ : BufTy).Contents (Elt F) → (⟨S700000, .i32⟩ : BufTy).Contents (Elt F)),
    StableHlo.ternary main_v74 main_v76 main_v66 main_v77 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v77 main_v78 (broadcastInDim S700000x1 ![0] bcast_S700000_S700000x1_0 : (⟨S700000, .i32⟩ : BufTy).Contents (Elt F) → (⟨S700000x1, .i32⟩ : BufTy).Contents (Elt F)),
    StableHlo.binary main_v72 main_v78 main_v79 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.nullary main_c_15 (constantI S_ 32 0#32),
    StableHlo.unary main_c_15 main_v80 (broadcastInDim S700000 ![] bcast_S_S700000 : (⟨S_, .i32⟩ : BufTy).Contents (Elt F) → (⟨S700000, .i32⟩ : BufTy).Contents (Elt F)),
    StableHlo.binary main_v67 main_v80 main_v81 (cmpi .slt : (⟨S700000, .i32⟩ : BufTy).Contents (Elt F) → (⟨S700000, .i32⟩ : BufTy).Contents (Elt F) → (⟨S700000, .i1⟩ : BufTy).Contents (Elt F)),
    StableHlo.nullary main_c_16 (constantI S_ 32 100000#32),
    StableHlo.unary main_c_16 main_v82 (broadcastInDim S700000 ![] bcast_S_S700000 : (⟨S_, .i32⟩ : BufTy).Contents (Elt F) → (⟨S700000, .i32⟩ : BufTy).Contents (Elt F)),
    StableHlo.binary main_v67 main_v82 main_v83 (addi : (⟨S700000, .i32⟩ : BufTy).Contents (Elt F) → (⟨S700000, .i32⟩ : BufTy).Contents (Elt F) → (⟨S700000, .i32⟩ : BufTy).Contents (Elt F)),
    StableHlo.ternary main_v81 main_v83 main_v67 main_v84 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v84 main_v85 (broadcastInDim S700000x1 ![0] bcast_S700000_S700000x1_0 : (⟨S700000, .i32⟩ : BufTy).Contents (Elt F) → (⟨S700000x1, .i32⟩ : BufTy).Contents (Elt F)),
    StableHlo.binary main_v72 main_v85 main_v86 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    StableHlo.binary main_v79 main_v86 main_v87 (mulf : (⟨S700000, .f32⟩ : BufTy).Contents (Elt F) → (⟨S700000, .f32⟩ : BufTy).Contents (Elt F) → (⟨S700000, .f32⟩ : BufTy).Contents (Elt F)),
    StableHlo.nullary main_c_17 (constantI S_ 32 0#32),
    StableHlo.unary main_c_17 main_v88 (broadcastInDim S700000 ![] bcast_S_S700000 : (⟨S_, .i32⟩ : BufTy).Contents (Elt F) → (⟨S700000, .i32⟩ : BufTy).Contents (Elt F)),
    StableHlo.binary main_v66 main_v88 main_v89 (cmpi .slt : (⟨S700000, .i32⟩ : BufTy).Contents (Elt F) → (⟨S700000, .i32⟩ : BufTy).Contents (Elt F) → (⟨S700000, .i1⟩ : BufTy).Contents (Elt F)),
    StableHlo.nullary main_c_18 (constantI S_ 32 100000#32),
    StableHlo.unary main_c_18 main_v90 (broadcastInDim S700000 ![] bcast_S_S700000 : (⟨S_, .i32⟩ : BufTy).Contents (Elt F) → (⟨S700000, .i32⟩ : BufTy).Contents (Elt F)),
    StableHlo.binary main_v66 main_v90 main_v91 (addi : (⟨S700000, .i32⟩ : BufTy).Contents (Elt F) → (⟨S700000, .i32⟩ : BufTy).Contents (Elt F) → (⟨S700000, .i32⟩ : BufTy).Contents (Elt F)),
    StableHlo.ternary main_v89 main_v91 main_v66 main_v92 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    StableHlo.unary main_v92 main_v93 (broadcastInDim S700000x1 ![0] bcast_S700000_S700000x1_0 : (⟨S700000, .i32⟩ : BufTy).Contents (Elt F) → (⟨S700000x1, .i32⟩ : BufTy).Contents (Elt F)),
    StableHlo.binary main_v64 main_v93 main_v94 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    StableHlo.unary main_v87 main_v95 (broadcastInDim S700000x1 ![0] bcast_S700000_S700000x1_0 : (⟨S700000, .f32⟩ : BufTy).Contents (Elt F) → (⟨S700000x1, .f32⟩ : BufTy).Contents (Elt F)),
    StableHlo.unary main_v95 main_v96 (broadcastInDim S700000x128 ![0, 1] bcast_S700000x1_S700000x128_0_1 : (⟨S700000x1, .f32⟩ : BufTy).Contents (Elt F) → (⟨S700000x128, .f32⟩ : BufTy).Contents (Elt F)),
    StableHlo.binary main_v94 main_v96 main_v97 (mulf : (⟨S700000x128, .f32⟩ : BufTy).Contents (Elt F) → (⟨S700000x128, .f32⟩ : BufTy).Contents (Elt F) → (⟨S700000x128, .f32⟩ : BufTy).Contents (Elt F)),
    StableHlo.nullary main_cst_19 (constant S_ .f32 0x00000000#32) ]

theorem ops1_split : (ops1 : List (HloOp τ sig (Elt F))) = ops1a ++ ops1b := rfl

/-- @main's operations, in order. -/
abbrev ops : List (HloOp τ sig (Elt F)) := ops0 ++ (ops1 ++ ops2)

set_option maxRecDepth 4096 in
set_option maxHeartbeats 4000000 in
theorem part0_eq (c : Dev nD) : main_part0 (F := F) c = seq ops0 := by
  simp only [main_part0, fn_var.body, fn_where.body, seq, bind_assoc, pure_bind]

set_option maxRecDepth 4096 in
set_option maxHeartbeats 4000000 in
theorem part1_eq (c : Dev nD) : main_part1 (F := F) c = seq ops1 := by
  simp only [main_part1, fn_relu.body, seq, bind_assoc, pure_bind]
  rfl

theorem part2_eq (c : Dev nD) : main_part2 (F := F) c = seq ops2 := rfl

theorem main_eq (c : Dev nD) : main (F := F) c = seq ops := by
  rw [ops, seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub ..⟩
theorem ops2_sub : (ops2 : List (HloOp τ sig (Elt F))).Forall fun op => op.bufs ⊆ tcRefs τ sig :=
  ⟨unary_bufs_sub .., unary_bufs_sub .., ternary_bufs_sub .., unary_bufs_sub .., unary_bufs_sub .., binary_bufs_sub ..⟩

theorem ops_sub : (ops : List (HloOp τ sig (Elt F))).Forall fun op => op.bufs ⊆ tcRefs τ sig := by
  rw [List.forall_iff_forall_mem]
  intro op h
  rcases List.mem_append.mp h with h | h
  · exact List.forall_iff_forall_mem.mp ops0_sub op h
  · rcases List.mem_append.mp h with h | h
    · exact List.forall_iff_forall_mem.mp ops1_sub op h
    · exact List.forall_iff_forall_mem.mp ops2_sub op h

end Cert.ReferenceIdeal.RefRun

end
-- ==== Proof.RefRead0.lean ====
import proofs.«175277_j21938692947970_1_alg».proof.Proof.RefOps
import proofs.«175277_j21938692947970_1_alg».proof.Proof.GcnSpec

/-! The first sixty statements of the reference read at the buffers the later statements use: the first layer's
    aggregation, its column means and variances, the two rows of edge ids, and the arguments. The window is read
    in two pieces — up to the aggregation's output, then the mean and the variance over that output — so that the
    aggregation's term is named once and not repeated inside the variance. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gcn

/-- The fold over a concatenation is the folds one after the other. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

theorem ops0_after (V : Valuation τ sig (Elt Ideal)) :
    after (ops0 (F := Ideal)) V = after ops0b (after ops0a V) := by
  rw [ops0_split, after_app]

/-! ## Up to the first layer's output -/

attribute [local irreducible] Host.scatterAdd Host.gather Host.reduceAdd in
set_option maxRecDepth 16384 in
set_option maxHeartbeats 4000000 in
theorem v43a_eq (V : Valuation τ sig (Elt Ideal)) :
    after (ops0a (F := Ideal)) V (main_v43 : DevRef τ sig) = (aggOf (V (main_arg1 : DevRef τ sig)) (mmOf (V (main_arg0 : DevRef τ sig)) (V (main_arg2 : DevRef τ sig))) (V (main_arg3 : DevRef τ sig))) := by
  after_results_simp
  rfl

set_option maxRecDepth 16384 in
set_option maxHeartbeats 4000000 in
theorem v1a_eq (V : Valuation τ sig (Elt Ideal)) :
    after (ops0a (F := Ideal)) V (main_v1 : DevRef τ sig) = edgeRow0 (V (main_arg1 : DevRef τ sig)) := by
  after_results_simp
  rfl

set_option maxRecDepth 16384 in
set_option maxHeartbeats 4000000 in
theorem v3a_eq (V : Valuation τ sig (Elt Ideal)) :
    after (ops0a (F := Ideal)) V (main_v3 : DevRef τ sig) = edgeRow1 (V (main_arg1 : DevRef τ sig)) := by
  after_results_simp
  rfl

set_option maxRecDepth 16384 in
set_option maxHeartbeats 4000000 in
theorem args0a (V : Valuation τ sig (Elt Ideal)) :
    after (ops0a (F := Ideal)) V (main_arg0 : DevRef τ sig) = V (main_arg0 : DevRef τ sig)
      ∧ after (ops0a (F := Ideal)) V (main_arg1 : DevRef τ sig) = V (main_arg1 : DevRef τ sig)
      ∧ after (ops0a (F := Ideal)) V (main_arg2 : DevRef τ sig) = V (main_arg2 : DevRef τ sig)
      ∧ after (ops0a (F := Ideal)) V (main_arg3 : DevRef τ sig) = V (main_arg3 : DevRef τ sig)
      ∧ after (ops0a (F := Ideal)) V (main_arg4 : DevRef τ sig) = V (main_arg4 : DevRef τ sig)
      ∧ after (ops0a (F := Ideal)) V (main_arg5 : DevRef τ sig) = V (main_arg5 : DevRef τ sig)
      ∧ after (ops0a (F := Ideal)) V (main_arg6 : DevRef τ sig) = V (main_arg6 : DevRef τ sig)
      ∧ after (ops0a (F := Ideal)) V (main_arg7 : DevRef τ sig) = V (main_arg7 : DevRef τ sig) := by
  refine ⟨?_, ?_, ?_, ?_, ?_, ?_, ?_, ?_⟩ <;> after_results_simp

/-! ## The mean and the variance over it -/

attribute [local irreducible] Host.scatterAdd Host.gather Host.reduceAdd in
set_option maxRecDepth 16384 in
set_option maxHeartbeats 4000000 in
theorem v46b_eq (W : Valuation τ sig (Elt Ideal)) :
    after (ops0b (F := Ideal)) W (main_v46 : DevRef τ sig) = meanOf (W (main_v43 : DevRef τ sig)) := by
  after_results_simp
  rfl

attribute [local irreducible] Host.scatterAdd Host.gather Host.reduceAdd in
set_option maxRecDepth 16384 in
set_option maxHeartbeats 4000000 in
theorem v47b_eq (W : Valuation τ sig (Elt Ideal)) :
    after (ops0b (F := Ideal)) W (main_v47 : DevRef τ sig) = varOf (W (main_v43 : DevRef τ sig)) := by
  after_results_simp
  simp only [cast_eq]
  rfl

set_option maxRecDepth 16384 in
set_option maxHeartbeats 4000000 in
theorem keep0b (V : Valuation τ sig (Elt Ideal)) :
    after (ops0b (F := Ideal)) V (main_v43 : DevRef τ sig) = V (main_v43 : DevRef τ sig)
      ∧ after (ops0b (F := Ideal)) V (main_v1 : DevRef τ sig) = V (main_v1 : DevRef τ sig)
      ∧ after (ops0b (F := Ideal)) V (main_v3 : DevRef τ sig) = V (main_v3 : DevRef τ sig) := by
  refine ⟨?_, ?_, ?_⟩ <;> after_results_simp

set_option maxRecDepth 16384 in
set_option maxHeartbeats 4000000 in
theorem args0b (V : Valuation τ sig (Elt Ideal)) :
    after (ops0b (F := Ideal)) V (main_arg0 : DevRef τ sig) = V (main_arg0 : DevRef τ sig)
      ∧ after (ops0b (F := Ideal)) V (main_arg1 : DevRef τ sig) = V (main_arg1 : DevRef τ sig)
      ∧ after (ops0b (F := Ideal)) V (main_arg2 : DevRef τ sig) = V (main_arg2 : DevRef τ sig)
      ∧ after (ops0b (F := Ideal)) V (main_arg3 : DevRef τ sig) = V (main_arg3 : DevRef τ sig)
      ∧ after (ops0b (F := Ideal)) V (main_arg4 : DevRef τ sig) = V (main_arg4 : DevRef τ sig)
      ∧ after (ops0b (F := Ideal)) V (main_arg5 : DevRef τ sig) = V (main_arg5 : DevRef τ sig)
      ∧ after (ops0b (F := Ideal)) V (main_arg6 : DevRef τ sig) = V (main_arg6 : DevRef τ sig)
      ∧ after (ops0b (F := Ideal)) V (main_arg7 : DevRef τ sig) = V (main_arg7 : DevRef τ sig) := by
  refine ⟨?_, ?_, ?_, ?_, ?_, ?_, ?_, ?_⟩ <;> after_results_simp

/-! ## The whole first window -/

/-- The first layer before normalisation. -/
theorem v43_eq (V : Valuation τ sig (Elt Ideal)) :
    after (ops0 (F := Ideal)) V (main_v43 : DevRef τ sig) = (aggOf (V (main_arg1 : DevRef τ sig)) (mmOf (V (main_arg0 : DevRef τ sig)) (V (main_arg2 : DevRef τ sig))) (V (main_arg3 : DevRef τ sig))) := by
  rw [ops0_after, (keep0b _).1, v43a_eq]

/-- Its column means. -/
theorem v46_eq (V : Valuation τ sig (Elt Ideal)) :
    after (ops0 (F := Ideal)) V (main_v46 : DevRef τ sig) = meanOf (aggOf (V (main_arg1 : DevRef τ sig)) (mmOf (V (main_arg0 : DevRef τ sig)) (V (main_arg2 : DevRef τ sig))) (V (main_arg3 : DevRef τ sig))) := by
  rw [ops0_after, v46b_eq, v43a_eq]

/-- Its column variances. -/
theorem v47_eq (V : Valuation τ sig (Elt Ideal)) :
    after (ops0 (F := Ideal)) V (main_v47 : DevRef τ sig) = varOf (aggOf (V (main_arg1 : DevRef τ sig)) (mmOf (V (main_arg0 : DevRef τ sig)) (V (main_arg2 : DevRef τ sig))) (V (main_arg3 : DevRef τ sig))) := by
  rw [ops0_after, v47b_eq, v43a_eq]

/-- The two rows of edge ids. -/
theorem v1_eq (V : Valuation τ sig (Elt Ideal)) :
    after (ops0 (F := Ideal)) V (main_v1 : DevRef τ sig) = edgeRow0 (V (main_arg1 : DevRef τ sig)) := by
  rw [ops0_after, (keep0b _).2.1, v1a_eq]

theorem v3_eq (V : Valuation τ sig (Elt Ideal)) :
    after (ops0 (F := Ideal)) V (main_v3 : DevRef τ sig) = edgeRow1 (V (main_arg1 : DevRef τ sig)) := by
  rw [ops0_after, (keep0b _).2.2, v3a_eq]

/-- No statement writes an argument. -/
theorem args0 (V : Valuation τ sig (Elt Ideal)) :
    after (ops0 (F := Ideal)) V (main_arg0 : DevRef τ sig) = V (main_arg0 : DevRef τ sig)
      ∧ after (ops0 (F := Ideal)) V (main_arg1 : DevRef τ sig) = V (main_arg1 : DevRef τ sig)
      ∧ after (ops0 (F := Ideal)) V (main_arg2 : DevRef τ sig) = V (main_arg2 : DevRef τ sig)
      ∧ after (ops0 (F := Ideal)) V (main_arg3 : DevRef τ sig) = V (main_arg3 : DevRef τ sig)
      ∧ after (ops0 (F := Ideal)) V (main_arg4 : DevRef τ sig) = V (main_arg4 : DevRef τ sig)
      ∧ after (ops0 (F := Ideal)) V (main_arg5 : DevRef τ sig) = V (main_arg5 : DevRef τ sig)
      ∧ after (ops0 (F := Ideal)) V (main_arg6 : DevRef τ sig) = V (main_arg6 : DevRef τ sig)
      ∧ after (ops0 (F := Ideal)) V (main_arg7 : DevRef τ sig) = V (main_arg7 : DevRef τ sig) := by
  rw [ops0_after]
  obtain ⟨a0, a1, a2, a3, a4, a5, a6, a7⟩ := args0a V
  obtain ⟨b0, b1, b2, b3, b4, b5, b6, b7⟩ := args0b (after ops0a V)
  exact ⟨b0.trans a0, b1.trans a1, b2.trans a2, b3.trans a3, b4.trans a4, b5.trans a5, b6.trans a6, b7.trans a7⟩

end Cert.ReferenceIdeal.RefRun

end
-- ==== Proof.RefRead1.lean ====
import proofs.«175277_j21938692947970_1_alg».proof.Proof.RefRead0

/-! The second window of the reference up to the second layer's id arrays, read over the first window's values:
    the normalised and rectified first layer times the second weight, and the two id arrays rebuilt from the rows
    of edge ids and a fresh iota. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gcn

/-- Two id arrays laid end to end (the given edges, then the self loops), as a function of the two arrays. -/
def cat2 : (⟨S600000, .i32⟩ : BufTy).Contents (Elt Ideal) → (⟨S100000, .i32⟩ : BufTy).Contents (Elt Ideal) →
    (⟨S700000, .i32⟩ : BufTy).Contents (Elt Ideal) :=
  fun a b => concatenate S700000 0 [⟨S600000, a⟩, ⟨S100000, b⟩] concatenates_S600000_S100000_S700000_d0

theorem cat2_sIds (ei : EIdx) : cat2 (edgeRow0 ei) (iotaInDim S100000 32 0) = sIds ei := rfl
theorem cat2_dIds (ei : EIdx) : cat2 (edgeRow1 ei) (iotaInDim S100000 32 0) = dIds ei := rfl

theorem ops1_after (W : Valuation τ sig (Elt Ideal)) :
    after (ops1 (F := Ideal)) W = after ops1b (after ops1a W) := by
  rw [ops1_split, after_app]

attribute [local irreducible] Host.scatterAdd Host.gather Host.reduceAdd in
set_option maxRecDepth 16384 in
set_option maxHeartbeats 4000000 in
/-- The second layer's dense product, over a first window that holds the mean and the variance of its output. -/
theorem v64a_eq (W : Valuation τ sig (Elt Ideal))
    (h46 : W (main_v46 : DevRef τ sig) = meanOf (W (main_v43 : DevRef τ sig)))
    (h47 : W (main_v47 : DevRef τ sig) = varOf (W (main_v43 : DevRef τ sig))) :
    after (ops1a (F := Ideal)) W (main_v64 : DevRef τ sig)
      = mmOf (bnRef (W (main_v43 : DevRef τ sig)) (W (main_arg4 : DevRef τ sig)) (W (main_arg5 : DevRef τ sig))) (W (main_arg6 : DevRef τ sig)) := by
  after_results_simp
  simp only [cast_eq]
  rw [h46, h47]
  rfl

set_option maxRecDepth 16384 in
set_option maxHeartbeats 4000000 in
/-- The second layer's source and destination ids. -/
theorem v66a_eq (W : Valuation τ sig (Elt Ideal)) :
    after (ops1a (F := Ideal)) W (main_v66 : DevRef τ sig) = cat2 (W (main_v1 : DevRef τ sig)) (iotaInDim S100000 32 0) := by
  after_results_simp
  rfl

set_option maxRecDepth 16384 in
set_option maxHeartbeats 4000000 in
theorem v67a_eq (W : Valuation τ sig (Elt Ideal)) :
    after (ops1a (F := Ideal)) W (main_v67 : DevRef τ sig) = cat2 (W (main_v3 : DevRef τ sig)) (iotaInDim S100000 32 0) := by
  after_results_simp
  rfl

set_option maxRecDepth 16384 in
set_option maxHeartbeats 4000000 in
theorem args1a (V : Valuation τ sig (Elt Ideal)) :
    after (ops1a (F := Ideal)) V (main_arg0 : DevRef τ sig) = V (main_arg0 : DevRef τ sig)
      ∧ after (ops1a (F := Ideal)) V (main_arg1 : DevRef τ sig) = V (main_arg1 : DevRef τ sig)
      ∧ after (ops1a (F := Ideal)) V (main_arg2 : DevRef τ sig) = V (main_arg2 : DevRef τ sig)
      ∧ after (ops1a (F := Ideal)) V (main_arg3 : DevRef τ sig) = V (main_arg3 : DevRef τ sig)
      ∧ after (ops1a (F := Ideal)) V (main_arg4 : DevRef τ sig) = V (main_arg4 : DevRef τ sig)
      ∧ after (ops1a (F := Ideal)) V (main_arg5 : DevRef τ sig) = V (main_arg5 : DevRef τ sig)
      ∧ after (ops1a (F := Ideal)) V (main_arg6 : DevRef τ sig) = V (main_arg6 : DevRef τ sig)
      ∧ after (ops1a (F := Ideal)) V (main_arg7 : DevRef τ sig) = V (main_arg7 : DevRef τ sig) := by
  refine ⟨?_, ?_, ?_, ?_, ?_, ?_, ?_, ?_⟩ <;> after_results_simp

end Cert.ReferenceIdeal.RefRun

end
-- ==== Proof.RefRun.lean ====
import proofs.«175277_j21938692947970_1_alg».proof.Proof.RefRead1

/-! The reference's run read at its result: every weakly fair execution of @main terminates with the result buffer
    at `Cert.Gcn.refOut` of the eight arguments' launch contents, and the arguments unchanged. The fold of the
    operations over the launch contents is opened window by window — the first layer, its mean and variance, the
    normalised layer times the second weight with the rebuilt id arrays, then the second aggregation over those —
    each window's values named by the specification's terms before the next is opened. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gcn

theorem ops_split (V : Valuation τ sig (Elt Ideal)) :
    after (ops (F := Ideal)) V = after ops2 (after ops1b (after ops1a (after ops0 V))) := by
  rw [ops, after_app, after_app, ops1_after]

attribute [local irreducible] Host.scatterAdd Host.gather Host.reduceAdd in
set_option maxRecDepth 16384 in
set_option maxHeartbeats 4000000 in
/-- The second aggregation, over values that hold the second layer's id arrays. -/
theorem tail_eq (X : Valuation τ sig (Elt Ideal)) (ei : EIdx)
    (h66 : X (main_v66 : DevRef τ sig) = sIds ei) (h67 : X (main_v67 : DevRef τ sig) = dIds ei) :
    after (ops2 (F := Ideal)) (after (ops1b (F := Ideal)) X) (main_v103 : DevRef τ sig)
      = aggOf ei (X (main_v64 : DevRef τ sig)) (X (main_arg7 : DevRef τ sig)) := by
  after_results_simp
  rw [h66, h67]
  rfl

set_option maxRecDepth 16384 in
set_option maxHeartbeats 4000000 in
theorem args1b (V : Valuation τ sig (Elt Ideal)) :
    after (ops1b (F := Ideal)) V (main_arg0 : DevRef τ sig) = V (main_arg0 : DevRef τ sig)
      ∧ after (ops1b (F := Ideal)) V (main_arg1 : DevRef τ sig) = V (main_arg1 : DevRef τ sig)
      ∧ after (ops1b (F := Ideal)) V (main_arg2 : DevRef τ sig) = V (main_arg2 : DevRef τ sig)
      ∧ after (ops1b (F := Ideal)) V (main_arg3 : DevRef τ sig) = V (main_arg3 : DevRef τ sig)
      ∧ after (ops1b (F := Ideal)) V (main_arg4 : DevRef τ sig) = V (main_arg4 : DevRef τ sig)
      ∧ after (ops1b (F := Ideal)) V (main_arg5 : DevRef τ sig) = V (main_arg5 : DevRef τ sig)
      ∧ after (ops1b (F := Ideal)) V (main_arg6 : DevRef τ sig) = V (main_arg6 : DevRef τ sig)
      ∧ after (ops1b (F := Ideal)) V (main_arg7 : DevRef τ sig) = V (main_arg7 : DevRef τ sig) := by
  refine ⟨?_, ?_, ?_, ?_, ?_, ?_, ?_, ?_⟩ <;> after_results_simp

set_option maxRecDepth 16384 in
set_option maxHeartbeats 4000000 in
theorem args2 (V : Valuation τ sig (Elt Ideal)) :
    after (ops2 (F := Ideal)) V (main_arg0 : DevRef τ sig) = V (main_arg0 : DevRef τ sig)
      ∧ after (ops2 (F := Ideal)) V (main_arg1 : DevRef τ sig) = V (main_arg1 : DevRef τ sig)
      ∧ after (ops2 (F := Ideal)) V (main_arg2 : DevRef τ sig) = V (main_arg2 : DevRef τ sig)
      ∧ after (ops2 (F := Ideal)) V (main_arg3 : DevRef τ sig) = V (main_arg3 : DevRef τ sig)
      ∧ after (ops2 (F := Ideal)) V (main_arg4 : DevRef τ sig) = V (main_arg4 : DevRef τ sig)
      ∧ after (ops2 (F := Ideal)) V (main_arg5 : DevRef τ sig) = V (main_arg5 : DevRef τ sig)
      ∧ after (ops2 (F := Ideal)) V (main_arg6 : DevRef τ sig) = V (main_arg6 : DevRef τ sig)
      ∧ after (ops2 (F := Ideal)) V (main_arg7 : DevRef τ sig) = V (main_arg7 : DevRef τ sig) := by
  refine ⟨?_, ?_, ?_, ?_, ?_, ?_, ?_, ?_⟩ <;> after_results_simp

/-- No statement writes an argument. -/
theorem args_eq (V : Valuation τ sig (Elt Ideal)) :
    after (ops (F := Ideal)) V (main_arg0 : DevRef τ sig) = V (main_arg0 : DevRef τ sig)
      ∧ after (ops (F := Ideal)) V (main_arg1 : DevRef τ sig) = V (main_arg1 : DevRef τ sig)
      ∧ after (ops (F := Ideal)) V (main_arg2 : DevRef τ sig) = V (main_arg2 : DevRef τ sig)
      ∧ after (ops (F := Ideal)) V (main_arg3 : DevRef τ sig) = V (main_arg3 : DevRef τ sig)
      ∧ after (ops (F := Ideal)) V (main_arg4 : DevRef τ sig) = V (main_arg4 : DevRef τ sig)
      ∧ after (ops (F := Ideal)) V (main_arg5 : DevRef τ sig) = V (main_arg5 : DevRef τ sig)
      ∧ after (ops (F := Ideal)) V (main_arg6 : DevRef τ sig) = V (main_arg6 : DevRef τ sig)
      ∧ after (ops (F := Ideal)) V (main_arg7 : DevRef τ sig) = V (main_arg7 : DevRef τ sig) := by
  rw [ops_split]
  obtain ⟨a0, a1, a2, a3, a4, a5, a6, a7⟩ := args0 V
  obtain ⟨b0, b1, b2, b3, b4, b5, b6, b7⟩ := args1a (after ops0 V)
  obtain ⟨c0, c1, c2, c3, c4, c5, c6, c7⟩ := args1b (after ops1a (after ops0 V))
  obtain ⟨d0, d1, d2, d3, d4, d5, d6, d7⟩ := args2 (after ops1b (after ops1a (after ops0 V)))
  exact ⟨d0.trans (c0.trans (b0.trans a0)), d1.trans (c1.trans (b1.trans a1)), d2.trans (c2.trans (b2.trans a2)),
    d3.trans (c3.trans (b3.trans a3)), d4.trans (c4.trans (b4.trans a4)), d5.trans (c5.trans (b5.trans a5)),
    d6.trans (c6.trans (b6.trans a6)), d7.trans (c7.trans (b7.trans a7))⟩

/-- The result buffer after the operations: the two layers composed. -/
theorem out_eq (V : Valuation τ sig (Elt Ideal)) :
    after (ops (F := Ideal)) V (main_v103 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  have hW46 : (after (ops0 (F := Ideal)) V) (main_v46 : DevRef τ sig) = meanOf ((after (ops0 (F := Ideal)) V) (main_v43 : DevRef τ sig)) := by rw [v46_eq, v43_eq]
  have hW47 : (after (ops0 (F := Ideal)) V) (main_v47 : DevRef τ sig) = varOf ((after (ops0 (F := Ideal)) V) (main_v43 : DevRef τ sig)) := by rw [v47_eq, v43_eq]
  have h66 : (after (ops1a (F := Ideal)) (after (ops0 (F := Ideal)) V)) (main_v66 : DevRef τ sig) = sIds (V (main_arg1 : DevRef τ sig)) := by rw [v66a_eq, v1_eq, cat2_sIds]
  have h67 : (after (ops1a (F := Ideal)) (after (ops0 (F := Ideal)) V)) (main_v67 : DevRef τ sig) = dIds (V (main_arg1 : DevRef τ sig)) := by rw [v67a_eq, v3_eq, cat2_dIds]
  obtain ⟨_, _, _, _, a4, a5, a6, a7⟩ := args0 V
  obtain ⟨_, _, _, _, _, _, _, b7⟩ := args1a (after (ops0 (F := Ideal)) V)
  rw [ops_split, tail_eq _ _ h66 h67, v64a_eq _ hW46 hW47, b7, v43_eq, a4, a5, a6, a7]
  rfl

/-- At the compiled mesh, from any memory with zero counters: every weakly fair execution of @main terminates with
    the result buffer at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v103) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v103).trans (out_eq _),
      (h c main_arg0).trans (args_eq _).1,
      (h c main_arg1).trans (args_eq _).2.1,
      (h c main_arg2).trans (args_eq _).2.2.1,
      (h c main_arg3).trans (args_eq _).2.2.2.1,
      (h c main_arg4).trans (args_eq _).2.2.2.2.1,
      (h c main_arg5).trans (args_eq _).2.2.2.2.2.1,
      (h c main_arg6).trans (args_eq _).2.2.2.2.2.2.1,
      (h c main_arg7).trans (args_eq _).2.2.2.2.2.2.2⟩)
    (run_seq scopedRefs_eq scopedSems_eq defs main (fun _ => ops) main_eq (fun _ => ops_sub) m ρ)

end Cert.ReferenceIdeal.RefRun

end
-- ==== Proof.KNormRead.lean ====
import proofs.«175277_j21938692947970_1_alg».proof.Proof.KChain
import proofs.«175277_j21938692947970_1_alg».proof.Proof.RegionFns
import Idealize.ShloMosaic.Lib.Pipeline.Value
import Idealize.ShloMosaic.Lib.ValueIdx
import Idealize.ShloMosaic.Lib.ValueLayout
import Idealize.ShloMosaic.Lib.IdealHost

set_option maxRecDepth 16384

noncomputable section

open scoped BigOperators

namespace Cert.KernelIdeal.Chain

open Idealize.ShloMosaic Idealize.ShloMosaic.ValueIdx
open Cert.KernelIdeal Cert.KernelIdeal.RegionValue

/-! ## The scale and shift rows, and the normalised layer, read at one entry

  With S1 and S2 the sum and the sum of squares of column c of h, N the number of rows and E the small constant
  added under the root, the scale of column c is  g(c) * (S2 / N - (S1 / N) * (S1 / N) + E)^(-1/2),  the shift is
  be(c) - (S1 / N) * scale,  and entry (r, c) of the normalised layer is  max (h(r, c) * scale + shift, 0). -/

/-- A one-row matrix read as a flat row, at a column. -/
theorem flat_at (s : FVec Ideal S1x128 .f32) (c : Fin 128) : flat s (ix1 c) = s (ix2 (0 : Fin 1) c) := by
  unfold flat
  exact shapeCast_1a_a_apply s _ c

/-- A flat row laid out as a one-row matrix, at a column. -/
theorem row_at (hb : S128.BroadcastsInDim S1x128 ![1]) (v : FVec Ideal S128 .f32) (c : Fin 128) :
    broadcastInDim S1x128 ![1] hb v (ix2 (0 : Fin 1) c) = v (ix1 c) :=
  broadcastInDim_apply ![1] hb v (ix2 (0 : Fin 1) c) (ix1 c) (fun a => by
    match a with
    | ⟨0, _⟩ => rfl)

/-- The column mean at a column. -/
theorem kMean_at (s1 : FVec Ideal S1x128 .f32) (c : Fin 128) :
    kMean s1 (ix1 c) = Ideal.div (s1 (ix2 (0 : Fin 1) c)) (Ideal.ofBits .f32 0x47C35000#32) := by
  unfold kMean
  show Ideal.div (flat s1 (ix1 c)) (broadcastInDim S128 ![] _ (constant (F := Ideal) S_ .f32 0x47C35000#32) (ix1 c)) = _
  rw [flat_at, broadcastInDim_scalar_apply]
  rfl

/-- The scale row at a column. -/
theorem kScale_at (s1 s2 : FVec Ideal S1x128 .f32) (g : FVec Ideal S128 .f32) (c : Fin 128) :
    kScale s1 s2 g (ix2 (0 : Fin 1) c)
      = g (ix1 c) * Ideal.rsqrt ((Ideal.div (s2 (ix2 (0 : Fin 1) c)) (Ideal.ofBits .f32 0x47C35000#32)
          - Ideal.div (s1 (ix2 (0 : Fin 1) c)) (Ideal.ofBits .f32 0x47C35000#32)
            * Ideal.div (s1 (ix2 (0 : Fin 1) c)) (Ideal.ofBits .f32 0x47C35000#32))
          + Ideal.ofBits .f32 0x3727C5AC#32) := by
  unfold kScale
  rw [row_at]
  show g (ix1 c) * Ideal.rsqrt ((Ideal.div (flat s2 (ix1 c))
        (broadcastInDim S128 ![] _ (constant (F := Ideal) S_ .f32 0x47C35000#32) (ix1 c))
      - kMean s1 (ix1 c) * kMean s1 (ix1 c))
      + broadcastInDim S128 ![] _ (constant (F := Ideal) S_ .f32 0x3727C5AC#32) (ix1 c)) = _
  rw [kMean_at, flat_at, broadcastInDim_scalar_apply, broadcastInDim_scalar_apply]
  rfl

/-- The shift row at a column. -/
theorem kShift_at (s1 s2 : FVec Ideal S1x128 .f32) (g be : FVec Ideal S128 .f32) (c : Fin 128) :
    kShift s1 s2 g be (ix2 (0 : Fin 1) c)
      = be (ix1 c) - Ideal.div (s1 (ix2 (0 : Fin 1) c)) (Ideal.ofBits .f32 0x47C35000#32) * kScale s1 s2 g (ix2 (0 : Fin 1) c) := by
  unfold kShift
  rw [row_at]
  show be (ix1 c) - kMean s1 (ix1 c) * flat (kScale s1 s2 g) (ix1 c) = _
  rw [kMean_at, flat_at]

/-- THE NORMALISED LAYER AT AN ENTRY. -/
theorem norm1_apply (h : FVec Ideal S100000x128 .f32) (g be : FVec Ideal S128 .f32) (r : Fin 100000) (c : Fin 128) :
    affineRelu h (kScale (colSums h) (colSumsSq h) g) (kShift (colSums h) (colSumsSq h) g be) (ix2 r c)
      = max (h (ix2 r c) * (g (ix1 c) * Ideal.rsqrt ((Ideal.div (∑ r' : Fin 100000, h (ix2 r' c) * h (ix2 r' c)) (Ideal.ofBits .f32 0x47C35000#32) - Ideal.div (∑ r' : Fin 100000, h (ix2 r' c)) (Ideal.ofBits .f32 0x47C35000#32) * Ideal.div (∑ r' : Fin 100000, h (ix2 r' c)) (Ideal.ofBits .f32 0x47C35000#32)) + Ideal.ofBits .f32 0x3727C5AC#32))
          + (be (ix1 c) - Ideal.div (∑ r' : Fin 100000, h (ix2 r' c)) (Ideal.ofBits .f32 0x47C35000#32) * (g (ix1 c) * Ideal.rsqrt ((Ideal.div (∑ r' : Fin 100000, h (ix2 r' c) * h (ix2 r' c)) (Ideal.ofBits .f32 0x47C35000#32) - Ideal.div (∑ r' : Fin 100000, h (ix2 r' c)) (Ideal.ofBits .f32 0x47C35000#32) * Ideal.div (∑ r' : Fin 100000, h (ix2 r' c)) (Ideal.ofBits .f32 0x47C35000#32)) + Ideal.ofBits .f32 0x3727C5AC#32)))) 0 := by
  rw [affineRelu_apply]
  show max (h (ix2 r c) * kScale (colSums h) (colSumsSq h) g (ix2 (0 : Fin 1) c)
    + kShift (colSums h) (colSumsSq h) g be (ix2 (0 : Fin 1) c)) 0 = _
  rw [kShift_at, kScale_at]
  rfl

end Cert.KernelIdeal.Chain

end
-- ==== Proof.RefBatchNorm.lean ====
import proofs.«175277_j21938692947970_1_alg».proof.Proof.GcnSpec
import Idealize.ShloMosaic.Lib.IdealHost
import Idealize.ShloMosaic.Lib.KernelVsHost

/-! The reference's batch normalisation read at an index, as a formula on the extended reals: with `μ c` the column
    mean `(0 + ∑ r, h r c) / 100000` and `σ² c` the biased column variance `(0 + ∑ r, (h r c - μ c)²) / 100000`,
    `bnRef h g be` at `(r, c)` is `max ((h r c - μ c) * rsqrt (σ² c + ε) * g c + be c) 0`. The float literals stay
    the words the reference prints. The variance's guard (the count `100000 - 0` being positive) is true, so the
    select takes the quotient. -/

noncomputable section

namespace Cert.Gcn

open Idealize.ShloMosaic Idealize.ShloMosaic.ValueIdx Cert.ReferenceIdeal Cert.ReferenceIdeal.Facts₀
open scoped BigOperators

variable [Cert.ReferenceIdeal.Facts₀]

/-- The column mean of `h` at column `c`. -/
def muAt (h : Mat) (c : Fin 128) : EReal :=
  Ideal.div (Ideal.ofBits .f32 0x00000000#32 + ∑ r : Fin 100000, h (ix2 r c)) (Ideal.ofBits .f32 0x47C35000#32)

/-- The biased column variance of `h` at column `c`. -/
def varAt (h : Mat) (c : Fin 128) : EReal :=
  Ideal.div (Ideal.ofBits .f32 0x00000000#32 + ∑ r : Fin 100000, (h (ix2 r c) - muAt h c) * (h (ix2 r c) - muAt h c))
    (Ideal.ofBits .f32 0x47C35000#32)

/-- The word `0x47C35000` is one hundred thousand. -/
theorem ofBits_1e5 : Ideal.ofBits .f32 0x47C35000#32 = ((100000 : ℝ) : EReal) := by
  simp [Ideal.ofBits, Ideal.ieee, -EReal.coe_mul]
  norm_num

/-- A row laid under every row, read at an index: the row's entry at the column. -/
theorem rowBcast_apply (b : Row) (r : Fin 100000) (c : Fin 128) : rowBcast b (ix2 r c) = b (ix1 c) := by
  unfold rowBcast
  refine (broadcastInDim_oneRow_apply _ _ r c).trans ?_
  exact broadcastInDim_apply ![1] _ b (ix2 (0 : Fin 1) c) (ix1 c) (fun a => match a with | ⟨0, _⟩ => rfl)

/-- The host's reciprocal square root at an index. -/
theorem hostRsqrt_apply {s : Shape} (x : FVec Ideal s .f32) (i : s.Idx) :
    Host.rsqrt (F := Ideal) x i = Ideal.rsqrt (x i) := rfl

/-- The sum down the rows from the zero word, at a column. -/
theorem colSum_apply (x : Mat) (c : Fin 128) :
    Host.reduceAdd (F := Ideal) x (constant (F := Ideal) S_ .f32 0x00000000#32) reducesTo_S100000x128_S128_d0 h_S_ (ix1 c)
      = Ideal.ofBits .f32 0x00000000#32 + ∑ r : Fin 100000, x (ix2 r c) := by
  rw [hostReduceAdd_apply, constant_apply]
  refine (Ideal.hostReduceAdd_single reducesTo_S100000x128_S128_d0
    (by decide : S100000x128.Reduces [0] S128) x _ (ix1 c)).trans ?_
  show _ + ∑ k : Fin 100000, _ = _
  refine congrArg (HAdd.hAdd _) (Finset.sum_congr rfl fun k _ => congrArg x (funext fun a => ?_))
  match a with
  | ⟨0, _⟩ => exact Fin.ext rfl
  | ⟨1, _⟩ => exact Fin.ext rfl

/-- The column means at a column. -/
theorem meanOf_apply (h : Mat) (c : Fin 128) : meanOf h (ix1 c) = muAt h c := by
  unfold meanOf muAt
  rw [hostDivf_apply, colSum_apply, broadcastInDim_scalar_apply, constant_apply]

/-- The count the variance divides by: one hundred thousand less zero. -/
theorem varCount_zero :
    varCount (constantI S_ 32 0#32) ix0 = Ideal.ofBits .f32 0x47C35000#32 := by
  show Ideal.ofBits .f32 0x47C35000#32 - (((0#32 : BitVec 32).toInt : ℝ) : EReal) = _
  simp

/-- The count is positive: the comparison's bit is one. -/
theorem varGuard :
    cmpf (F := Ideal) .ogt (varCount (constantI S_ 32 0#32)) (constant (F := Ideal) S_ .f32 0x00000000#32) ix0 = 1#1 := by
  rw [cmpf_apply, varCount_zero, constant_apply, Ideal.ofBits_zero_f32, ofBits_1e5]
  have hpos : (0 : EReal) < ((100000 : ℝ) : EReal) := by exact_mod_cast (by norm_num : (0 : ℝ) < 100000)
  show BitVec.ofBool (decide ((0 : EReal) < ((100000 : ℝ) : EReal))) = 1#1
  rw [decide_eq_true hpos]
  rfl

/-- The mean recomputed inside the variance, laid under every row. -/
def innerMeanMat (h : Mat) : Mat :=
  broadcastInDim S100000x128 ![0, 1] bcast_S1x128_S100000x128_0_1
    (Host.divf (F := Ideal)
      (broadcastInDim S1x128 ![1] bcast_S128_S1x128_1
        (Host.reduceAdd (F := Ideal) h (constant (F := Ideal) S_ .f32 0x00000000#32) reducesTo_S100000x128_S128_d0 h_S_))
      (broadcastInDim S1x128 ![] bcast_S_S1x128 (constant (F := Ideal) S_ .f32 0x47C35000#32)))

/-- … read at an index: the column mean. -/
theorem innerMean_apply (h : Mat) (r : Fin 100000) (c : Fin 128) : innerMeanMat h (ix2 r c) = muAt h c := by
  unfold innerMeanMat
  refine (broadcastInDim_oneRow_apply _ _ r c).trans ?_
  rw [hostDivf_apply, broadcastInDim_scalar_apply, constant_apply]
  unfold muAt
  have key := (broadcastInDim_apply ![1] bcast_S128_S1x128_1
    (Host.reduceAdd (F := Ideal) h (constant (F := Ideal) S_ .f32 0x00000000#32) reducesTo_S100000x128_S128_d0 h_S_)
    (ix2 (0 : Fin 1) c) (ix1 c) (fun a => match a with | ⟨0, _⟩ => rfl)).trans (colSum_apply h c)
  rw [key]

/-- The column variances at a column. -/
theorem varOf_apply (h : Mat) (c : Fin 128) : varOf h (ix1 c) = varAt h c := by
  unfold varOf varAt
  rw [select_apply, broadcastInDim_scalar_apply, varGuard, select_one, hostDivf_apply, colSum_apply,
    broadcastInDim_scalar_apply, varCount_zero]
  show Ideal.div (Ideal.ofBits .f32 0x00000000#32
      + ∑ r : Fin 100000, mulf (subf h (innerMeanMat h)) (subf h (innerMeanMat h)) (ix2 r c)) (Ideal.ofBits .f32 0x47C35000#32) = _
  simp only [mulf_apply, subf_apply, innerMean_apply]

/-- Batch normalisation, the affine map and the positive part at an index. -/
theorem bnRef_apply (h : Mat) (g be : Row) (r : Fin 100000) (c : Fin 128) :
    bnRef h g be (ix2 r c)
      = max ((h (ix2 r c) - muAt h c) * Ideal.rsqrt (varAt h c + Ideal.ofBits .f32 0x3727C5AC#32) * g (ix1 c) + be (ix1 c))
          (Ideal.ofBits .f32 0x00000000#32) := by
  unfold bnRef
  simp only [maximumf_apply, addf_apply, mulf_apply, subf_apply, rowBcast_apply, meanOf_apply, varOf_apply,
    hostRsqrt_apply]
  rw [broadcastInDim_scalar_apply, broadcastInDim_scalar_apply, constant_apply, constant_apply]

end Cert.Gcn

end
-- ==== Proof.RealBasics.lean ====
/-
  Real-valuedness (finiteness) of extended-real arrays through the host operations of the graph convolution:
  sums, products, finite sums, gathers, accumulating scatters and matrix products of real-valued arrays are
  real-valued; and the precondition "every argument's absolute value is below +∞ everywhere" makes every float
  argument real-valued.  An entry "is a real number" when it equals the coercion of some real.
-/
import proofs.«175277_j21938692947970_1_alg».proof.Pre_finite_inputs
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.ReduceAll

noncomputable section

namespace Cert.Gcn.Real

open Idealize.ShloMosaic Idealize.ShloMosaic.ValueIdx
open scoped BigOperators

/-- The sum of two reals is a real. -/
theorem add_real {x y : EReal} (hx : ∃ a : ℝ, x = (a : EReal)) (hy : ∃ b : ℝ, y = (b : EReal)) :
    ∃ c : ℝ, x + y = (c : EReal) := by
  obtain ⟨a, rfl⟩ := hx
  obtain ⟨b, rfl⟩ := hy
  exact ⟨a + b, (EReal.coe_add a b).symm⟩

/-- The product of two reals is a real. -/
theorem mul_real {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

/-- Zero is a real. -/
theorem zero_real : ∃ c : ℝ, (0 : EReal) = (c : EReal) := ⟨0, EReal.coe_zero.symm⟩

/-- A finite sum of reals is a real. -/
theorem sum_real {ι : Type*} (s : Finset ι) (f : ι → EReal) (h : ∀ i ∈ s, ∃ a : ℝ, f i = (a : EReal)) :
    ∃ c : ℝ, ∑ i ∈ s, f i = (c : EReal) := by
  classical
  induction s using Finset.induction_on with
  | empty => exact ⟨0, by rw [Finset.sum_empty, EReal.coe_zero]⟩
  | insert i s hi ih =>
    rw [Finset.sum_insert hi]
    exact add_real (h i (Finset.mem_insert_self i s)) (ih fun j hj => h j (Finset.mem_insert_of_mem hj))

/-- A gather of a real-valued array is real-valued: each result entry is an operand entry. -/
theorem gather_real {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

/-- An accumulating scatter of real-valued updates into a real-valued operand is real-valued: each entry is the
    operand's plus a finite sum of updates. -/
theorem scatterAdd_real {φ : FTy} {s si u : Shape} {w : Nat} (d : ScatterDims s si u) (x : FVec Ideal s φ)
    (idx : IVec si w) (upd : FVec Ideal u φ) (hx : ∀ i, ∃ r : ℝ, x i = (r : EReal))
    (hu : ∀ i, ∃ r : ℝ, upd i = (r : EReal)) :
    ∀ j, ∃ r : ℝ, Host.scatterAdd (F := Ideal) d x idx upd j = (r : EReal) := by
  intro j
  show ∃ r : ℝ, Ideal.hostScatterAdd d x idx upd j = (r : EReal)
  unfold Ideal.hostScatterAdd
  exact add_real (hx j) (sum_real _ _ fun i _ => hu i)

/-- A matrix product (any contraction) of real-valued arrays is real-valued: each entry is a finite sum of products. -/
theorem mm_real {sl sr so : Shape} {φ₁ φ₂ : FTy} (d : DotDims sl sr so) (prec : Option ContractPrecision)
    (x : FVec Ideal sl φ₁) (W : FVec Ideal sr φ₂) (hx : ∀ i, ∃ r : ℝ, x i = (r : EReal))
    (hW : ∀ i, ∃ r : ℝ, W i = (r : EReal)) :
    ∀ j, ∃ r : ℝ, Host.dotGeneral (F := Ideal) d prec x W j = (r : EReal) := by
  intro j
  simp only [Host.dotGeneral]
  rw [Ideal.dotGeneral_apply]
  exact sum_real _ _ fun k _ => mul_real (hx _) (hW _)

/-- An extended real whose absolute value is below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exfalso; revert h; simp [Ideal.cmp]
  | coe r => exact ⟨r, rfl⟩
  | top => exfalso; revert h; simp [Ideal.cmp]

/-- The rank-zero shape has one index. -/
local instance scalarIdxSubsingleton : Subsingleton Cert.Pre_finite_inputs.S_.Idx := ⟨fun a b => funext fun d => d.elim0⟩

/-- An array all of whose absolute values compare below the `+∞` array is real-valued. -/
theorem real_of_all {s : Shape} {axes : List (Fin s.rank)} (x : FVec Ideal s .f32)
    (hb : (⟨0, ![]⟩ : Shape).BroadcastsInDim s ![]) (hr : s.ReducesTo axes Cert.Pre_finite_inputs.S_)
    (hu : 0 < Cert.Pre_finite_inputs.S_.numel)
    (h : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) :
    ∀ i, ∃ r : ℝ, x i = (r : EReal) := by
  intro i
  have hi := Host.reduce_andi_all _ _ hr hu ix0 h i
  rw [cmpf_apply, broadcastInDim_scalar_apply, constant_apply] at hi
  exact real_of_abs_lt_top (x i) hi

variable [Cert.Pre_finite_inputs.Facts]

/-- THE PRECONDITION MAKES EVERY FLOAT ARGUMENT REAL-VALUED. -/
theorem args_real (x : FVec Ideal Cert.Pre_finite_inputs.S100000x128 .f32) (ei : IVec Cert.Pre_finite_inputs.S2x600000 32)
    (W1 : FVec Ideal Cert.Pre_finite_inputs.S128x128 .f32) (b1 g be : FVec Ideal Cert.Pre_finite_inputs.S128 .f32)
    (W2 : FVec Ideal Cert.Pre_finite_inputs.S128x128 .f32) (b2 : FVec Ideal Cert.Pre_finite_inputs.S128 .f32)
    (h : Cert.Pre_finite_inputs.fn (F := Ideal) x ei W1 b1 g be W2 b2 = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, g i = (r : EReal)) ∧ (∀ i, ∃ r : ℝ, be i = (r : EReal))
      ∧ (∀ i, ∃ r : ℝ, W2 i = (r : EReal)) ∧ (∀ i, ∃ r : ℝ, b2 i = (r : EReal)) := by
  have h0 := congrFun h ix0
  unfold Cert.Pre_finite_inputs.fn Cert.Pre_finite_inputs.fn_part1 at h0
  dsimp only at h0
  obtain ⟨h0, hb2⟩ := IntOp.andi_eq_one.1 h0
  obtain ⟨h0, hW2⟩ := IntOp.andi_eq_one.1 h0
  obtain ⟨h0, hbe⟩ := IntOp.andi_eq_one.1 h0
  obtain ⟨h0, hg⟩ := IntOp.andi_eq_one.1 h0
  obtain ⟨h0, hb1⟩ := IntOp.andi_eq_one.1 h0
  obtain ⟨hx, hW1⟩ := IntOp.andi_eq_one.1 h0
  exact ⟨real_of_all x _ _ _ hx, real_of_all W1 _ _ _ hW1, real_of_all b1 _ _ _ hb1, real_of_all g _ _ _ hg,
    real_of_all be _ _ _ hbe, real_of_all W2 _ _ _ hW2, real_of_all b2 _ _ _ hb2⟩

end Cert.Gcn.Real

end
-- ==== Proof.LibSegmentSum.lean ====
/-
  An accumulating scatter of a flat list of updates into a flat array, read at an index — the form a
  segment sum `out[seg[k]] += data[k]` takes — in its two spellings: updates and result as flat arrays
  (`[e]` into `[n]`), and as one-column matrices (`[e, 1]` into `[n, 1]`, the column a window axis).
  In both the result at position `i` is the operand there plus the sum, over the update rows `k` whose
  segment id (the index array's entry `[k, 0]`, read as a signed integer) equals `i`, of update `k`;
  an id outside `[0, n)` names no position and its update is dropped. So the two spellings are one
  function, up to the reshaping of a column into a flat array.
-/
import Idealize.ShloMosaic.PureOps.Ideal
import Idealize.ShloMosaic.Lib.ValueIdx
import Idealize.ShloMosaic.Lib.Pipeline.Value

noncomputable section

namespace Idealize.ShloMosaic.SegmentSum

open Idealize.ShloMosaic Idealize.ShloMosaic.ValueIdx
open scoped BigOperators

/-! ## Flat arrays and one-column matrices are indexed by their rows -/

/-- A flat array's indices are its positions. -/
def rowEquiv1 {n : Nat} : (⟨1, ![n]⟩ : Shape).Idx ≃ Fin n where
  toFun j := j 0
  invFun := ix1
  left_inv j := (eq_ix1 j).symm
  right_inv _ := rfl

/-- A one-column matrix's indices are its rows. -/
def rowEquiv2 {n : Nat} : (⟨2, ![n, 1]⟩ : Shape).Idx ≃ Fin n where
  toFun j := j 0
  invFun a := ix2 a 0
  left_inv j := by
    funext a
    match a with
    | ⟨0, _⟩ => rfl
    | ⟨1, _⟩ => exact Subsingleton.elim (α := Fin 1) _ _
  right_inv _ := rfl

/-- On the extended reals the host's accumulating scatter is the exact sum, whatever the schedule. -/
theorem scatterAdd_ideal {φ : FTy} {s si u : Shape} {w : Nat} (d : ScatterDims s si u) (x : FVec Ideal s φ)
    (idx : IVec si w) (upd : FVec Ideal u φ) :
    Host.scatterAdd (F := Ideal) d x idx upd = Ideal.hostScatterAdd d x idx upd := rfl

/-! ## The layout operations around a segment sum, read at an index -/

/-- The ids `[n]` broadcast to the index array `[n, 1]` read, at `(k, 0)`, id `k`. -/
theorem ids_apply {α : Type} {n : Nat} (h : (⟨1, ![n]⟩ : Shape).BroadcastsInDim ⟨2, ![n, 1]⟩ ![0]) (hn : n ≠ 1)
    (x : (⟨1, ![n]⟩ : Shape).Idx → α) (k : Fin n) :
    broadcastInDim ⟨2, ![n, 1]⟩ ![0] h x (ix2 k (0 : Fin 1)) = x (ix1 k) :=
  broadcastInDim_apply _ h x (ix2 k 0) (ix1 k) (fun b => match b with
    | ⟨0, _⟩ => by show k.val = if n = 1 then 0 else k.val; rw [if_neg hn])

/-- A one-column matrix `[n, 1]` reshaped to the flat array `[n]` reads, at `k`, entry `(k, 0)`. -/
theorem flatten_apply {α : Type} {n : Nat} (h : (⟨2, ![n, 1]⟩ : Shape).ShapeCasts ⟨1, ![n]⟩)
    (y : (⟨2, ![n, 1]⟩ : Shape).Idx → α) (k : Fin n) :
    shapeCast ⟨1, ![n]⟩ y h (ix1 k) = y (ix2 k (0 : Fin 1)) :=
  shapeCast_apply y h (ix1 k) (ix2 k 0) (by
    rw [Shape.rowMajor_val_two, Shape.rowMajor_val_one]; show k.val * 1 + 0 = k.val; omega)

/-! ## The flat spelling -/

/-- The dimension numbers of a scatter of flat updates `[e]` into a flat operand `[n]` at indices `[e, 1]`:
    no window axis, the operand's one axis inserted and indexed by the index vector's one component. -/
abbrev flatDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

section Flat
variable {n e w : Nat} (wf : ScatterDims.WF ⟨1, ![n]⟩ ⟨2, ![e, 1]⟩ ⟨1, ![e]⟩ [] [0] [0] 1)

/-- Update `j` starts at the segment id of its row. -/
theorem flat_start (j : (⟨1, ![e]⟩ : Shape).Idx) (idx : IVec ⟨2, ![e, 1]⟩ w) :
    (flatDims n e wf).start j idx 0 = (idx (ix2 (j 0) 0)).toInt := by
  unfold ScatterDims.start
  rw [dif_pos (show (0 : Fin 1) ∈ (flatDims n e wf).scatterDimsToOperandDims from List.mem_singleton.mpr rfl)]
  have hsi : (flatDims n e wf).siIdx j ⟨List.idxOf (0 : Fin 1) (flatDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- There is no window: the only operand axis is inserted. -/
theorem flat_window (j : (⟨1, ![e]⟩ : Shape).Idx) : (flatDims n e wf).window j 0 = 0 := by
  unfold ScatterDims.window
  rw [dif_neg (fun h => by
    have h2 := (List.mem_filter.mp h).2
    simp at h2)]

/-- Update `j` lands on position `i` exactly when its row's segment id is `i`. -/
theorem flat_resultIdx (j : (⟨1, ![e]⟩ : Shape).Idx) (idx : IVec ⟨2, ![e, 1]⟩ w) (i : (⟨1, ![n]⟩ : Shape).Idx) :
    (flatDims n e wf).resultIdx? j idx = some i ↔ (idx (ix2 (j 0) 0)).toInt = ((i 0).val : ℤ) := by
  unfold ScatterDims.resultIdx?
  split_ifs with h
  · rw [Option.some.injEq]
    constructor
    · intro hi
      have h0 := (h 0).1
      rw [← hi]
      show _ = (((flatDims n e wf).start j idx 0 + ((flatDims n e wf).window j 0 : ℕ)).toNat : ℤ)
      rw [Int.toNat_of_nonneg h0, flat_start, flat_window]; simp
    · intro hi
      funext a
      obtain rfl : a = 0 := Subsingleton.elim _ _
      refine Fin.ext ?_
      show ((flatDims n e wf).start j idx 0 + ((flatDims n e wf).window j 0 : ℕ)).toNat = (i 0).val
      rw [flat_start, flat_window, hi]; simp
  · constructor
    · intro hi; exact absurd hi (by simp)
    · intro hi
      exfalso; apply h
      intro a
      obtain rfl : a = 0 := Subsingleton.elim _ _
      rw [flat_start, flat_window, hi]
      have := (i 0).isLt
      constructor <;> omega

/-- THE FLAT SCATTER READ AT `i`: the operand there plus the updates of the rows whose segment id is `i`. -/
theorem flat_apply (x : (⟨1, ![n]⟩ : Shape).Idx → EReal) (idx : IVec ⟨2, ![e, 1]⟩ w)
    (upd : (⟨1, ![e]⟩ : Shape).Idx → EReal) (i : (⟨1, ![n]⟩ : Shape).Idx) :
    Ideal.hostScatterAdd (flatDims n e wf) x idx upd i
      = x i + ∑ k : Fin e, if (idx (ix2 k 0)).toInt = ((i 0).val : ℤ) then upd (ix1 k) else 0 := by
  unfold Ideal.hostScatterAdd
  refine congrArg (x i + ·) ?_
  rw [Finset.sum_filter]
  refine Fintype.sum_equiv rowEquiv1 _ _ fun j => ?_
  show _ = if (idx (ix2 (j 0) 0)).toInt = ((i 0).val : ℤ) then upd (ix1 (j 0)) else 0
  by_cases h : (idx (ix2 (j 0) 0)).toInt = ((i 0).val : ℤ)
  · rw [if_pos ((flat_resultIdx wf j idx i).mpr h), if_pos h]
    exact congrArg upd (eq_ix1 j)
  · rw [if_neg (mt (flat_resultIdx wf j idx i).mp h), if_neg h]

end Flat

/-! ## The one-column spelling -/

/-- The dimension numbers of a scatter of one-column updates `[e, 1]` into a one-column operand `[n, 1]` at
    indices `[e, 1]`: the column is the window axis, the operand's row axis inserted and indexed. -/
abbrev colDims (n e : Nat) (wf : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ where
  updateWindowDims := [1]
  insertedWindowDims := [0]
  scatterDimsToOperandDims := [0]
  indexVectorDim := 1
  wf := wf

section Col
variable {n e w : Nat} (wf : ScatterDims.WF ⟨2, ![n, 1]⟩ ⟨2, ![e, 1]⟩ ⟨2, ![e, 1]⟩ [1] [0] [0] 1)

/-- On the row axis update `j` starts at the segment id of its row; -/
theorem col_start0 (j : (⟨2, ![e, 1]⟩ : Shape).Idx) (idx : IVec ⟨2, ![e, 1]⟩ w) :
    (colDims n e wf).start j idx 0 = (idx (ix2 (j 0) 0)).toInt := by
  unfold ScatterDims.start
  rw [dif_pos (show (0 : Fin 2) ∈ (colDims n e wf).scatterDimsToOperandDims from List.mem_singleton.mpr rfl)]
  have hsi : (colDims n e wf).siIdx j ⟨List.idxOf (0 : Fin 2) (colDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the column axis at `0`. -/
theorem col_start1 (j : (⟨2, ![e, 1]⟩ : Shape).Idx) (idx : IVec ⟨2, ![e, 1]⟩ w) :
    (colDims n e wf).start j idx 1 = 0 := by
  unfold ScatterDims.start
  rw [dif_neg (show ¬ (1 : Fin 2) ∈ ([0] : List (Fin 2)) by decide)]

/-- The row axis is inserted: no window coordinate there; -/
theorem col_window0 (j : (⟨2, ![e, 1]⟩ : Shape).Idx) : (colDims n e wf).window j 0 = 0 := by
  unfold ScatterDims.window
  rw [dif_neg (fun h => by
    have h2 := (List.mem_filter.mp h).2
    simp at h2)]

/-- the column axis carries the update's column coordinate. -/
theorem col_window1 (j : (⟨2, ![e, 1]⟩ : Shape).Idx) : (colDims n e wf).window j 1 = (j 1).val := by
  unfold ScatterDims.window
  rw [dif_pos (show (1 : Fin 2) ∈ (colDims n e wf).sKept from
    List.mem_filter.mpr ⟨List.mem_finRange _, by simp⟩)]
  rfl

/-- Update `j` lands on position `i` exactly when its row's segment id is `i`'s row (the columns, of width
    one, always agree). -/
theorem col_resultIdx (j : (⟨2, ![e, 1]⟩ : Shape).Idx) (idx : IVec ⟨2, ![e, 1]⟩ w) (i : (⟨2, ![n, 1]⟩ : Shape).Idx) :
    (colDims n e wf).resultIdx? j idx = some i ↔ (idx (ix2 (j 0) 0)).toInt = ((i 0).val : ℤ) := by
  have hj1 : (j 1).val = 0 := by have : (j 1).val < 1 := (j 1).isLt; omega
  have hi1 : (i 1).val = 0 := by have : (i 1).val < 1 := (i 1).isLt; omega
  unfold ScatterDims.resultIdx?
  split_ifs with h
  · rw [Option.some.injEq]
    constructor
    · intro hi
      have h0 := (h 0).1
      rw [← hi]
      show _ = (((colDims n e wf).start j idx 0 + ((colDims n e wf).window j 0 : ℕ)).toNat : ℤ)
      rw [Int.toNat_of_nonneg h0, col_start0, col_window0]; simp
    · intro hi
      funext a
      refine Fin.ext ?_
      match a with
      | ⟨0, _⟩ =>
        show ((colDims n e wf).start j idx 0 + ((colDims n e wf).window j 0 : ℕ)).toNat = (i 0).val
        rw [col_start0, col_window0, hi]; simp
      | ⟨1, _⟩ =>
        show ((colDims n e wf).start j idx 1 + ((colDims n e wf).window j 1 : ℕ)).toNat = (i 1).val
        rw [col_start1, col_window1, hj1, hi1]; simp
  · constructor
    · intro hi; exact absurd hi (by simp)
    · intro hi
      exfalso; apply h
      intro a
      match a with
      | ⟨0, _⟩ =>
        show 0 ≤ (colDims n e wf).start j idx 0 + ((colDims n e wf).window j 0 : ℕ)
          ∧ (colDims n e wf).start j idx 0 + ((colDims n e wf).window j 0 : ℕ) < ((⟨2, ![n, 1]⟩ : Shape).size 0 : ℕ)
        rw [col_start0, col_window0, hi]
        have := (i 0).isLt
        constructor <;> omega
      | ⟨1, _⟩ =>
        show 0 ≤ (colDims n e wf).start j idx 1 + ((colDims n e wf).window j 1 : ℕ)
          ∧ (colDims n e wf).start j idx 1 + ((colDims n e wf).window j 1 : ℕ) < ((⟨2, ![n, 1]⟩ : Shape).size 1 : ℕ)
        rw [col_start1, col_window1, hj1]
        have : ((⟨2, ![n, 1]⟩ : Shape).size 1 : ℕ) = 1 := rfl
        constructor <;> omega

/-- THE ONE-COLUMN SCATTER READ AT `i`: the operand there plus the updates of the rows whose segment id is
    `i`'s row. -/
theorem col_apply (x : (⟨2, ![n, 1]⟩ : Shape).Idx → EReal) (idx : IVec ⟨2, ![e, 1]⟩ w)
    (upd : (⟨2, ![e, 1]⟩ : Shape).Idx → EReal) (i : (⟨2, ![n, 1]⟩ : Shape).Idx) :
    Ideal.hostScatterAdd (colDims n e wf) x idx upd i
      = x i + ∑ k : Fin e, if (idx (ix2 k 0)).toInt = ((i 0).val : ℤ) then upd (ix2 k 0) else 0 := by
  unfold Ideal.hostScatterAdd
  refine congrArg (x i + ·) ?_
  rw [Finset.sum_filter]
  refine Fintype.sum_equiv rowEquiv2 _ _ fun j => ?_
  show _ = if (idx (ix2 (j 0) 0)).toInt = ((i 0).val : ℤ) then upd (ix2 (j 0) 0) else 0
  have hj : ix2 (j 0) (0 : Fin 1) = j := rowEquiv2.left_inv j
  by_cases h : (idx (ix2 (j 0) 0)).toInt = ((i 0).val : ℤ)
  · rw [if_pos ((col_resultIdx wf j idx i).mpr h), if_pos h]
    exact congrArg upd hj.symm
  · rw [if_neg (mt (col_resultIdx wf j idx i).mp h), if_neg h]

end Col

end Idealize.ShloMosaic.SegmentSum

end
-- ==== Proof.AggReal.lean ====
/-
  Real-valuedness through the graph aggregation.

  Whatever the edge-index words are, every node's in-degree counts its own self loop (edge `600000 + i` has destination
  `i`), so the degree is a real number at least one, its inverse square root a positive real, every edge weight a real,
  every contribution a real, and a node's sum of contributions plus its bias a real.
-/
import proofs.«175277_j21938692947970_1_alg».proof.Proof.GcnSpec
import proofs.«175277_j21938692947970_1_alg».proof.Proof.RealBasics
import proofs.«175277_j21938692947970_1_alg».proof.Proof.LibSegmentSum

noncomputable section

namespace Cert.Gcn.Real

open Idealize.ShloMosaic Idealize.ShloMosaic.ValueIdx Cert.ReferenceIdeal Cert.ReferenceIdeal.Facts₀ Cert.Gcn
open scoped BigOperators

/-- A broadcast of a real-valued array is real-valued: each result entry is an operand entry. -/
theorem bcast_real {s t : Shape} (dims : Fin s.rank → Fin t.rank) (h : s.BroadcastsInDim t dims) (x : s.Idx → EReal)
    (hx : ∀ i, ∃ r : ℝ, x i = (r : EReal)) : ∀ j, ∃ r : ℝ, broadcastInDim t dims h x j = (r : EReal) := by
  intro j
  unfold broadcastInDim
  exact hx _

/-- The zero array is real-valued. -/
theorem zeros_real (T : Shape) (h : (⟨0, ![]⟩ : Shape).BroadcastsInDim T ![]) :
    ∀ j, ∃ r : ℝ, broadcastInDim T ![] h (constant (F := Ideal) S_ .f32 0x00000000#32) j = (r : EReal) := by
  intro j
  rw [broadcastInDim_scalar_apply, constant_apply, Ideal.ofBits_zero_f32]
  exact zero_real

/-- A small natural number as a 32-bit word reads, as a signed integer, itself. -/
theorem toInt_ofNat_small (n : Nat) (h : n < 100000) : (BitVec.ofNat 32 n).toInt = (n : ℤ) := by
  rw [BitVec.toInt_eq_toNat_cond, BitVec.toNat_ofNat]
  have hm : n % 2 ^ 32 = n := Nat.mod_eq_of_lt (by omega)
  rw [hm, if_pos (by omega)]

/-- The inverse square root of an array of reals at least one is real-valued. -/
theorem hostRsqrt_real {s : Shape} (v : FVec Ideal s .f32) (hv : ∀ i, ∃ n : ℝ, 1 ≤ n ∧ v i = (n : EReal)) :
    ∀ i, ∃ r : ℝ, Host.rsqrt (F := Ideal) v i = (r : EReal) := by
  intro i
  obtain ⟨n, hn, h⟩ := hv i
  show ∃ r : ℝ, Ideal.rsqrt (v i) = (r : EReal)
  rw [h, Ideal.rsqrt_coe, if_neg (by linarith), if_neg (by linarith)]
  exact ⟨_, rfl⟩

variable [Cert.ReferenceIdeal.Facts₀]

/-- The self loop of node `r` (edge `600000 + r`) has destination `r`. -/
theorem dIds_self (ei : EIdx) (r : Fin 100000) :
    dIds ei (ix1 (⟨600000 + r.val, by omega⟩ : Fin 700000)) = BitVec.ofNat 32 r.val := by
  unfold dIds
  rw [concatenate_pair_apply_right (0 : Fin S700000.rank) _ _ concatenates_S600000_S100000_S700000_d0
    (ix1 (⟨600000 + r.val, by omega⟩ : Fin 700000)) rfl rfl (ix1 r)
    (fun b hb => absurd (Subsingleton.elim _ _) hb)
    (by show r.val + 600000 = 600000 + r.val; omega)]
  rfl

/-- The in-degree of node `r`: zero plus one for every edge whose destination word reads `r`. -/
theorem degOf_apply (ei : EIdx) (r : Fin 100000) :
    degOf ei (ix1 r) = 0 + ∑ k : Fin 700000, if (dIds ei (ix1 k)).toInt = (r.val : ℤ) then (1 : EReal) else 0 := by
  unfold degOf
  rw [SegmentSum.scatterAdd_ideal]
  refine (SegmentSum.flat_apply scatter_S100000_S700000x1_S700000_n_0_0_1_wf _ _ _ (ix1 r)).trans ?_
  rw [broadcastInDim_scalar_apply, constant_apply, Ideal.ofBits_zero_f32]
  refine congrArg (0 + ·) (Finset.sum_congr rfl fun k _ => ?_)
  rw [show colIds (dIds ei) (ix2 k (0 : Fin 1)) = dIds ei (ix1 k) from
        SegmentSum.ids_apply bcast_S700000_S700000x1_0 (by decide) (dIds ei) k,
    broadcastInDim_scalar_apply, constant_apply, Ideal.ofBits_one_f32]

/-- The in-degree is a real number at least one: the node's own self loop always counts. -/
theorem degOf_pos (ei : EIdx) (i : S100000.Idx) : ∃ n : ℝ, 1 ≤ n ∧ degOf ei i = (n : EReal) := by
  classical
  obtain ⟨r, rfl⟩ : ∃ r : Fin 100000, i = ix1 r := ⟨i 0, eq_ix1 i⟩
  rw [degOf_apply, zero_add, Finset.sum_boole]
  have hr : r.val < 100000 := r.isLt
  have hmem : (⟨600000 + r.val, by omega⟩ : Fin 700000)
      ∈ Finset.univ.filter fun k : Fin 700000 => (dIds ei (ix1 k)).toInt = (r.val : ℤ) := by
    rw [Finset.mem_filter]
    exact ⟨Finset.mem_univ _, by rw [dIds_self ei r, toInt_ofNat_small _ hr]⟩
  have hc : 0 < (Finset.univ.filter fun k : Fin 700000 => (dIds ei (ix1 k)).toInt = (r.val : ℤ)).card :=
    Finset.card_pos.mpr ⟨_, hmem⟩
  generalize (Finset.univ.filter fun k : Fin 700000 => (dIds ei (ix1 k)).toInt = (r.val : ℤ)).card = m at hc ⊢
  exact ⟨(m : ℝ), Nat.one_le_cast.mpr hc, (EReal.coe_coe_eq_natCast m).symm⟩

/-- The inverse square root of the in-degree is a real number. -/
theorem dinvOf_real (ei : EIdx) : ∀ i, ∃ r : ℝ, dinvOf ei i = (r : EReal) := by
  unfold dinvOf
  exact hostRsqrt_real _ (degOf_pos ei)

/-- Every edge weight is a real number. -/
theorem normOf_real (ei : EIdx) : ∀ k, ∃ r : ℝ, normOf ei k = (r : EReal) := by
  intro k
  unfold normOf
  rw [mulf_apply]
  exact mul_real (gather_real _ _ _ (dinvOf_real ei) k) (gather_real _ _ _ (dinvOf_real ei) k)

/-- THE AGGREGATION OF A REAL-VALUED ARRAY WITH A REAL-VALUED BIAS IS REAL-VALUED, whatever the edge-index words. -/
theorem agg_real (ei : EIdx) (hp : Mat) (b : Row) (hhp : ∀ i, ∃ r : ℝ, hp i = (r : EReal))
    (hb : ∀ i, ∃ r : ℝ, b i = (r : EReal)) : ∀ i, ∃ r : ℝ, aggOf ei hp b i = (r : EReal) := by
  intro i
  unfold aggOf
  rw [addf_apply]
  refine add_real (scatterAdd_real _ _ _ _ (zeros_real _ _) (fun j => ?_) i) ?_
  · rw [mulf_apply]
    exact mul_real (gather_real _ _ _ hhp j) (bcast_real _ _ _ (bcast_real _ _ _ (normOf_real ei)) j)
  · unfold rowBcast
    exact bcast_real _ _ _ (bcast_real _ _ _ hb) i

local notation "dotD" => dot_S100000x128_S128x128_S100000x128_1_0_0_1_n_n

/-- A dense layer read at an entry: the sum over the 128 inner positions of the products. -/
theorem mmOf_apply (x : Mat) (w : Wt) (r : Fin 100000) (c : Fin 128) :
    mmOf x w (ix2 r c) = ∑ k : Fin 128, x (ix2 r k) * w (ix2 k c) := by
  unfold mmOf
  simp only [Host.dotGeneral]
  rw [Ideal.dotGeneral_apply, ← Equiv.sum_comp (contrEquiv1 dotD 128 rfl rfl).symm]
  refine Finset.sum_congr rfl fun k _ => ?_
  have hk := contrEquiv1_symm_val dotD 128 rfl rfl k
  have el : (dotD).lhsIdx (ix2 r c) ((contrEquiv1 dotD 128 rfl rfl).symm k) = ix2 r k :=
    funext fun a => Fin.ext (by
      match a with
      | ⟨0, _⟩ =>
        show ((dotD).lhsIdx (ix2 r c) ((contrEquiv1 dotD 128 rfl rfl).symm k) 0).val = r.val
        unfold DotDims.lhsIdx
        rw [dif_neg (show ¬(0 : Fin S100000x128.rank) ∈ (dotD).lhsBatch from List.not_mem_nil),
          dif_pos (show (0 : Fin S100000x128.rank) ∈ (dotD).lhsNonContracting from List.mem_singleton.mpr rfl)]
        rfl
      | ⟨1, _⟩ => exact ((dotD).lhsIdx_val_of_single rfl (ix2 r c) _).trans hk)
  have er : (dotD).rhsIdx (ix2 r c) ((contrEquiv1 dotD 128 rfl rfl).symm k) = ix2 k c :=
    funext fun a => Fin.ext (by
      match a with
      | ⟨0, _⟩ => exact ((dotD).rhsIdx_val_of_single rfl (ix2 r c) _).trans hk
      | ⟨1, _⟩ =>
        show ((dotD).rhsIdx (ix2 r c) ((contrEquiv1 dotD 128 rfl rfl).symm k) 1).val = c.val
        unfold DotDims.rhsIdx
        rw [dif_neg (show ¬(1 : Fin S128x128.rank) ∈ (dotD).rhsBatch from List.not_mem_nil),
          dif_pos (show (1 : Fin S128x128.rank) ∈ (dotD).rhsNonContracting from List.mem_singleton.mpr rfl)]
        rfl)
  rw [el, er]

end Cert.Gcn.Real

end
-- ==== Proof.LibBatchNorm.lean ====
/-
  The batch-normalisation law on real numbers and on the extended reals (generic in the number of rows; imports only the
  exact-real reading of the float operations).

  For a column `h` of `N > 0` real numbers with mean `μ = (∑ h) / n` (`n = N`) the biased variance has two spellings,
  the mean of the squares less the squared mean and the mean of the squared deviations:
  `(∑ h²)/n − μ² = (∑ (h − μ)²)/n`, and it is nonnegative. With `r = (var + ε)^(-1/2)`, `ε > 0`, the normalised
  value has two spellings too: `x·(g·r) + (b − μ·(g·r)) = ((x − μ)·r)·g + b`. On the extended reals both hold once
  every number involved is real, which is what the statements below assume.
-/
import Idealize.ShloMosaic.PureOps.Ideal

noncomputable section

namespace Cert.LibBatchNorm

open Idealize.ShloMosaic
open scoped BigOperators

/-- The embedding of the reals commutes with finite sums. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- The mean of the squares less the squared mean is the mean of the squared deviations. -/
theorem var_identity {N : ℕ} (h : Fin N → ℝ) (n : ℝ) (hn : n = (N : ℝ)) (hN : 0 < N) :
    (∑ r, h r * h r) * (1 / n) - ((∑ r, h r) * (1 / n)) * ((∑ r, h r) * (1 / n))
      = (∑ r, (h r - (∑ r, h r) * (1 / n)) * (h r - (∑ r, h r) * (1 / n))) * (1 / n) := by
  have hn0 : n ≠ 0 := by rw [hn]; exact_mod_cast hN.ne'
  set S := ∑ r, h r with hS
  set μ := S * (1 / n) with hμ
  have e : ∑ r, (h r - μ) * (h r - μ) = (∑ r, h r * h r) - 2 * μ * S + (N : ℝ) * (μ * μ) := by
    have : ∀ r, (h r - μ) * (h r - μ) = h r * h r - 2 * μ * h r + μ * μ := fun r => by ring
    rw [Finset.sum_congr rfl fun r _ => this r, Finset.sum_add_distrib, Finset.sum_sub_distrib, ← Finset.mul_sum,
      Finset.sum_const, Finset.card_univ, Fintype.card_fin, nsmul_eq_mul]
  rw [e, ← hn, hμ]
  field_simp
  ring

/-- The mean of the squared deviations is nonnegative. -/
theorem var_nonneg {N : ℕ} (h : Fin N → ℝ) (μ n : ℝ) (hn : 0 < n) : 0 ≤ (∑ r, (h r - μ) * (h r - μ)) * (1 / n) :=
  mul_nonneg (Finset.sum_nonneg fun r _ => mul_self_nonneg _) (by positivity)

/-- The reciprocal square root of a positive real is a real. -/
theorem rsqrt_pos {y : ℝ} (hy : 0 < y) : Ideal.rsqrt (y : EReal) = (((Real.sqrt y)⁻¹ : ℝ) : EReal) := by
  rw [Ideal.rsqrt_coe, if_neg (not_lt.mpr hy.le), if_neg hy.ne']

/-- The word `0x47C35000` is the real number 100000. -/
theorem ofBits_n : Ideal.ofBits .f32 0x47C35000#32 = ((100000 : ℝ) : EReal) := by
  simp [Ideal.ofBits, Ideal.ieee, -EReal.coe_mul]; norm_num

/-- The word `0x3727C5AC` (the float nearest 1e-5) is a positive real number. -/
theorem ofBits_eps : ∃ e : ℝ, 0 < e ∧ Ideal.ofBits .f32 0x3727C5AC#32 = (e : EReal) := by
  refine ⟨(10995116 : ℝ) * 2 ^ (-40 : ℤ), by positivity, ?_⟩
  simp [Ideal.ofBits, Ideal.ieee, -EReal.coe_mul]

/-- The two spellings of the normalised, scaled and shifted value agree on a column of real numbers:
    scale and shift rows from the column's sum and sum of squares on the left; the deviation from the mean times the
    reciprocal root of the mean squared deviation on the right. `Z` is the zero the right side's sums start
    from, `N` the number of rows, `E` the positive guard. -/
theorem bn_law {M : ℕ} (hM : 0 < M) (h : Fin M → ℝ) (r0 : Fin M) (g b : ℝ) (N E Z : EReal)
    (hN : N = ((M : ℝ) : EReal)) (hE : ∃ e : ℝ, 0 < e ∧ E = (e : EReal)) (hZ : Z = 0) :
    max ((h r0 : EReal) * ((g : EReal) * Ideal.rsqrt ((Ideal.div (∑ r, (h r : EReal) * (h r : EReal)) N
            - Ideal.div (∑ r, (h r : EReal)) N * Ideal.div (∑ r, (h r : EReal)) N) + E))
          + ((b : EReal) - Ideal.div (∑ r, (h r : EReal)) N * ((g : EReal) * Ideal.rsqrt ((Ideal.div (∑ r, (h r : EReal) * (h r : EReal)) N
            - Ideal.div (∑ r, (h r : EReal)) N * Ideal.div (∑ r, (h r : EReal)) N) + E)))) 0
      = max (((h r0 : EReal) - Ideal.div (Z + ∑ r, (h r : EReal)) N)
            * Ideal.rsqrt (Ideal.div (Z + ∑ r, ((h r : EReal) - Ideal.div (Z + ∑ r, (h r : EReal)) N)
                * ((h r : EReal) - Ideal.div (Z + ∑ r, (h r : EReal)) N)) N + E)
            * (g : EReal) + (b : EReal)) Z := by
  obtain ⟨e, he, rfl⟩ := hE
  subst hZ hN
  have hM0 : ((M : ℝ)) ≠ 0 := by exact_mod_cast hM.ne'
  have hMpos : (0 : ℝ) < (M : ℝ) := by exact_mod_cast hM
  set S1 : ℝ := ∑ r, h r with hS1
  set μ : ℝ := S1 * (1 / (M : ℝ)) with hμ
  have e1 : (∑ r, (h r : EReal)) = (S1 : EReal) := (coe_sum _ _).symm
  have e2 : (∑ r, (h r : EReal) * (h r : EReal)) = ((∑ r, h r * h r : ℝ) : EReal) := by
    rw [coe_sum]; exact Finset.sum_congr rfl fun r _ => (EReal.coe_mul _ _).symm
  have emu : Ideal.div (S1 : EReal) ((M : ℝ) : EReal) = (μ : EReal) := by
    rw [Ideal.div_coe hM0, ← EReal.coe_mul]
  have e3 : (∑ r, ((h r : EReal) - (μ : EReal)) * ((h r : EReal) - (μ : EReal)))
      = ((∑ r, (h r - μ) * (h r - μ) : ℝ) : EReal) := by
    rw [coe_sum]; exact Finset.sum_congr rfl fun r _ => by rw [← EReal.coe_sub, ← EReal.coe_mul]
  simp only [zero_add]
  rw [e1, e2, emu, e3, Ideal.div_coe hM0, Ideal.div_coe hM0]
  simp only [← EReal.coe_mul, ← EReal.coe_sub, ← EReal.coe_add]
  rw [var_identity h (M : ℝ) rfl hM]
  have hv := var_nonneg h μ (M : ℝ) hMpos
  rw [rsqrt_pos (by linarith : 0 < (∑ r, (h r - μ) * (h r - μ)) * (1 / (M : ℝ)) + e)]
  simp only [← EReal.coe_mul, ← EReal.coe_sub, ← EReal.coe_add]
  congr 2
  ring

end Cert.LibBatchNorm

end
-- ==== Proof.Bridge.lean ====
/-
  The bridge: on finite float arguments the kernel's function of the arguments is the reference's.

  The two matrix products are one function (a row-by-column sum). The first layer's activations are real numbers:
  the inputs are, a product of real matrices is, and the aggregation keeps real numbers real because every degree is a
  positive count. On real activations the kernel's scale-and-shift form of the batch normalisation is the reference's
  deviation form, column by column. The second aggregation is the same operation on both sides.
-/
import proofs.«175277_j21938692947970_1_alg».proof.Proof.KValue
import proofs.«175277_j21938692947970_1_alg».proof.Proof.KNormRead
import proofs.«175277_j21938692947970_1_alg».proof.Proof.RefBatchNorm
import proofs.«175277_j21938692947970_1_alg».proof.Proof.AggReal
import proofs.«175277_j21938692947970_1_alg».proof.Proof.LibBatchNorm
import Idealize.ShloMosaic.PureOps.Ideal.Laws

noncomputable section

namespace Cert.Gcn.Bridge

open Idealize.ShloMosaic Idealize.ShloMosaic.ValueIdx
open Cert.KernelIdeal.RegionValue Cert.KernelIdeal.Chain
open scoped BigOperators

/-- The kernel regions' row-by-column sums are the host's matrix product. -/
theorem matmulRows_eq (x : Cert.Gcn.Mat) (w : Cert.Gcn.Wt) : matmulRows x w = Cert.Gcn.mmOf x w := by
  funext i
  obtain ⟨r, c, rfl⟩ : ∃ (r : Fin 100000) (c : Fin 128), i = ix2 r c := ⟨i 0, i 1, eq_ix2 i⟩
  rw [Cert.Gcn.Real.mmOf_apply]
  rfl

/-- On a matrix of real numbers, with real scale and shift parameters, the kernel's normalisation is the reference's. -/
theorem norm1_eq (h : Cert.Gcn.Mat) (g be : Cert.Gcn.Row)
    (hh : ∀ i, ∃ x : ℝ, h i = (x : EReal)) (hg : ∀ i, ∃ x : ℝ, g i = (x : EReal)) (hbe : ∀ i, ∃ x : ℝ, be i = (x : EReal)) :
    norm1 h g be = Cert.Gcn.bnRef h g be := by
  funext i
  obtain ⟨r, c, rfl⟩ : ∃ (r : Fin 100000) (c : Fin 128), i = ix2 r c := ⟨i 0, i 1, eq_ix2 i⟩
  choose hf hhf using fun r' : Fin 100000 => hh (ix2 r' c)
  obtain ⟨gr, hgr⟩ := hg (ix1 c)
  obtain ⟨br, hbr⟩ := hbe (ix1 c)
  refine (norm1_apply h g be r c).trans ?_
  rw [Cert.Gcn.bnRef_apply h g be r c]
  simp only [Cert.Gcn.muAt, Cert.Gcn.varAt, hhf, hgr, hbr]
  exact Cert.LibBatchNorm.bn_law (M := 100000) (by norm_num) hf r gr br _ _ _
    (by rw [Cert.LibBatchNorm.ofBits_n]; norm_num) Cert.LibBatchNorm.ofBits_eps Ideal.ofBits_zero_f32

/-- On finite float arguments the two programs compute one function. -/
theorem kernelOut_eq_refOut [Cert.Pre_finite_inputs.Facts]
    (x : Cert.Gcn.Mat) (ei : Cert.Gcn.EIdx) (w1 : Cert.Gcn.Wt) (b1 g be : Cert.Gcn.Row) (w2 : Cert.Gcn.Wt) (b2 : Cert.Gcn.Row)
    (hpre : Cert.Pre_finite_inputs.fn (F := Ideal) x ei w1 b1 g be w2 b2 = (fun _ => 1#1)) :
    kernelOut x ei w1 b1 g be w2 b2 = Cert.Gcn.refOut x ei w1 b1 g be w2 b2 := by
  obtain ⟨hx, hw1, hb1, hg, hbe, -, -⟩ := Cert.Gcn.Real.args_real x ei w1 b1 g be w2 b2 hpre
  unfold kernelOut Cert.Gcn.refOut act1
  rw [matmulRows_eq x w1]
  have hh : ∀ i, ∃ r : ℝ, Cert.Gcn.aggOf ei (Cert.Gcn.mmOf x w1) b1 i = (r : EReal) :=
    Cert.Gcn.Real.agg_real ei _ b1 (Cert.Gcn.Real.mm_real _ _ x w1 hx hw1) hb1
  rw [norm1_eq _ g be hh hg hbe, matmulRows_eq]

end Cert.Gcn.Bridge

end
-- ==== Proof.lean ====
/-
  The certificate of a two-layer graph convolution: a kernel program of four TensorCore regions among host operations
  against a host-only reference, equal as functions over the extended reals under finite float inputs.

  Both programs compute `agg (relu (bn (agg (x·W1) + b1)) · W2) + b2`, where `agg` sums, into every node, the rows of the
  nodes its arriving edges leave, each weighted by `deg^(-1/2)[source] · deg^(-1/2)[destination]` (self loops included, so
  every degree is at least one). The gathers and segment sums are the same host operations on both sides. The two sides
  differ in the batch normalisation: the kernel accumulates the column sums and sums of squares over a grid, forms
  `var = E[h²] − mean²`, and applies `h·scale + shift` with `scale = g·(var + ε)^(-1/2)`, `shift = be − mean·scale`; the
  reference forms `var = E[(h − mean)²]` and applies `((h − mean)·(var + ε)^(-1/2))·g + be`. These agree on real numbers,
  and the first layer's activations are real because the inputs are finite and every degree is positive.

  The frames of the two kernel programs are the generated ones; the reference's frame is its run with the result
  dropped; the ideal pass rewrote nothing, so `preserves` is trivial.
-/
import proofs.«175277_j21938692947970_1_alg».proof.Defs
import proofs.«175277_j21938692947970_1_alg».proof.Proof.Gen.Kernel
import proofs.«175277_j21938692947970_1_alg».proof.Proof.Gen.Kernel.Frame
import proofs.«175277_j21938692947970_1_alg».proof.Proof.Gen.KernelIdeal
import proofs.«175277_j21938692947970_1_alg».proof.Proof.Gen.KernelIdeal.Frame
import proofs.«175277_j21938692947970_1_alg».proof.Proof.Gen.ReferenceIdeal
import proofs.«175277_j21938692947970_1_alg».proof.Proof.Gen.Pre_finite_inputs
import proofs.«175277_j21938692947970_1_alg».proof.Proof.KRun
import proofs.«175277_j21938692947970_1_alg».proof.Proof.KValue
import proofs.«175277_j21938692947970_1_alg».proof.Proof.RefRun
import proofs.«175277_j21938692947970_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- Both programs end at the kernel's function of the arguments: the kernel by its run and its boundary contents, the
    reference by its run and the bridge, which uses that the float arguments are finite. -/
theorem algebraic : Cert.algebraic_KernelIdeal_ReferenceIdeal := by
  intro m ρ m' ρ' hpre hagree
  refine ⟨fun c => Cert.KernelIdeal.Chain.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Gcn.Bridge.kernelOut_eq_refOut _ _ _ _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
